-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x4194304 : Shape := ⟨2, ![2, 4194304]⟩
abbrev S16x128 : Shape := ⟨2, ![16, 128]⟩
abbrev S16 : Shape := ⟨1, ![16]⟩
abbrev S39x65536 : Shape := ⟨2, ![39, 65536]⟩
abbrev S39 : Shape := ⟨1, ![39]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S39x65536 : S_.BroadcastsInDim S39x65536 (![] : Fin 0 → Fin S39x65536.rank)
  reducesTo_S39x65536_S_d0_1 : S39x65536.ReducesTo [0, 1] S_
  bcast_S_S39 : S_.BroadcastsInDim S39 (![] : Fin 0 → Fin S39.rank)
  reducesTo_S39_S_d0 : S39.ReducesTo [0] S_

variable [Facts]

def fn_part1 {F : FTy → Type} [FloatOps F] (main_arg5 : FVec F S39x65536 .f32) (main_arg6 : FVec F S39 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S39x65536 .f32 := Host.absf main_arg5
  let main_cst_6 : FVec F S_ .f32 := constant S_ .f32 0x7F800000#32
  let main_v20 : FVec F S39x65536 .f32 := broadcastInDim S39x65536 ![] bcast_S_S39x65536 main_cst_6
  let main_v21 : IVec S39x65536 1 := cmpf .olt main_v19 main_v20
  let main_c_7 : IVec S_ 1 := constantI S_ 1 1#1
  let main_v22 : IVec S_ 1 := (fun x v => Host.reduce IntOp.andi x v reducesTo_S39x65536_S_d0_1 h_S_) main_v21 main_c_7
  let main_v23 : IVec S_ 1 := andi main_v18 main_v22
  let main_v24 : FVec F S39 .f32 := Host.absf main_arg6
  let main_cst_8 : FVec F S_ .f32 := constant S_ .f32 0x7F800000#32
  let main_v25 : FVec F S39 .f32 := broadcastInDim S39 ![] bcast_S_S39 main_cst_8
  let main_v26 : IVec S39 1 := cmpf .olt main_v24 main_v25
  let main_c_9 : IVec S_ 1 := constantI S_ 1 1#1
  let main_v27 : IVec S_ 1 := (fun x v => Host.reduce IntOp.andi x v reducesTo_S39_S_d0 h_S_) main_v26 main_c_9
  let main_v28 : IVec S_ 1 := andi main_v23 main_v27
  main_v28

def fn {F : FTy → Type} [FloatOps F] (main_arg0 : FVec F S131072x128 .f32) (main_arg1 : IVec S2x4194304 32) (main_arg2 : FVec F S16x128 .f32) (main_arg3 : FVec F S16 .f32) (main_arg4 : FVec F S16x128 .f32) (main_arg5 : FVec F S39x65536 .f32) (main_arg6 : FVec F S39 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_arg6 main_v13 main_v16
-- ==== Kernel.lean ====
abbrev S131072x128 : Shape := ⟨2, ![131072, 128]⟩
abbrev S2x4194304 : Shape := ⟨2, ![2, 4194304]⟩
abbrev S16x128 : Shape := ⟨2, ![16, 128]⟩
abbrev S16 : Shape := ⟨1, ![16]⟩
abbrev S39x65536 : Shape := ⟨2, ![39, 65536]⟩
abbrev S39 : Shape := ⟨1, ![39]⟩
abbrev S1x4194304 : Shape := ⟨2, ![1, 4194304]⟩
abbrev S4194304 : Shape := ⟨1, ![4194304]⟩
abbrev S128x16 : Shape := ⟨2, ![128, 16]⟩
abbrev S128x32 : Shape := ⟨2, ![128, 32]⟩
abbrev S131072x16 : Shape := ⟨2, ![131072, 16]⟩
abbrev S4096x128 : Shape := ⟨2, ![4096, 128]⟩
abbrev S4096x16 : Shape := ⟨2, ![4096, 16]⟩
abbrev S4096x32 : Shape := ⟨2, ![4096, 32]⟩
abbrev S_ : Shape := ⟨0, ![]⟩
abbrev S131072x1 : Shape := ⟨2, ![131072, 1]⟩
abbrev S131072x17 : Shape := ⟨2, ![131072, 17]⟩
abbrev S4194304x1 : Shape := ⟨2, ![4194304, 1]⟩
abbrev S4194304x17 : Shape := ⟨2, ![4194304, 17]⟩
abbrev S1x16 : Shape := ⟨2, ![1, 16]⟩
abbrev S4096x1 : Shape := ⟨2, ![4096, 1]⟩
abbrev S32x65536 : Shape := ⟨2, ![32, 65536]⟩
abbrev S1x39 : Shape := ⟨2, ![1, 39]⟩
abbrev S32x39 : Shape := ⟨2, ![32, 39]⟩
abbrev S16x8192 : Shape := ⟨2, ![16, 8192]⟩
abbrev S39x8192 : Shape := ⟨2, ![39, 8192]⟩
abbrev S16x39 : Shape := ⟨2, ![16, 39]⟩
abbrev S32x39x1 : Shape := ⟨3, ![32, 39, 1]⟩

abbrev nBuf : Space → Nat
  | .hbm => 42
  | .vmem => 24
  | .smem => 0
  | _ => 0

abbrev bufTy : (tb : Table) → Fin (tcTables nBuf tb) → BufTy
  | .hbm, ⟨0, _⟩ => ⟨S131072x128, .f32⟩
  | .hbm, ⟨1, _⟩ => ⟨S2x4194304, .i32⟩
  | .hbm, ⟨2, _⟩ => ⟨S16x128, .f32⟩
  | .hbm, ⟨3, _⟩ => ⟨S16, .f32⟩
  | .hbm, ⟨4, _⟩ => ⟨S16x128, .f32⟩
  | .hbm, ⟨5, _⟩ => ⟨S39x65536, .f32⟩
  | .hbm, ⟨6, _⟩ => ⟨S39, .f32⟩
  | .hbm, ⟨7, _⟩ => ⟨S1x4194304, .i32⟩
  | .hbm, ⟨8, _⟩ => ⟨S4194304, .i32⟩
  | .hbm, ⟨9, _⟩ => ⟨S1x4194304, .i32⟩
  | .hbm, ⟨10, _⟩ => ⟨S4194304, .i32⟩
  | .hbm, ⟨11, _⟩ => ⟨S128x16, .f32⟩
  | .hbm, ⟨12, _⟩ => ⟨S128x16, .f32⟩
  | .hbm, ⟨13, _⟩ => ⟨S128x32, .f32⟩
  | .hbm, ⟨14, _⟩ => ⟨S131072x16, .bf16⟩
  | .hbm, ⟨15, _⟩ => ⟨S131072x16, .f32⟩
  | .hbm, ⟨16, _⟩ => ⟨S_, .bf16⟩
  | .hbm, ⟨17, _⟩ => ⟨S131072x1, .bf16⟩
  | .hbm, ⟨18, _⟩ => ⟨S131072x17, .bf16⟩
  | .hbm, ⟨19, _⟩ => ⟨S_, .i32⟩
  | .hbm, ⟨20, _⟩ => ⟨S4194304, .i32⟩
  | .hbm, ⟨21, _⟩ => ⟨S4194304, .i1⟩
  | .hbm, ⟨22, _⟩ => ⟨S_, .i32⟩
  | .hbm, ⟨23, _⟩ => ⟨S4194304, .i32⟩
  | .hbm, ⟨24, _⟩ => ⟨S4194304, .i32⟩
  | .hbm, ⟨25, _⟩ => ⟨S4194304, .i32⟩
  | .hbm, ⟨26, _⟩ => ⟨S4194304x1, .i32⟩
  | .hbm, ⟨27, _⟩ => ⟨S4194304x17, .bf16⟩
  | .hbm, ⟨28, _⟩ => ⟨S4194304x17, .f32⟩
  | .hbm, ⟨29, _⟩ => ⟨S_, .f32⟩
  | .hbm, ⟨30, _⟩ => ⟨S131072x17, .f32⟩
  | .hbm, ⟨31, _⟩ => ⟨S4194304x1, .i32⟩
  | .hbm, ⟨32, _⟩ => ⟨S131072x17, .f32⟩
  | .hbm, ⟨33, _⟩ => ⟨S131072x16, .f32⟩
  | .hbm, ⟨34, _⟩ => ⟨S131072x1, .f32⟩
  | .hbm, ⟨35, _⟩ => ⟨S1x16, .f32⟩
  | .hbm, ⟨36, _⟩ => ⟨S131072x16, .f32⟩
  | .hbm, ⟨37, _⟩ => ⟨S32x65536, .f32⟩
  | .hbm, ⟨38, _⟩ => ⟨S39x65536, .bf16⟩
  | .hbm, ⟨39, _⟩ => ⟨S1x39, .f32⟩
  | .hbm, ⟨40, _⟩ => ⟨S32x39, .f32⟩
  | .hbm, ⟨41, _⟩ => ⟨S32x39x1, .f32⟩
  | .local _ .vmem, ⟨0, _⟩ => ⟨S4096x128, .f32⟩
  | .local _ .vmem, ⟨1, _⟩ => ⟨S4096x128, .f32⟩
  | .local _ .vmem, ⟨2, _⟩ => ⟨S128x32, .f32⟩
  | .local _ .vmem, ⟨3, _⟩ => ⟨S4096x16, .bf16⟩
  | .local _ .vmem, ⟨4, _⟩ => ⟨S4096x16, .bf16⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x1, .f32⟩
  | .local _ .vmem, ⟨10, _⟩ => ⟨S4096x1, .f32⟩
  | .local _ .vmem, ⟨11, _⟩ => ⟨S4096x16, .f32⟩
  | .local _ .vmem, ⟨12, _⟩ => ⟨S4096x16, .f32⟩
  | .local _ .vmem, ⟨13, _⟩ => ⟨S1x16, .f32⟩
  | .local _ .vmem, ⟨14, _⟩ => ⟨S4096x16, .f32⟩
  | .local _ .vmem, ⟨15, _⟩ => ⟨S4096x16, .f32⟩
  | .local _ .vmem, ⟨16, _⟩ => ⟨S16x8192, .f32⟩
  | .local _ .vmem, ⟨17, _⟩ => ⟨S16x8192, .f32⟩
  | .local _ .vmem, ⟨18, _⟩ => ⟨S39x8192, .bf16⟩
  | .local _ .vmem, ⟨19, _⟩ => ⟨S39x8192, .bf16⟩
  | .local _ .vmem, ⟨20, _⟩ => ⟨S1x39, .f32⟩
  | .local _ .vmem, ⟨21, _⟩ => ⟨S16x39, .f32⟩
  | .local _ .vmem, ⟨22, _⟩ => ⟨S16x39, .f32⟩
  | .local _ .vmem, ⟨23, _⟩ => ⟨S16x39, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S16x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S39x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x39 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S16x39 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  transposes_S16x128_S128x16_1_0 : S16x128.Transposes [1, 0] S128x16
  concatenates_S128x16_S128x16_S128x32_d1 : Shape.Concatenates [S128x16, S128x16] S128x32 1
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  slices_S4096x32_o0_0_S4096x16 : S4096x32.Slices ![0, 0] S4096x16
  inb_S4096x16_S4096x16_0_0 : ∀ a, (![0, 0] : Fin 2 → Nat) a + S4096x16.size a ≤ S4096x16.size a
  h_S4096x16 : 0 < S4096x16.numel
  packedbf16_S4096x16_S4096x16_0_0 : (Rect.unit (s := S4096x16) ![0, 0] S4096x16.size inb_S4096x16_S4096x16_0_0).PackedRows (EltTy.packing .bf16)
  slices_S4096x32_o0_16_S4096x16 : S4096x32.Slices ![0, 16] S4096x16
  bcast_S_S131072x1 : S_.BroadcastsInDim S131072x1 (![] : Fin 0 → Fin S131072x1.rank)
  concatenates_S131072x16_S131072x1_S131072x17_d1 : Shape.Concatenates [S131072x16, S131072x1] S131072x17 1
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S131072x17 : S_.BroadcastsInDim S131072x17 (![] : Fin 0 → Fin S131072x17.rank)
  slices_S131072x17_S131072x16_0_0 : S131072x17.Slices ![0, 0] S131072x16
  slices_S131072x17_S131072x1_0_16 : S131072x17.Slices ![0, 16] S131072x1
  shapeCasts_S16_S1x16 : S16.ShapeCasts S1x16
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S4096x16_S4096x16 : S4096x16.ShapeCasts S4096x16
  broadcasts_S4096x1_S4096x16 : S4096x1.Broadcasts S4096x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  shapeCasts_S131072x16_S32x65536 : S131072x16.ShapeCasts S32x65536
  shapeCasts_S39_S1x39 : S39.ShapeCasts S1x39
  inb_S16x39_S16x39_0_0 : ∀ a, (![0, 0] : Fin 2 → Nat) a + S16x39.size a ≤ S16x39.size a
  h_S16x39 : 0 < S16x39.numel
  shapeCasts_S16x39_S16x39 : S16x39.ShapeCasts S16x39
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S39x8192_S39x8192_0_0 : ∀ a, (![0, 0] : Fin 2 → Nat) a + S39x8192.size a ≤ S39x8192.size a
  h_S39x8192 : 0 < S39x8192.numel
  shapeCasts_S39x8192_S39x8192 : S39x8192.ShapeCasts S39x8192
  inb_S1x39_S1x39_0_0 : ∀ a, (![0, 0] : Fin 2 → Nat) a + S1x39.size a ≤ S1x39.size a
  h_S1x39 : 0 < S1x39.numel
  shapeCasts_S1x39_S1x39 : S1x39.ShapeCasts S1x39
  broadcasts_S1x39_S16x39 : S1x39.Broadcasts S16x39
  bcast_S32x39_S32x39x1_0_1 : S32x39.BroadcastsInDim S32x39x1 (![0, 1] : Fin 2 → Fin S32x39x1.rank)
  dot_S4096x128_S128x32_S4096x32_1_0_0_1_n_n_wf : DotDims.WF S4096x128 S128x32 S4096x32 [1] [0] [0] [1] [] []
  gather_S131072x17_S4194304x1_S4194304x17_1_0_n_n_0_1_117_wf : GatherDims.WF S131072x17 S4194304x1 S4194304x17 [1] [0] [] [0] [] 1 ![1, 17]
  scatter_S131072x17_S4194304x1_S4194304x17_1_0_0_1_wf : ScatterDims.WF S131072x17 S4194304x1 S4194304x17 [1] [0] [0] 1
  dot_S16x8192_S39x8192_S16x39_1_1_0_0_n_n_wf : DotDims.WF S16x8192 S39x8192 S16x39 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S131072x16.size a
  hwx0_2 : ∀ i : grid0.Coords, EltTy.bits .bf16 = 32 ∨ (Rect.block (s := S131072x16) S4096x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S131072x16.size a
  hwx0_3 : ∀ i : grid0.Coords, EltTy.bits .f32 = 32 ∨ (Rect.block (s := S131072x16) S4096x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S131072x16.size a
  hwx1_0 : ∀ i : grid1.Coords, EltTy.bits .f32 = 32 ∨ (Rect.block (s := S131072x16) S4096x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .f32 = 32 ∨ (Rect.block (s := S131072x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x16.size a ≤ S131072x16.size a
  hwx1_2 : ∀ i : grid1.Coords, EltTy.bits .f32 = 32 ∨ (Rect.block (s := S131072x16) S4096x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x16.size a ≤ S131072x16.size a
  hwx1_4 : ∀ i : grid1.Coords, EltTy.bits .f32 = 32 ∨ (Rect.block (s := S131072x16) S4096x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x8192.size a ≤ S32x65536.size a
  hwx2_0 : ∀ i : grid2.Coords, EltTy.bits .f32 = 32 ∨ (Rect.block (s := S32x65536) S16x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S39x8192.size a ≤ S39x65536.size a
  hwx2_1 : ∀ i : grid2.Coords, EltTy.bits .bf16 = 32 ∨ (Rect.block (s := S39x65536) S39x8192.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x39.size a ≤ S1x39.size a
  hwx2_2 : ∀ i : grid2.Coords, EltTy.bits .f32 = 32 ∨ (Rect.block (s := S1x39) S1x39.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x39.size a ≤ S32x39.size a
  hwx2_3 : ∀ i : grid2.Coords, EltTy.bits .f32 = 32 ∨ (Rect.block (s := S32x39) S16x39.size (cc2_transform_3 i) (hinb2_3 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def gather_S131072x17_S4194304x1_S4194304x17_1_0_n_n_0_1_117 : GatherDims S131072x17 S4194304x1 S4194304x17 where
  offsetDims := [1]
  collapsedSliceDims := [0]
  operandBatchingDims := []
  startIndicesBatchingDims := []
  startIndexMap := [0]
  indexVectorDim := 1
  sliceSizes := ![1, 17]
  wf := gather_S131072x17_S4194304x1_S4194304x17_1_0_n_n_0_1_117_wf
def scatter_S131072x17_S4194304x1_S4194304x17_1_0_0_1 : ScatterDims S131072x17 S4194304x1 S4194304x17 where
  updateWindowDims := [1]
  insertedWindowDims := [0]
  scatterDimsToOperandDims := [0]
  indexVectorDim := 1
  wf := scatter_S131072x17_S4194304x1_S4194304x17_1_0_0_1_wf
def dot_S16x8192_S39x8192_S16x39_1_1_0_0_n_n : DotDims S16x8192 S39x8192 S16x39 where
  lhsContracting := [1]
  rhsContracting := [1]
  lhsNonContracting := [0]
  rhsNonContracting := [0]
  lhsBatch := []
  rhsBatch := []
  wf := dot_S16x8192_S39x8192_S16x39_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S4096x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S4096x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S4096x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S4096x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S16x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S39x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x39.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S16x39.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S131072x128 : Shape := ⟨2, ![131072, 128]⟩
abbrev S2x4194304 : Shape := ⟨2, ![2, 4194304]⟩
abbrev S16x128 : Shape := ⟨2, ![16, 128]⟩
abbrev S16 : Shape := ⟨1, ![16]⟩
abbrev S39x65536 : Shape := ⟨2, ![39, 65536]⟩
abbrev S39 : Shape := ⟨1, ![39]⟩
abbrev S1x4194304 : Shape := ⟨2, ![1, 4194304]⟩
abbrev S4194304 : Shape := ⟨1, ![4194304]⟩
abbrev S128x16 : Shape := ⟨2, ![128, 16]⟩
abbrev S131072x16 : Shape := ⟨2, ![131072, 16]⟩
abbrev S_ : Shape := ⟨0, ![]⟩
abbrev S4194304x1 : Shape := ⟨2, ![4194304, 1]⟩
abbrev S4194304x16 : Shape := ⟨2, ![4194304, 16]⟩
abbrev S131072 : Shape := ⟨1, ![131072]⟩
abbrev S131072x1 : Shape := ⟨2, ![131072, 1]⟩
abbrev S1x16 : Shape := ⟨2, ![1, 16]⟩
abbrev S32x65536 : Shape := ⟨2, ![32, 65536]⟩
abbrev S65536x39 : Shape := ⟨2, ![65536, 39]⟩
abbrev S32x39 : Shape := ⟨2, ![32, 39]⟩
abbrev S1x39 : Shape := ⟨2, ![1, 39]⟩
abbrev S32x39x1 : Shape := ⟨3, ![32, 39, 1]⟩

abbrev nBuf : Space → Nat
  | .hbm => 54
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S2x4194304, .i32⟩
  | .hbm, ⟨2, _⟩ => ⟨S16x128, .f32⟩
  | .hbm, ⟨3, _⟩ => ⟨S16, .f32⟩
  | .hbm, ⟨4, _⟩ => ⟨S16x128, .f32⟩
  | .hbm, ⟨5, _⟩ => ⟨S39x65536, .f32⟩
  | .hbm, ⟨6, _⟩ => ⟨S39, .f32⟩
  | .hbm, ⟨7, _⟩ => ⟨S1x4194304, .i32⟩
  | .hbm, ⟨8, _⟩ => ⟨S4194304, .i32⟩
  | .hbm, ⟨9, _⟩ => ⟨S1x4194304, .i32⟩
  | .hbm, ⟨10, _⟩ => ⟨S4194304, .i32⟩
  | .hbm, ⟨11, _⟩ => ⟨S128x16, .f32⟩
  | .hbm, ⟨12, _⟩ => ⟨S131072x16, .f32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x16, .f32⟩
  | .hbm, ⟨22, _⟩ => ⟨S_, .f32⟩
  | .hbm, ⟨23, _⟩ => ⟨S131072x16, .f32⟩
  | .hbm, ⟨24, _⟩ => ⟨S4194304x1, .i32⟩
  | .hbm, ⟨25, _⟩ => ⟨S131072x16, .f32⟩
  | .hbm, ⟨26, _⟩ => ⟨S_, .f32⟩
  | .hbm, ⟨27, _⟩ => ⟨S4194304, .f32⟩
  | .hbm, ⟨28, _⟩ => ⟨S_, .f32⟩
  | .hbm, ⟨29, _⟩ => ⟨S131072, .f32⟩
  | .hbm, ⟨30, _⟩ => ⟨S4194304x1, .i32⟩
  | .hbm, ⟨31, _⟩ => ⟨S131072, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S131072x1, .f32⟩
  | .hbm, ⟨36, _⟩ => ⟨S131072x16, .f32⟩
  | .hbm, ⟨37, _⟩ => ⟨S131072x16, .f32⟩
  | .hbm, ⟨38, _⟩ => ⟨S1x16, .f32⟩
  | .hbm, ⟨39, _⟩ => ⟨S131072x16, .f32⟩
  | .hbm, ⟨40, _⟩ => ⟨S131072x16, .f32⟩
  | .hbm, ⟨41, _⟩ => ⟨S128x16, .f32⟩
  | .hbm, ⟨42, _⟩ => ⟨S131072x16, .f32⟩
  | .hbm, ⟨43, _⟩ => ⟨S131072x16, .f32⟩
  | .hbm, ⟨44, _⟩ => ⟨S_, .f32⟩
  | .hbm, ⟨45, _⟩ => ⟨S131072x16, .f32⟩
  | .hbm, ⟨46, _⟩ => ⟨S131072x16, .f32⟩
  | .hbm, ⟨47, _⟩ => ⟨S32x65536, .f32⟩
  | .hbm, ⟨48, _⟩ => ⟨S65536x39, .f32⟩
  | .hbm, ⟨49, _⟩ => ⟨S32x39, .f32⟩
  | .hbm, ⟨50, _⟩ => ⟨S1x39, .f32⟩
  | .hbm, ⟨51, _⟩ => ⟨S32x39, .f32⟩
  | .hbm, ⟨52, _⟩ => ⟨S32x39, .f32⟩
  | .hbm, ⟨53, _⟩ => ⟨S32x39x1, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  transposes_S16x128_S128x16_1_0 : S16x128.Transposes [1, 0] S128x16
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S131072x16 : S_.BroadcastsInDim S131072x16 (![] : Fin 0 → Fin S131072x16.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x16_0_1 : S131072x1.BroadcastsInDim S131072x16 (![0, 1] : Fin 2 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  shapeCasts_S131072x16_S32x65536 : S131072x16.ShapeCasts S32x65536
  transposes_S39x65536_S65536x39_1_0 : S39x65536.Transposes [1, 0] S65536x39
  bcast_S39_S1x39_1 : S39.BroadcastsInDim S1x39 (![1] : Fin 1 → Fin S1x39.rank)
  bcast_S1x39_S32x39_0_1 : S1x39.BroadcastsInDim S32x39 (![0, 1] : Fin 2 → Fin S32x39.rank)
  bcast_S32x39_S32x39x1_0_1 : S32x39.BroadcastsInDim S32x39x1 (![0, 1] : Fin 2 → Fin S32x39x1.rank)
  dot_S131072x128_S128x16_S131072x16_1_0_0_1_n_n_wf : DotDims.WF S131072x128 S128x16 S131072x16 [1] [0] [0] [1] [] []
  gather_S131072x16_S4194304x1_S4194304x16_1_0_n_n_0_1_116_wf : GatherDims.WF S131072x16 S4194304x1 S4194304x16 [1] [0] [] [0] [] 1 ![1, 16]
  scatter_S131072x16_S4194304x1_S4194304x16_1_0_0_1_wf : ScatterDims.WF S131072x16 S4194304x1 S4194304x16 [1] [0] [0] 1
  scatter_S131072_S4194304x1_S4194304_n_0_0_1_wf : ScatterDims.WF S131072 S4194304x1 S4194304 [] [0] [0] 1
  dot_S32x65536_S65536x39_S32x39_1_0_0_1_n_n_wf : DotDims.WF S32x65536 S65536x39 S32x39 [1] [0] [0] [1] [] []

variable [Facts₀]

def dot_S131072x128_S128x16_S131072x16_1_0_0_1_n_n : DotDims S131072x128 S128x16 S131072x16 where
  lhsContracting := [1]
  rhsContracting := [0]
  lhsNonContracting := [0]
  rhsNonContracting := [1]
  lhsBatch := []
  rhsBatch := []
  wf := dot_S131072x128_S128x16_S131072x16_1_0_0_1_n_n_wf
def gather_S131072x16_S4194304x1_S4194304x16_1_0_n_n_0_1_116 : GatherDims S131072x16 S4194304x1 S4194304x16 where
  offsetDims := [1]
  collapsedSliceDims := [0]
  operandBatchingDims := []
  startIndicesBatchingDims := []
  startIndexMap := [0]
  indexVectorDim := 1
  sliceSizes := ![1, 16]
  wf := gather_S131072x16_S4194304x1_S4194304x16_1_0_n_n_0_1_116_wf
def scatter_S131072x16_S4194304x1_S4194304x16_1_0_0_1 : ScatterDims S131072x16 S4194304x1 S4194304x16 where
  updateWindowDims := [1]
  insertedWindowDims := [0]
  scatterDimsToOperandDims := [0]
  indexVectorDim := 1
  wf := scatter_S131072x16_S4194304x1_S4194304x16_1_0_0_1_wf
def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def dot_S32x65536_S65536x39_S32x39_1_0_0_1_n_n : DotDims S32x65536 S65536x39 S32x39 where
  lhsContracting := [1]
  rhsContracting := [0]
  lhsNonContracting := [0]
  rhsNonContracting := [1]
  lhsBatch := []
  rhsBatch := []
  wf := dot_S32x65536_S65536x39_S32x39_1_0_0_1_n_n_wf

class Facts : Prop extends Facts₀ where

variable [Facts]
-- ==== Proof.Region0.lean ====
/- Region 0 of @main (the pallas_call of `cc0__linear_both_kernel`, pipeline 0), at a PARAMETER `V` — the TensorCore's
   buffer contents when the region is entered —, at any float model `F`: each window's block at a grid point, what
   the body leaves in the two output windows' staging buffers (the canon of its whole-rectangle stores over the
   skeleton's payloads), the body's triple, the proof data and the body obligation. -/
import proofs.«177734_j84713934946331_2_alg».proof.Proof.Gen.KernelIdeal.Launch
import proofs.«177734_j84713934946331_2_alg».proof.Proof.Gen.KernelIdeal.Skeleton
import proofs.«177734_j84713934946331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 4096 rows: the elaborator's structural look recurses once per coordinate
set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of 4096 rows of `x`, fetched at every point): its current staging buffer holds its block
    at every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only — its block index never moves): its
    current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S4096x128 := Rect.unit (s := S4096x128) ![0, 0] S4096x128.size inb_S4096x128_S4096x128_0_0
abbrev r0_1 : Rect S128x32 := Rect.unit (s := S128x32) ![0, 0] S128x32.size inb_S128x32_S128x32_0_0
abbrev r0_2 : Rect S4096x16 := Rect.unit (s := S4096x16) ![0, 0] S4096x16.size inb_S4096x16_S4096x16_0_0

/-! ## What the body leaves in each output window's buffer -/

/-- Window 2's staging buffer (the left half of the product, rounded to bf16) after the body, from the input windows'
    blocks: its one store as a piece. -/
def out0_2 (x0 : Vec F S4096x128 .f32) (x1 : Vec F S128x32 .f32) : Vec F S4096x16 .bf16 :=
  View.canon [⟨r0_2, k0_pay2 (View.ld x0 r0_0) (View.ld x1 r0_1)⟩]

/-- Its store is of the whole buffer, so it covers it. -/
theorem cover0_2 (p0 : Vec F S4096x16 .bf16) (y : S4096x16.Idx) :
    ∃ pc ∈ ([⟨r0_2, p0⟩] : List (View.Piece (Elt F) S4096x16 .bf16)), y ∈ pc.1.set :=
  View.cover_of_tiled [⟨r0_2, p0⟩] S4096x16.size (by rfl) y

/-- Window 3's staging buffer (the right half of the product, f32) after the body: its one store as a piece. -/
def out0_3 (x0 : Vec F S4096x128 .f32) (x1 : Vec F S128x32 .f32) : Vec F S4096x16 .f32 :=
  View.canon [⟨r0_2, k0_pay3 (View.ld x0 r0_0) (View.ld x1 r0_1)⟩]

theorem cover0_3 (p0 : Vec F S4096x16 .f32) (y : S4096x16.Idx) :
    ∃ pc ∈ ([⟨r0_2, p0⟩] : List (View.Piece (Elt F) S4096x16 .f32)), y ∈ pc.1.set :=
  View.cover_of_tiled [⟨r0_2, p0⟩] S4096x16.size (by rfl) y

/-! ## The body's triple -/

set_option maxHeartbeats 1000000 in
/-- The kernel body on whole staging memrefs, the inputs' at contents `x0`, `x1` and the outputs' at anything, runs to
    the continuation holding the inputs' as they were and each output's at `out0_W` of the inputs'. -/
theorem sound_kernel0 (c : Dev nD) (E : Set ℕ) (i : grid0.Coords) (arg1 : Memref sig .tc .vmem S4096x128 .f32) (harg1 : arg1.IsWhole) (arg2 : Memref sig .tc .vmem S128x32 .f32) (harg2 : arg2.IsWhole) (arg3 : Memref sig .tc .vmem S4096x16 .bf16) (harg3 : arg3.IsWhole) (arg4 : Memref sig .tc .vmem S4096x16 .f32) (harg4 : arg4.IsWhole)
    (x0 : Vec F S4096x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__linear_both_kernel i arg1 harg1 arg2 harg2 arg3 harg3 arg4 harg4) K := by
  simp only [cc0__linear_both_kernel_eq_skeleton]; unfold cc0__linear_both_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant, the debts and the shares of the proof data, projected. -/
theorem Phi0 (c : Dev nD) (t : Fin (cfg0.N + 1)) : (dat0 (F := F) V c).Φ t = Pipeline.ΦA spec0 c := by dsimp only [dat0]
theorem owed0 (c : Dev nD) (t : Fin (cfg0.N + 1)) : (dat0 (F := F) V c).owed t = 0 := by dsimp only [dat0]
theorem q0 (c : Dev nD) (w) : (dat0 (F := F) V c).q w = fullShare := by dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs' buffers are the payloads of the input blocks

Each store is of the whole buffer (offsets zero, extents the buffer's), and each load reads a whole block: a whole-buffer
store read back whole is its payload, and a whole-block load is the block. -/

theorem hz2 : (![0, 0] : Fin 2 → Nat) = fun _ => 0 := by
  funext a; match a with | ⟨0, _⟩ => rfl | ⟨1, _⟩ => rfl

theorem out0_2_eq (x0 : Vec F S4096x128 .f32) (x1 : Vec F S128x32 .f32) : out0_2 (F := F) x0 x1 = k0_pay2 x0 x1 := by
  unfold out0_2
  rw [View.canon_unit_zero hz2]
  simp only [View.ld_unit_zero (S := S4096x128) hz2, View.ld_unit_zero (S := S128x32) hz2]

theorem out0_3_eq (x0 : Vec F S4096x128 .f32) (x1 : Vec F S128x32 .f32) : out0_3 (F := F) x0 x1 = k0_pay3 x0 x1 := by
  unfold out0_3
  rw [View.canon_unit_zero hz2]
  simp only [View.ld_unit_zero (S := S4096x128) hz2, View.ld_unit_zero (S := S128x32) hz2]

end Cert.KernelIdeal.Rgn

end
-- ==== Proof.Region1.lean ====
/- Region 1 of @main (the pallas_call of `cc1__combine_kernel`, pipeline 1), at a PARAMETER `V` — the TensorCore's
   buffer contents when the region is entered —, at any float model `F`: each window's block at a grid point, what
   the body leaves in the output window's staging buffer (the canon of its whole-rectangle store over the skeleton's
   payload), the body's triple, the proof data and the body obligation. -/
import proofs.«177734_j84713934946331_2_alg».proof.Proof.Gen.KernelIdeal.Launch
import proofs.«177734_j84713934946331_2_alg».proof.Proof.Gen.KernelIdeal.Skeleton
import proofs.«177734_j84713934946331_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 4096 rows: the elaborator's structural look recurses once per coordinate
set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the block of 4096 rows of the aggregate, fetched at every point): its current staging buffer holds its
    block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the block of 4096 rows of the count column, fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the block of 4096 rows of the right-hand projection, fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the whole bias row, fetched at the first point only — its block index never moves): its current
    staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S4096x1 := Rect.unit (s := S4096x1) ![0, 0] S4096x1.size inb_S4096x1_S4096x1_0_0
abbrev r1_1 : Rect S4096x16 := Rect.unit (s := S4096x16) ![0, 0] S4096x16.size inb_S4096x16_S4096x16_0_0
abbrev r1_2 : Rect S1x16 := Rect.unit (s := S1x16) ![0, 0] S1x16.size inb_S1x16_S1x16_0_0

/-! ## What the body leaves in the output window's buffer -/

/-- Window 4's staging buffer after the body, from the input windows' blocks IN WINDOW ORDER (`x0` the aggregate,
    `x1` the count column, `x2` the right-hand projection, `x3` the bias row): its one store as a piece. The payload
    takes them in the order the body loads them: count, aggregate, bias, projection. -/
def out1_4 (x0 : Vec F S4096x16 .f32) (x1 : Vec F S4096x1 .f32) (x2 : Vec F S4096x16 .f32) (x3 : Vec F S1x16 .f32) : Vec F S4096x16 .f32 :=
  View.canon [⟨r1_1, k1_pay1 (View.ld x1 r1_0) (View.ld x0 r1_1) (View.ld x3 r1_2) (View.ld x2 r1_1)⟩]

/-- Its store is of the whole buffer, so it covers it. -/
theorem cover1_4 (p0 : Vec F S4096x16 .f32) (y : S4096x16.Idx) :
    ∃ pc ∈ ([⟨r1_1, p0⟩] : List (View.Piece (Elt F) S4096x16 .f32)), y ∈ pc.1.set :=
  View.cover_of_tiled [⟨r1_1, p0⟩] S4096x16.size (by rfl) y

/-! ## The body's triple -/

set_option maxHeartbeats 1000000 in
/-- The kernel body on whole staging memrefs, the inputs' at contents `x0 … x3` and the output's at anything, runs to the
    continuation holding the inputs' as they were and the output's at `out1_4` of the inputs'. -/
theorem sound_kernel1 (c : Dev nD) (E : Set ℕ) (i : grid1.Coords) (arg1 : Memref sig .tc .vmem S4096x16 .f32) (harg1 : arg1.IsWhole) (arg2 : Memref sig .tc .vmem S4096x1 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S4096x16 .f32) (harg5 : arg5.IsWhole)
    (x0 : Vec F S4096x16 .f32) (x1 : Vec F S4096x1 .f32) (x2 : Vec F S4096x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant, the debts and the shares of the proof data, projected. -/
theorem Phi1 (c : Dev nD) (t : Fin (cfg1.N + 1)) : (dat1 (F := F) V c).Φ t = Pipeline.ΦA spec1 c := by dsimp only [dat1]
theorem owed1 (c : Dev nD) (t : Fin (cfg1.N + 1)) : (dat1 (F := F) V c).owed t = 0 := by dsimp only [dat1]
theorem q1 (c : Dev nD) (w) : (dat1 (F := F) V c).q w = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output's buffer is the payload of the input blocks

The store is of the whole buffer (offsets zero, extents the buffer's), and each load reads a whole block: a whole-buffer
store read back whole is its payload, and a whole-block load is the block. -/

theorem hz2' : (![0, 0] : Fin 2 → Nat) = fun _ => 0 := by
  funext a; match a with | ⟨0, _⟩ => rfl | ⟨1, _⟩ => rfl

/-- The payload's arguments are in the body's load order: the count column (window 1), the aggregate (window 0), the
    bias row (window 3), the right-hand projection (window 2). -/
theorem out1_4_eq (x0 : Vec F S4096x16 .f32) (x1 : Vec F S4096x1 .f32) (x2 : Vec F S4096x16 .f32) (x3 : Vec F S1x16 .f32) :
    out1_4 (F := F) x0 x1 x2 x3 = k1_pay1 x1 x0 x3 x2 := by
  unfold out1_4
  rw [View.canon_unit_zero hz2']
  simp only [View.ld_unit_zero (S := S4096x16) hz2', View.ld_unit_zero (S := S4096x1) hz2', View.ld_unit_zero (S := S1x16) hz2']

end Cert.KernelIdeal.Rgn

end
-- ==== Proof.LibWholeBuffer.lean ====
/-
  Whole-buffer accesses. A kernel body that loads and stores every buffer through the rectangle that is the whole
  buffer (offsets zero, the buffer's own sizes, however the zeros are spelt) reads the buffer's contents and leaves
  its payload: the two facts below, for any signature, memory space, shape and element type. They turn what a
  symbolic run of such a body leaves — reads of `unread X` through the whole rectangle, a list of whole-rectangle
  writes — into `X` and into the last write's payload.
-/
import Idealize.ShloMosaic.Lib.Pipeline.Frame
import Idealize.ShloMosaic.Lib.Pipeline.FrameBody
import Idealize.ShloMosaic.Lib.Pipeline.Value

noncomputable section

namespace Cert.Lib.WholeBuffer

open Idealize.ShloMosaic

variable {sig : RefSig} {κ : Kind} {sp : Space} {Val : EltTy → Type} {S : Shape} {e : EltTy}

/-- The all-zero offsets of a whole-buffer access of rank 2 and 3, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- A whole buffer holding `X`, loaded through the whole rectangle, reads `X`. -/
theorem readAt_whole (m : Memref sig κ sp S e) (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

/-- Whatever was stored before it, after a store through the whole rectangle the buffer reads as that store's payload. -/
theorem read_writes_whole [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Cert.Lib.WholeBuffer

end
-- ==== Proof.Region2.lean ====
/-
  Region 2 of @main, the final linear layer `out = g · Wᵀ + b`, as one pipeline over the grid `[2, 8]`: the proof data
  and the body obligation, at the TensorCore's buffer contents `V` when the region is entered.

  The reduction over the 65536 columns is cut into eight blocks of 8192. A scratch accumulator is carried between grid
  points: zeroed at the first block of a row group, increased by each block's product, and at the last block stored,
  with the bias row added, into the output window — which is idle, and not written back, at every other point. So the
  body has three cases (first, middle, last point of a group of eight), the scratch's contents after point `n` are a
  recursion on `n` (`acc2`), and the region's invariant carries the scratch at `acc2` of the point before.
-/
import proofs.«177734_j84713934946331_2_alg».proof.Proof.Gen.KernelIdeal.Launch
import proofs.«177734_j84713934946331_2_alg».proof.Proof.Gen.KernelIdeal.Skeleton
import proofs.«177734_j84713934946331_2_alg».proof.Proof.Gen.KernelIdeal.Points
import proofs.«177734_j84713934946331_2_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.WholeBuffer

variable {F : FTy → Type} [FloatOps F]

local notation "𝕄" => MT nD τ sig Unit (Elt F) ℕ (UR sig nD τ) ℕ

/-! # Region 2: the final linear layer, a product accumulated in a scratch buffer over the grid's second axis

The grid is `[2, 8]`: point `t` has coordinates `(t / 8, t % 8)`. At `k = t % 8 = 0` the body zeroes the scratch
accumulator, at every point it adds the block product into it, and at `k = 7` it stores accumulator plus bias into the
output window, which is idle (and not written back) at every other point. -/

/-! ## The body's two conditions, in closed form over the grid -/

/-- The first conditional of the body (the accumulator's reset), from the grid coordinates. -/
abbrev cond2_0 (i : grid2.Coords) : Prop := (Scalar.cmpi .ne (Scalar.extui (Scalar.cmpi .eq (BitVec.ofNat 32 (i 1).val) 0#32)) 0#32) = 1#1
/-- It holds exactly at the first point of each group of eight. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional of the body (the output's store), from the grid coordinates. -/
abbrev cond2_1 (i : grid2.Coords) : Prop := k2_cond2 i = 1#1
/-- It holds exactly at the last point of each group of eight. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the output is not stored the configuration calls its window idle, -/
theorem idleAt2_3 : ∀ t : Fin cfg2.N, ¬cond2_1 (grid2.coords t) → cfg2.idle 3 (grid2.coords t) = true := by decide +kernel
/-- and the pipeline does not write its block back there; -/
theorem noFlush2_3 : ∀ t : Fin cfg2.N, ¬cond2_1 (grid2.coords t) → (cfg2.win 3).flush t = false := by decide +kernel
/-- where it is stored the window is live. -/
theorem liveAt2_3 : ∀ t : Fin cfg2.N, cond2_1 (grid2.coords t) → cfg2.idle 3 (grid2.coords t) = false := by decide +kernel

/-! ## The scratch accumulator among the core's scoped buffers -/

/-- The scratch operand: a whole scoped buffer of the kernel's own, passed beside the windows. -/
abbrev scM2 : Memref sig .tc .vmem S16x39 .f32 := Memref.whole cc2_scratch0

/-- The scoped buffers that are no staging buffer of this call, other than its scratch: carried unopened. -/
abbrev rest2 (c : Dev nD) : sProp 𝕄 :=
  Pipeline.scopedRestBut (Ix := Unit) (Name := ℕ) (U := UR sig nD τ) (Lvl := ℕ) (Val := Elt F) spec2 c [cc2_scratch0]

/-- The scoped rest split at the scratch. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ rest2 c) :=
  Pipeline.scopedRest_split_of_list spec2 c [cc2_scratch0] (by decide) (by decide)

/-- The class's invariant with the scratch as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-! ## The body's triple, case by case -/

set_option maxHeartbeats 1000000 in
/-- FIRST point of a group (reset taken, output not stored): whatever the scratch held, it ends at the block product
    added to the zero accumulator; the output window's buffer is handed back untouched. -/
theorem run2_A (c : Dev nD) (E : Set ℕ) (i : grid2.Coords)
    (arg2 : Memref sig .tc .vmem S16x8192 .f32) (harg2 : arg2.IsWhole) (arg3 : Memref sig .tc .vmem S39x8192 .bf16) (harg3 : arg3.IsWhole)
    (arg4 : Memref sig .tc .vmem S1x39 .f32) (harg4 : arg4.IsWhole) (arg5 : Memref sig .tc .vmem S16x39 .f32) (harg5 : arg5.IsWhole)
    (arg6 : Memref sig .tc .vmem S16x39 .f32) (harg6 : arg6.IsWhole) (hc0 : cond2_0 i) (hc1 : ¬cond2_1 i)
    (x0 : Vec F S16x8192 .f32) (x1 : Vec F S39x8192 .bf16) (x2 : Vec F S1x39 .f32) (xi3 : Vec F S16x39 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 x0 x1 (k2_pay1 (F := F)))) -∗ K ⟨⟩))
      ⊢ wp frame (wpE (defs₀ (F := F)) Variants.none c none) E (cc2__final_linear_kernel i arg2 harg2 arg3 harg3 arg4 harg4 arg5 harg5 arg6 harg6) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  refine (read_writes_whole _ _ zeros2 _ _ _).trans ?_
  sl_unfold_run_names
  rw [readAt_whole arg2 harg2 zeros2, readAt_whole arg3 harg3 zeros2, View.readCov_cons_toLoadRect]

set_option maxHeartbeats 1000000 in
/-- A MIDDLE point (neither conditional taken): the scratch at `s` ends at the block product added to `s`; the output
    window's buffer is handed back untouched. -/
theorem run2_B (c : Dev nD) (E : Set ℕ) (i : grid2.Coords)
    (arg2 : Memref sig .tc .vmem S16x8192 .f32) (harg2 : arg2.IsWhole) (arg3 : Memref sig .tc .vmem S39x8192 .bf16) (harg3 : arg3.IsWhole)
    (arg4 : Memref sig .tc .vmem S1x39 .f32) (harg4 : arg4.IsWhole) (arg5 : Memref sig .tc .vmem S16x39 .f32) (harg5 : arg5.IsWhole)
    (arg6 : Memref sig .tc .vmem S16x39 .f32) (harg6 : arg6.IsWhole) (hc0 : ¬cond2_0 i) (hc1 : ¬cond2_1 i)
    (x0 : Vec F S16x8192 .f32) (x1 : Vec F S39x8192 .bf16) (x2 : Vec F S1x39 .f32) (xi3 : Vec F S16x39 .f32) (s : Vec F S16x39 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 x0 x1 s)) -∗ K ⟨⟩))
      ⊢ wp frame (wpE (defs₀ (F := F)) Variants.none c none) E (cc2__final_linear_kernel i arg2 harg2 arg3 harg3 arg4 harg4 arg5 harg5 arg6 harg6) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  refine (read_writes_whole _ _ zeros2 _ _ _).trans ?_
  rw [readAt_whole arg2 harg2 zeros2, readAt_whole arg3 harg3 zeros2, readAt_whole arg6 harg6 zeros2]

set_option maxHeartbeats 1000000 in
/-- LAST point of a group (output stored, no reset): the scratch at `s` ends at the block product added to `s`, and the
    output window's buffer, whatever it held, at that sum plus the bias row. -/
theorem run2_C (c : Dev nD) (E : Set ℕ) (i : grid2.Coords)
    (arg2 : Memref sig .tc .vmem S16x8192 .f32) (harg2 : arg2.IsWhole) (arg3 : Memref sig .tc .vmem S39x8192 .bf16) (harg3 : arg3.IsWhole)
    (arg4 : Memref sig .tc .vmem S1x39 .f32) (harg4 : arg4.IsWhole) (arg5 : Memref sig .tc .vmem S16x39 .f32) (harg5 : arg5.IsWhole)
    (arg6 : Memref sig .tc .vmem S16x39 .f32) (harg6 : arg6.IsWhole) (hc0 : ¬cond2_0 i) (hc1 : cond2_1 i)
    (x0 : Vec F S16x8192 .f32) (x1 : Vec F S39x8192 .bf16) (x2 : Vec F S1x39 .f32) (s : Vec F S16x39 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 s) x2) ∗ owns (c : Thread nD τ) arg6 fullShare (k2_pay2 x0 x1 s)) -∗ K ⟨⟩))
      ⊢ wp frame (wpE (defs₀ (F := F)) Variants.none c none) E (cc2__final_linear_kernel i arg2 harg2 arg3 harg3 arg4 harg4 arg5 harg5 arg6 harg6) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_whole _ _ zeros2 _ _ _).trans ?_
    sl_unfold_run_names
    rw [View.readCov_cons_toLoadRect, readAt_whole arg2 harg2 zeros2, readAt_whole arg3 harg3 zeros2, readAt_whole arg6 harg6 zeros2,
      readAt_whole arg4 harg4 zeros2]
  iexists _; isplitr
  swap; · iexact HS
  ipureintro
  refine (read_writes_whole _ _ zeros2 _ _ _).trans ?_
  rw [readAt_whole arg2 harg2 zeros2, readAt_whole arg3 harg3 zeros2, readAt_whole arg6 harg6 zeros2]

/-! ## The windows' blocks, at the region's entry contents -/

-- the TensorCore's buffer contents when the region is entered
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- What the scratch accumulator holds after the body at point `n`: at the first point of a group the block product
    added to the zero accumulator, at any other the block product added to what the point before left. -/
def acc2 (c : Dev nD) : (n : ℕ) → n < cfg2.N → Vec F S16x39 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At the first point of a group. -/
theorem acc2_first (c : Dev nD) (t : Fin cfg2.N) (h : t.val % 8 = 0) :
    acc2 V c t.val t.isLt = k2_pay2 (iblk2 V c 0 t) (iblk2 V c 1 t) (k2_pay1 (F := F)) := by
  obtain ⟨n, hn⟩ := t
  cases n with
  | zero => rfl
  | succ n => exact if_pos h

/-- At any other point: over what the point before left. -/
theorem acc2_next (c : Dev nD) (t : Fin cfg2.N) (h : ¬t.val % 8 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The region invariant before position `n`: before the first point the class's (every scoped buffer that is no
    staging buffer at anything, the random-number generator's register at some state); afterwards the same with the scratch at what the
    point before left in it. -/
def PhiS (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (acc2 V c n hn) ∗ rest2 c) ∗ (∃ r, prngReg c r)) := rfl

theorem PhiS_pos (c : Dev nD) (n : ℕ) (h : n ≤ cfg2.N) (hz : n ≠ 0) :
    PhiS V c n h = iprop(iprop(owns (c : Thread nD τ) scM2 fullShare (acc2 V c (n - 1) (by omega)) ∗ rest2 c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at the accumulator after `t` plus the bias row (consulted only where
    the window is live); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := by
  dsimp only [dat2]
theorem owed2 (c : Dev nD) (t : Fin (cfg2.N + 1)) : (dat2 V c).owed t = 0 := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the closed forms of the two conditions say which of
    the three cases the point is in; the invariant hands the body the scratch (at anything at the very first point, else
    at what the point before left) and takes it back at this point's contents; where the output is not stored its
    window's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  have hN : t.val < 16 := lt_of_lt_of_eq t.isLt (show cfg2.N = 16 from N_2)
  by_cases h0 : t.val % 8 = 0
  · -- the first point of a group
    have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [acc2_first V c t h0]
    by_cases hz : t.val = 0
    · rw [PhiS_castSucc V c t, PhiS_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c Set.univ (grid2.coords t) _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run2_A c Set.univ (grid2.coords t) _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [acc2_next V c t h0]
    rw [PhiS_castSucc V c t, PhiS_pos V c _ _ hz]
    by_cases h1 : t.val % 8 = 7
    · -- the last point of a group
      have hc1 : cond2_1 (grid2.coords t) := (hcond2_1 t).mpr h1
      rw [show (dat2 V c).leavesExact 3 t = owns (c : Thread nD τ) (st2_3 t) fullShare ((dat2 V c).after 3 t) from by
          unfold Dat.leavesExact; rw [liveAt2_3 t hc1], after2_3, acc2_next V c t h0]
      iintro ⟨⟨⟨HS, HR⟩, Hg⟩, Ho, ⟨%d0, H0⟩, ⟨%d1, H1⟩, ⟨%d2, H2⟩, ⟨%d3, H3⟩⟩
      iapply (run2_C c Set.univ (grid2.coords t) _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point
      have hc1 : ¬cond2_1 (grid2.coords t) := fun h => h1 ((hcond2_1 t).mp h)
      rw [Dat.leavesExact_idle (dat2 V c) 3 t (idleAt2_3 t hc1) (noFlush2_3 t hc1)]
      iintro ⟨⟨⟨HS, HR⟩, Hg⟩, Ho, ⟨%d0, H0⟩, ⟨%d1, H1⟩, ⟨%d2, H2⟩, ⟨%d3, H3⟩⟩
      iapply (run2_B c Set.univ (grid2.coords t) _ _ _ _ _ _ _ _ _ _ hc0 hc1 (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS V c 0 (Nat.zero_le _) from rfl, PhiS_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 (F := F) V c).Φ t ⊢ Pipeline.ΦA spec2 c := by
  rw [show (dat2 V c).Φ t = PhiS V c t.val (Nat.le_of_lt_succ t.isLt) from rfl, PhiS_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 (F := F) V c).Φ (Fin.last cfg2.N) ⊢ Pipeline.ΦA spec2 c :=
  Phi_out2 V c _ (by rw [Fin.val_last]; have : cfg2.N = 16 := N_2; omega)

end Cert.KernelIdeal.Rgn

end
-- ==== Proof.MainRun.lean ====
import proofs.«177734_j84713934946331_2_alg».proof.Proof.Gen.KernelIdeal.Launch
import proofs.«177734_j84713934946331_2_alg».proof.Proof.Gen.KernelIdeal.Skeleton
import proofs.«177734_j84713934946331_2_alg».proof.Proof.Gen.KernelIdeal.Points
import proofs.«177734_j84713934946331_2_alg».proof.Proof.Gen.KernelIdeal.Regions
import proofs.«177734_j84713934946331_2_alg».proof.Proof.Region0
import proofs.«177734_j84713934946331_2_alg».proof.Proof.Region1
import proofs.«177734_j84713934946331_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The whole of @main as one run. Its seven items — four stretches of host operations around three kernel
  regions — are threaded through the buffers' contents: `W0` is the launch memory, a host stretch maps the contents
  `W` to `StableHlo.after ops W`, and a region replaces each of its windows' arrays by what the region's write-backs
  leave there and keeps every other buffer. Every weakly fair execution terminates, and in every final state each
  unscoped buffer holds its `W7` contents; the argument buffers are written by no stretch and changed by no region,
  so `W7` at an argument is the launch memory.
-/
namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.KernelIdeal.Rgn

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch. -/
abbrev W1 : Dev nD → Valuation τ sig (Elt F) := fun c => StableHlo.after hostOps0 (W0 m c)

/-- The same read at the TensorCore's references: what region 0 finds. -/
abbrev U1 : (c : Dev nD) → (b : Ref sig .tc) → Buf (Elt F) ((c : Thread nD τ).loc b) := fun c b => W1 m c b
/-- After region 0: its windows' arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the host stretch that follows region 0. -/
abbrev W3 : Dev nD → Valuation τ sig (Elt F) := fun c => StableHlo.after hostOps1 (W2 m c)

/-- The same read at the TensorCore's references: what region 1 finds. -/
abbrev U3 : (c : Dev nD) → (b : Ref sig .tc) → Buf (Elt F) ((c : Thread nD τ).loc b) := fun c b => W3 m c b
/-- After region 1: its windows' arrays at what the write-backs leave, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the host stretch that follows region 1. -/
abbrev W5 : Dev nD → Valuation τ sig (Elt F) := fun c => StableHlo.after hostOps2 (W4 m c)

/-- The same read at the TensorCore's references: what region 2 finds. -/
abbrev U5 : (c : Dev nD) → (b : Ref sig .tc) → Buf (Elt F) ((c : Thread nD τ).loc b) := fun c b => W5 m c b
/-- After region 2: its windows' arrays at what the write-backs leave, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the host stretch that follows region 2. -/
abbrev W7 : Dev nD → Valuation τ sig (Elt F) := fun c => StableHlo.after hostOps3 (W6 m c)

/-! ## No item changes an argument -/

theorem W7_of (c : Dev nD) (r : Ref sig .tc) (h : r ∉ hostOps3_W) : W7 m c r = W6 m c r :=
  StableHlo.after_of_writes_sub hostOps3 _ hostOps3_writes h
theorem W5_of (c : Dev nD) (r : Ref sig .tc) (h : r ∉ hostOps2_W) : W5 m c r = W4 m c r :=
  StableHlo.after_of_writes_sub hostOps2 _ hostOps2_writes h
theorem W3_of (c : Dev nD) (r : Ref sig .tc) (h : r ∉ hostOps1_W) : W3 m c r = W2 m c r :=
  StableHlo.after_of_writes_sub hostOps1 _ hostOps1_writes h
theorem W1_of (c : Dev nD) (r : Ref sig .tc) (h : r ∉ hostOps0_W) : W1 m c r = W0 m c r :=
  StableHlo.after_of_writes_sub hostOps0 _ hostOps0_writes h

/-- The first argument is the first region's first window's array: an input window's array ends as it was found. -/
theorem W7_main_arg0 (c : Dev nD) : W7 m c main_arg0 = m ((c : Thread nD τ).loc main_arg0) :=
  (W7_of m c main_arg0 (by decide)).trans <| (W6_of_ne m c main_arg0 (by decide)).trans <| (W5_of m c main_arg0 (by decide)).trans <|
  (W4_of_ne m c main_arg0 (by decide)).trans <| (W3_of m c main_arg0 (by decide)).trans <|
  ((W2_arr m c 0).trans (((dat0 (U1 m) c).arrAt_in 0 rfl _).trans (A_eq0 (U1 m) c 0))).trans <| (W1_of m c main_arg0 (by decide)).trans rfl
theorem W7_main_arg1 (c : Dev nD) : W7 m c main_arg1 = m ((c : Thread nD τ).loc main_arg1) :=
  (W7_of m c main_arg1 (by decide)).trans <| (W6_of_ne m c main_arg1 (by decide)).trans <| (W5_of m c main_arg1 (by decide)).trans <|
  (W4_of_ne m c main_arg1 (by decide)).trans <| (W3_of m c main_arg1 (by decide)).trans <|
  (W2_of_ne m c main_arg1 (by decide)).trans <| (W1_of m c main_arg1 (by decide)).trans rfl
theorem W7_main_arg2 (c : Dev nD) : W7 m c main_arg2 = m ((c : Thread nD τ).loc main_arg2) :=
  (W7_of m c main_arg2 (by decide)).trans <| (W6_of_ne m c main_arg2 (by decide)).trans <| (W5_of m c main_arg2 (by decide)).trans <|
  (W4_of_ne m c main_arg2 (by decide)).trans <| (W3_of m c main_arg2 (by decide)).trans <|
  (W2_of_ne m c main_arg2 (by decide)).trans <| (W1_of m c main_arg2 (by decide)).trans rfl
theorem W7_main_arg3 (c : Dev nD) : W7 m c main_arg3 = m ((c : Thread nD τ).loc main_arg3) :=
  (W7_of m c main_arg3 (by decide)).trans <| (W6_of_ne m c main_arg3 (by decide)).trans <| (W5_of m c main_arg3 (by decide)).trans <|
  (W4_of_ne m c main_arg3 (by decide)).trans <| (W3_of m c main_arg3 (by decide)).trans <|
  (W2_of_ne m c main_arg3 (by decide)).trans <| (W1_of m c main_arg3 (by decide)).trans rfl
theorem W7_main_arg4 (c : Dev nD) : W7 m c main_arg4 = m ((c : Thread nD τ).loc main_arg4) :=
  (W7_of m c main_arg4 (by decide)).trans <| (W6_of_ne m c main_arg4 (by decide)).trans <| (W5_of m c main_arg4 (by decide)).trans <|
  (W4_of_ne m c main_arg4 (by decide)).trans <| (W3_of m c main_arg4 (by decide)).trans <|
  (W2_of_ne m c main_arg4 (by decide)).trans <| (W1_of m c main_arg4 (by decide)).trans rfl
theorem W7_main_arg5 (c : Dev nD) : W7 m c main_arg5 = m ((c : Thread nD τ).loc main_arg5) :=
  (W7_of m c main_arg5 (by decide)).trans <| (W6_of_ne m c main_arg5 (by decide)).trans <| (W5_of m c main_arg5 (by decide)).trans <|
  (W4_of_ne m c main_arg5 (by decide)).trans <| (W3_of m c main_arg5 (by decide)).trans <|
  (W2_of_ne m c main_arg5 (by decide)).trans <| (W1_of m c main_arg5 (by decide)).trans rfl
theorem W7_main_arg6 (c : Dev nD) : W7 m c main_arg6 = m ((c : Thread nD τ).loc main_arg6) :=
  (W7_of m c main_arg6 (by decide)).trans <| (W6_of_ne m c main_arg6 (by decide)).trans <| (W5_of m c main_arg6 (by decide)).trans <|
  (W4_of_ne m c main_arg6 (by decide)).trans <| (W3_of m c main_arg6 (by decide)).trans <|
  (W2_of_ne m c main_arg6 (by decide)).trans <| (W1_of m c main_arg6 (by decide)).trans rfl

/-! ## The proof data of the three pipelines and the thread state between items -/

/-- No pipeline has a prefetched table. -/
abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the last region leaves, without the `owes`: the buffers at `W6`, the generator register at some state. -/
abbrev Tlast (c : Dev nD) : sProp 𝕄 := iprop(StableHlo.held (c : Thread nD τ) (Pipeline.ucRefs τ sig) (W6 m c) ∗ ∃ r, prngReg c r)
/-- The very last state, after the closing host stretch. -/
abbrev Tend (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 as a segment: entered with every unscoped buffer at `W1`, left with them at `W2`; its windows'
    arrays are split out of the unscoped buffers on entry and put back, at what the write-backs leave, on exit; the
    generator register passes through the region's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun c t => owed0 (U1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun w => q0 (U1 m) c w) (U1 m c) fun w => A_eq0 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (U1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (U1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (U1 m) c w)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`; its windows'
    arrays are split out of the unscoped buffers on entry and put back, at what the write-backs leave, on exit; the
    generator register passes through the region's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun c t => owed1 (U3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun w => q1 (U3 m) c w) (U3 m c) fun w => A_eq1 (U3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (U3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (U3 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1 (U3 m) c w)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`; its windows'
    arrays are split out of the unscoped buffers on entry and put back, at what the write-backs leave, on exit; the
    generator register passes through the region's invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun c t => owed2 (U5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun w => q2 (U5 m) c w) (U5 m c) fun w => A_eq2 (U5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (F := F) (U5 m) c)
    unfold Pipeline.ΦA
    iintro ⟨Hp, -, Hr⟩
    isplitl [Hr]; · iexact Hr
    iexact Hp
  hout c := by
    rw [Pipeline.ownSems0_none]
    refine BIBase.Entails.trans (hout2 (F := F) (U5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (U5 m) c w)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- Every weakly fair execution of @main from memory `m` with zero counters terminates, and every final state holds each
    unscoped buffer of each core at its `W7` contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every weakly fair execution terminates and every argument buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_main m ρ)

/-- The same run with the result buffer named: it ends at its `W7` contents. -/
theorem run_result : θ_run defs (onTc (τ := τ) (main (F := F))) ⟨m, fun _ => 0, ρ⟩ (fun r => ∀ c : Dev nD,
      r.2.mem ((c.tc : Thread nD τ).loc main_v29) = W7 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v29 (by decide)), (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_main m ρ)

end Cert.KernelIdeal.Run

end
-- ==== Proof.KRegion0.lean ====
/- Region 0 of @main (the pallas_call of `cc0__linear_both_kernel`, pipeline 0), at a PARAMETER `V` — the TensorCore's
   buffer contents when the region is entered —, at any float model `F`: each window's block at a grid point, what
   the body leaves in the two output windows' staging buffers (the canon of its whole-rectangle stores over the
   skeleton's payloads), the body's triple, the proof data and the body obligation. -/
import proofs.«177734_j84713934946331_2_alg».proof.Proof.Gen.Kernel.Launch
import proofs.«177734_j84713934946331_2_alg».proof.Proof.Gen.Kernel.Skeleton
import proofs.«177734_j84713934946331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 4096 rows: the elaborator's structural look recurses once per coordinate
set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of 4096 rows of `x`, fetched at every point): its current staging buffer holds its block
    at every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, fetched at the first point only — its block index never moves): its
    current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S4096x128 := Rect.unit (s := S4096x128) ![0, 0] S4096x128.size inb_S4096x128_S4096x128_0_0
abbrev r0_1 : Rect S128x32 := Rect.unit (s := S128x32) ![0, 0] S128x32.size inb_S128x32_S128x32_0_0
abbrev r0_2 : Rect S4096x16 := Rect.unit (s := S4096x16) ![0, 0] S4096x16.size inb_S4096x16_S4096x16_0_0

/-! ## What the body leaves in each output window's buffer -/

/-- Window 2's staging buffer (the left half of the product, rounded to bf16) after the body, from the input windows'
    blocks: its one store as a piece. -/
def out0_2 (x0 : Vec F S4096x128 .f32) (x1 : Vec F S128x32 .f32) : Vec F S4096x16 .bf16 :=
  View.canon [⟨r0_2, k0_pay2 (View.ld x0 r0_0) (View.ld x1 r0_1)⟩]

/-- Its store is of the whole buffer, so it covers it. -/
theorem cover0_2 (p0 : Vec F S4096x16 .bf16) (y : S4096x16.Idx) :
    ∃ pc ∈ ([⟨r0_2, p0⟩] : List (View.Piece (Elt F) S4096x16 .bf16)), y ∈ pc.1.set :=
  View.cover_of_tiled [⟨r0_2, p0⟩] S4096x16.size (by rfl) y

/-- Window 3's staging buffer (the right half of the product, f32) after the body: its one store as a piece. -/
def out0_3 (x0 : Vec F S4096x128 .f32) (x1 : Vec F S128x32 .f32) : Vec F S4096x16 .f32 :=
  View.canon [⟨r0_2, k0_pay3 (View.ld x0 r0_0) (View.ld x1 r0_1)⟩]

theorem cover0_3 (p0 : Vec F S4096x16 .f32) (y : S4096x16.Idx) :
    ∃ pc ∈ ([⟨r0_2, p0⟩] : List (View.Piece (Elt F) S4096x16 .f32)), y ∈ pc.1.set :=
  View.cover_of_tiled [⟨r0_2, p0⟩] S4096x16.size (by rfl) y

/-! ## The body's triple -/

set_option maxHeartbeats 1000000 in
/-- The kernel body on whole staging memrefs, the inputs' at contents `x0`, `x1` and the outputs' at anything, runs to
    the continuation holding the inputs' as they were and each output's at `out0_W` of the inputs'. -/
theorem sound_kernel0 (c : Dev nD) (E : Set ℕ) (i : grid0.Coords) (arg1 : Memref sig .tc .vmem S4096x128 .f32) (harg1 : arg1.IsWhole) (arg2 : Memref sig .tc .vmem S128x32 .f32) (harg2 : arg2.IsWhole) (arg3 : Memref sig .tc .vmem S4096x16 .bf16) (harg3 : arg3.IsWhole) (arg4 : Memref sig .tc .vmem S4096x16 .f32) (harg4 : arg4.IsWhole)
    (x0 : Vec F S4096x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__linear_both_kernel i arg1 harg1 arg2 harg2 arg3 harg3 arg4 harg4) K := by
  simp only [cc0__linear_both_kernel_eq_skeleton]; unfold cc0__linear_both_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant, the debts and the shares of the proof data, projected. -/
theorem Phi0 (c : Dev nD) (t : Fin (cfg0.N + 1)) : (dat0 (F := F) V c).Φ t = Pipeline.ΦA spec0 c := by dsimp only [dat0]
theorem owed0 (c : Dev nD) (t : Fin (cfg0.N + 1)) : (dat0 (F := F) V c).owed t = 0 := by dsimp only [dat0]
theorem q0 (c : Dev nD) (w) : (dat0 (F := F) V c).q w = fullShare := by dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs' buffers are the payloads of the input blocks

Each store is of the whole buffer (offsets zero, extents the buffer's), and each load reads a whole block: a whole-buffer
store read back whole is its payload, and a whole-block load is the block. -/

theorem hz2 : (![0, 0] : Fin 2 → Nat) = fun _ => 0 := by
  funext a; match a with | ⟨0, _⟩ => rfl | ⟨1, _⟩ => rfl

theorem out0_2_eq (x0 : Vec F S4096x128 .f32) (x1 : Vec F S128x32 .f32) : out0_2 (F := F) x0 x1 = k0_pay2 x0 x1 := by
  unfold out0_2
  rw [View.canon_unit_zero hz2]
  simp only [View.ld_unit_zero (S := S4096x128) hz2, View.ld_unit_zero (S := S128x32) hz2]

theorem out0_3_eq (x0 : Vec F S4096x128 .f32) (x1 : Vec F S128x32 .f32) : out0_3 (F := F) x0 x1 = k0_pay3 x0 x1 := by
  unfold out0_3
  rw [View.canon_unit_zero hz2]
  simp only [View.ld_unit_zero (S := S4096x128) hz2, View.ld_unit_zero (S := S128x32) hz2]

end Cert.Kernel.Rgn

end
-- ==== Proof.KRegion1.lean ====
/- Region 1 of @main (the pallas_call of `cc1__combine_kernel`, pipeline 1), at a PARAMETER `V` — the TensorCore's
   buffer contents when the region is entered —, at any float model `F`: each window's block at a grid point, what
   the body leaves in the output window's staging buffer (the canon of its whole-rectangle store over the skeleton's
   payload), the body's triple, the proof data and the body obligation. -/
import proofs.«177734_j84713934946331_2_alg».proof.Proof.Gen.Kernel.Launch
import proofs.«177734_j84713934946331_2_alg».proof.Proof.Gen.Kernel.Skeleton
import proofs.«177734_j84713934946331_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 4096 rows: the elaborator's structural look recurses once per coordinate
set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the block of 4096 rows of the aggregate, fetched at every point): its current staging buffer holds its
    block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the block of 4096 rows of the count column, fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the block of 4096 rows of the right-hand projection, fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the whole bias row, fetched at the first point only — its block index never moves): its current
    staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S4096x1 := Rect.unit (s := S4096x1) ![0, 0] S4096x1.size inb_S4096x1_S4096x1_0_0
abbrev r1_1 : Rect S4096x16 := Rect.unit (s := S4096x16) ![0, 0] S4096x16.size inb_S4096x16_S4096x16_0_0
abbrev r1_2 : Rect S1x16 := Rect.unit (s := S1x16) ![0, 0] S1x16.size inb_S1x16_S1x16_0_0

/-! ## What the body leaves in the output window's buffer -/

/-- Window 4's staging buffer after the body, from the input windows' blocks IN WINDOW ORDER (`x0` the aggregate,
    `x1` the count column, `x2` the right-hand projection, `x3` the bias row): its one store as a piece. The payload
    takes them in the order the body loads them: count, aggregate, bias, projection. -/
def out1_4 (x0 : Vec F S4096x16 .f32) (x1 : Vec F S4096x1 .f32) (x2 : Vec F S4096x16 .f32) (x3 : Vec F S1x16 .f32) : Vec F S4096x16 .f32 :=
  View.canon [⟨r1_1, k1_pay1 (View.ld x1 r1_0) (View.ld x0 r1_1) (View.ld x3 r1_2) (View.ld x2 r1_1)⟩]

/-- Its store is of the whole buffer, so it covers it. -/
theorem cover1_4 (p0 : Vec F S4096x16 .f32) (y : S4096x16.Idx) :
    ∃ pc ∈ ([⟨r1_1, p0⟩] : List (View.Piece (Elt F) S4096x16 .f32)), y ∈ pc.1.set :=
  View.cover_of_tiled [⟨r1_1, p0⟩] S4096x16.size (by rfl) y

/-! ## The body's triple -/

set_option maxHeartbeats 1000000 in
/-- The kernel body on whole staging memrefs, the inputs' at contents `x0 … x3` and the output's at anything, runs to the
    continuation holding the inputs' as they were and the output's at `out1_4` of the inputs'. -/
theorem sound_kernel1 (c : Dev nD) (E : Set ℕ) (i : grid1.Coords) (arg1 : Memref sig .tc .vmem S4096x16 .f32) (harg1 : arg1.IsWhole) (arg2 : Memref sig .tc .vmem S4096x1 .f32) (harg2 : arg2.IsWhole) (arg3 : Memref sig .tc .vmem S4096x16 .f32) (harg3 : arg3.IsWhole) (arg4 : Memref sig .tc .vmem S1x16 .f32) (harg4 : arg4.IsWhole) (arg5 : Memref sig .tc .vmem S4096x16 .f32) (harg5 : arg5.IsWhole)
    (x0 : Vec F S4096x16 .f32) (x1 : Vec F S4096x1 .f32) (x2 : Vec F S4096x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant, the debts and the shares of the proof data, projected. -/
theorem Phi1 (c : Dev nD) (t : Fin (cfg1.N + 1)) : (dat1 (F := F) V c).Φ t = Pipeline.ΦA spec1 c := by dsimp only [dat1]
theorem owed1 (c : Dev nD) (t : Fin (cfg1.N + 1)) : (dat1 (F := F) V c).owed t = 0 := by dsimp only [dat1]
theorem q1 (c : Dev nD) (w) : (dat1 (F := F) V c).q w = fullShare := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output's buffer is the payload of the input blocks

The store is of the whole buffer (offsets zero, extents the buffer's), and each load reads a whole block: a whole-buffer
store read back whole is its payload, and a whole-block load is the block. -/

theorem hz2' : (![0, 0] : Fin 2 → Nat) = fun _ => 0 := by
  funext a; match a with | ⟨0, _⟩ => rfl | ⟨1, _⟩ => rfl

/-- The payload's arguments are in the body's load order: the count column (window 1), the aggregate (window 0), the
    bias row (window 3), the right-hand projection (window 2). -/
theorem out1_4_eq (x0 : Vec F S4096x16 .f32) (x1 : Vec F S4096x1 .f32) (x2 : Vec F S4096x16 .f32) (x3 : Vec F S1x16 .f32) :
    out1_4 (F := F) x0 x1 x2 x3 = k1_pay1 x1 x0 x3 x2 := by
  unfold out1_4
  rw [View.canon_unit_zero hz2']
  simp only [View.ld_unit_zero (S := S4096x16) hz2', View.ld_unit_zero (S := S4096x1) hz2', View.ld_unit_zero (S := S1x16) hz2']

end Cert.Kernel.Rgn

end
-- ==== Proof.KRegion2.lean ====
/-
  Region 2 of @main, the final linear layer `out = g · Wᵀ + b`, as one pipeline over the grid `[2, 8]`: the proof data
  and the body obligation, at the TensorCore's buffer contents `V` when the region is entered.

  The reduction over the 65536 columns is cut into eight blocks of 8192. A scratch accumulator is carried between grid
  points: zeroed at the first block of a row group, increased by each block's product, and at the last block stored,
  with the bias row added, into the output window — which is idle, and not written back, at every other point. So the
  body has three cases (first, middle, last point of a group of eight), the scratch's contents after point `n` are a
  recursion on `n` (`acc2`), and the region's invariant carries the scratch at `acc2` of the point before.
-/
import proofs.«177734_j84713934946331_2_alg».proof.Proof.Gen.Kernel.Launch
import proofs.«177734_j84713934946331_2_alg».proof.Proof.Gen.Kernel.Skeleton
import proofs.«177734_j84713934946331_2_alg».proof.Proof.Gen.Kernel.Points
import proofs.«177734_j84713934946331_2_alg».proof.Proof.LibWholeBuffer
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.WholeBuffer

variable {F : FTy → Type} [FloatOps F]

local notation "𝕄" => MT nD τ sig Unit (Elt F) ℕ (UR sig nD τ) ℕ

/-! # Region 2: the final linear layer, a product accumulated in a scratch buffer over the grid's second axis

The grid is `[2, 8]`: point `t` has coordinates `(t / 8, t % 8)`. At `k = t % 8 = 0` the body zeroes the scratch
accumulator, at every point it adds the block product into it, and at `k = 7` it stores accumulator plus bias into the
output window, which is idle (and not written back) at every other point. -/

/-! ## The body's two conditions, in closed form over the grid -/

/-- The first conditional of the body (the accumulator's reset), from the grid coordinates. -/
abbrev cond2_0 (i : grid2.Coords) : Prop := (Scalar.cmpi .ne (Scalar.extui (Scalar.cmpi .eq (BitVec.ofNat 32 (i 1).val) 0#32)) 0#32) = 1#1
/-- It holds exactly at the first point of each group of eight. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional of the body (the output's store), from the grid coordinates. -/
abbrev cond2_1 (i : grid2.Coords) : Prop := k2_cond2 i = 1#1
/-- It holds exactly at the last point of each group of eight. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the output is not stored the configuration calls its window idle, -/
theorem idleAt2_3 : ∀ t : Fin cfg2.N, ¬cond2_1 (grid2.coords t) → cfg2.idle 3 (grid2.coords t) = true := by decide +kernel
/-- and the pipeline does not write its block back there; -/
theorem noFlush2_3 : ∀ t : Fin cfg2.N, ¬cond2_1 (grid2.coords t) → (cfg2.win 3).flush t = false := by decide +kernel
/-- where it is stored the window is live. -/
theorem liveAt2_3 : ∀ t : Fin cfg2.N, cond2_1 (grid2.coords t) → cfg2.idle 3 (grid2.coords t) = false := by decide +kernel

/-! ## The scratch accumulator among the core's scoped buffers -/

/-- The scratch operand: a whole scoped buffer of the kernel's own, passed beside the windows. -/
abbrev scM2 : Memref sig .tc .vmem S16x39 .f32 := Memref.whole cc2_scratch0

/-- The scoped buffers that are no staging buffer of this call, other than its scratch: carried unopened. -/
abbrev rest2 (c : Dev nD) : sProp 𝕄 :=
  Pipeline.scopedRestBut (Ix := Unit) (Name := ℕ) (U := UR sig nD τ) (Lvl := ℕ) (Val := Elt F) spec2 c [cc2_scratch0]

/-- The scoped rest split at the scratch. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ rest2 c) :=
  Pipeline.scopedRest_split_of_list spec2 c [cc2_scratch0] (by decide) (by decide)

/-- The class's invariant with the scratch as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-! ## The body's triple, case by case -/

set_option maxHeartbeats 1000000 in
/-- FIRST point of a group (reset taken, output not stored): whatever the scratch held, it ends at the block product
    added to the zero accumulator; the output window's buffer is handed back untouched. -/
theorem run2_A (c : Dev nD) (E : Set ℕ) (i : grid2.Coords)
    (arg2 : Memref sig .tc .vmem S16x8192 .f32) (harg2 : arg2.IsWhole) (arg3 : Memref sig .tc .vmem S39x8192 .bf16) (harg3 : arg3.IsWhole)
    (arg4 : Memref sig .tc .vmem S1x39 .f32) (harg4 : arg4.IsWhole) (arg5 : Memref sig .tc .vmem S16x39 .f32) (harg5 : arg5.IsWhole)
    (arg6 : Memref sig .tc .vmem S16x39 .f32) (harg6 : arg6.IsWhole) (hc0 : cond2_0 i) (hc1 : ¬cond2_1 i)
    (x0 : Vec F S16x8192 .f32) (x1 : Vec F S39x8192 .bf16) (x2 : Vec F S1x39 .f32) (xi3 : Vec F S16x39 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 x0 x1 (k2_pay1 (F := F)))) -∗ K ⟨⟩))
      ⊢ wp frame (wpE (defs₀ (F := F)) Variants.none c none) E (cc2__final_linear_kernel i arg2 harg2 arg3 harg3 arg4 harg4 arg5 harg5 arg6 harg6) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  refine (read_writes_whole _ _ zeros2 _ _ _).trans ?_
  sl_unfold_run_names
  rw [readAt_whole arg2 harg2 zeros2, readAt_whole arg3 harg3 zeros2, View.readCov_cons_toLoadRect]

set_option maxHeartbeats 1000000 in
/-- A MIDDLE point (neither conditional taken): the scratch at `s` ends at the block product added to `s`; the output
    window's buffer is handed back untouched. -/
theorem run2_B (c : Dev nD) (E : Set ℕ) (i : grid2.Coords)
    (arg2 : Memref sig .tc .vmem S16x8192 .f32) (harg2 : arg2.IsWhole) (arg3 : Memref sig .tc .vmem S39x8192 .bf16) (harg3 : arg3.IsWhole)
    (arg4 : Memref sig .tc .vmem S1x39 .f32) (harg4 : arg4.IsWhole) (arg5 : Memref sig .tc .vmem S16x39 .f32) (harg5 : arg5.IsWhole)
    (arg6 : Memref sig .tc .vmem S16x39 .f32) (harg6 : arg6.IsWhole) (hc0 : ¬cond2_0 i) (hc1 : ¬cond2_1 i)
    (x0 : Vec F S16x8192 .f32) (x1 : Vec F S39x8192 .bf16) (x2 : Vec F S1x39 .f32) (xi3 : Vec F S16x39 .f32) (s : Vec F S16x39 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k2_pay2 x0 x1 s)) -∗ K ⟨⟩))
      ⊢ wp frame (wpE (defs₀ (F := F)) Variants.none c none) E (cc2__final_linear_kernel i arg2 harg2 arg3 harg3 arg4 harg4 arg5 harg5 arg6 harg6) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  refine (read_writes_whole _ _ zeros2 _ _ _).trans ?_
  rw [readAt_whole arg2 harg2 zeros2, readAt_whole arg3 harg3 zeros2, readAt_whole arg6 harg6 zeros2]

set_option maxHeartbeats 1000000 in
/-- LAST point of a group (output stored, no reset): the scratch at `s` ends at the block product added to `s`, and the
    output window's buffer, whatever it held, at that sum plus the bias row. -/
theorem run2_C (c : Dev nD) (E : Set ℕ) (i : grid2.Coords)
    (arg2 : Memref sig .tc .vmem S16x8192 .f32) (harg2 : arg2.IsWhole) (arg3 : Memref sig .tc .vmem S39x8192 .bf16) (harg3 : arg3.IsWhole)
    (arg4 : Memref sig .tc .vmem S1x39 .f32) (harg4 : arg4.IsWhole) (arg5 : Memref sig .tc .vmem S16x39 .f32) (harg5 : arg5.IsWhole)
    (arg6 : Memref sig .tc .vmem S16x39 .f32) (harg6 : arg6.IsWhole) (hc0 : ¬cond2_0 i) (hc1 : cond2_1 i)
    (x0 : Vec F S16x8192 .f32) (x1 : Vec F S39x8192 .bf16) (x2 : Vec F S1x39 .f32) (s : Vec F S16x39 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 x0 x1 s) x2) ∗ owns (c : Thread nD τ) arg6 fullShare (k2_pay2 x0 x1 s)) -∗ K ⟨⟩))
      ⊢ wp frame (wpE (defs₀ (F := F)) Variants.none c none) E (cc2__final_linear_kernel i arg2 harg2 arg3 harg3 arg4 harg4 arg5 harg5 arg6 harg6) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_writes_whole _ _ zeros2 _ _ _).trans ?_
    sl_unfold_run_names
    rw [View.readCov_cons_toLoadRect, readAt_whole arg2 harg2 zeros2, readAt_whole arg3 harg3 zeros2, readAt_whole arg6 harg6 zeros2,
      readAt_whole arg4 harg4 zeros2]
  iexists _; isplitr
  swap; · iexact HS
  ipureintro
  refine (read_writes_whole _ _ zeros2 _ _ _).trans ?_
  rw [readAt_whole arg2 harg2 zeros2, readAt_whole arg3 harg3 zeros2, readAt_whole arg6 harg6 zeros2]

/-! ## The windows' blocks, at the region's entry contents -/

-- the TensorCore's buffer contents when the region is entered
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- What the scratch accumulator holds after the body at point `n`: at the first point of a group the block product
    added to the zero accumulator, at any other the block product added to what the point before left. -/
def acc2 (c : Dev nD) : (n : ℕ) → n < cfg2.N → Vec F S16x39 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (acc2 c n (Nat.lt_of_succ_lt hn))

/-- At the first point of a group. -/
theorem acc2_first (c : Dev nD) (t : Fin cfg2.N) (h : t.val % 8 = 0) :
    acc2 V c t.val t.isLt = k2_pay2 (iblk2 V c 0 t) (iblk2 V c 1 t) (k2_pay1 (F := F)) := by
  obtain ⟨n, hn⟩ := t
  cases n with
  | zero => rfl
  | succ n => exact if_pos h

/-- At any other point: over what the point before left. -/
theorem acc2_next (c : Dev nD) (t : Fin cfg2.N) (h : ¬t.val % 8 = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The region invariant before position `n`: before the first point the class's (every scoped buffer that is no
    staging buffer at anything, the random-number generator's register at some state); afterwards the same with the scratch at what the
    point before left in it. -/
def PhiS (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2 fullShare (acc2 V c n hn) ∗ rest2 c) ∗ (∃ r, prngReg c r)) := rfl

theorem PhiS_pos (c : Dev nD) (n : ℕ) (h : n ≤ cfg2.N) (hz : n ≠ 0) :
    PhiS V c n h = iprop(iprop(owns (c : Thread nD τ) scM2 fullShare (acc2 V c (n - 1) (by omega)) ∗ rest2 c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at the accumulator after `t` plus the bias row (consulted only where
    the window is live); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := by
  dsimp only [dat2]
theorem owed2 (c : Dev nD) (t : Fin (cfg2.N + 1)) : (dat2 V c).owed t = 0 := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the closed forms of the two conditions say which of
    the three cases the point is in; the invariant hands the body the scratch (at anything at the very first point, else
    at what the point before left) and takes it back at this point's contents; where the output is not stored its
    window's buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  have hN : t.val < 16 := lt_of_lt_of_eq t.isLt (show cfg2.N = 16 from N_2)
  by_cases h0 : t.val % 8 = 0
  · -- the first point of a group
    have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [acc2_first V c t h0]
    by_cases hz : t.val = 0
    · rw [PhiS_castSucc V c t, PhiS_zero V c _ _ hz, PhiA2_eq]
      iintro ⟨⟨⟨HS, HR⟩, Hg⟩, Ho, ⟨%d0, H0⟩, ⟨%d1, H1⟩, ⟨%d2, H2⟩, ⟨%d3, H3⟩⟩
      iapply (run2_A c Set.univ (grid2.coords t) _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run2_A c Set.univ (grid2.coords t) _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [acc2_next V c t h0]
    rw [PhiS_castSucc V c t, PhiS_pos V c _ _ hz]
    by_cases h1 : t.val % 8 = 7
    · -- the last point of a group
      have hc1 : cond2_1 (grid2.coords t) := (hcond2_1 t).mpr h1
      rw [show (dat2 V c).leavesExact 3 t = owns (c : Thread nD τ) (st2_3 t) fullShare ((dat2 V c).after 3 t) from by
          unfold Dat.leavesExact; rw [liveAt2_3 t hc1], after2_3, acc2_next V c t h0]
      iintro ⟨⟨⟨HS, HR⟩, Hg⟩, Ho, ⟨%d0, H0⟩, ⟨%d1, H1⟩, ⟨%d2, H2⟩, ⟨%d3, H3⟩⟩
      iapply (run2_C c Set.univ (grid2.coords t) _ _ _ _ _ _ _ _ _ _ hc0 hc1 (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle point
      have hc1 : ¬cond2_1 (grid2.coords t) := fun h => h1 ((hcond2_1 t).mp h)
      rw [Dat.leavesExact_idle (dat2 V c) 3 t (idleAt2_3 t hc1) (noFlush2_3 t hc1)]
      iintro ⟨⟨⟨HS, HR⟩, Hg⟩, Ho, ⟨%d0, H0⟩, ⟨%d1, H1⟩, ⟨%d2, H2⟩, ⟨%d3, H3⟩⟩
      iapply (run2_B c Set.univ (grid2.coords t) _ _ _ _ _ _ _ _ _ _ hc0 hc1 (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS V c 0 (Nat.zero_le _) from rfl, PhiS_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 (F := F) V c).Φ t ⊢ Pipeline.ΦA spec2 c := by
  rw [show (dat2 V c).Φ t = PhiS V c t.val (Nat.le_of_lt_succ t.isLt) from rfl, PhiS_pos V c _ _ ht, PhiA2_eq]
  iintro ⟨⟨HS, HR⟩, Hg⟩
  isplitl [HS HR]
  · isplitl [HS]
    · iexists _; iexact HS
    iexact HR
  iexact Hg

/-- The same after the last point. -/
theorem hout2 (c : Dev nD) : (dat2 (F := F) V c).Φ (Fin.last cfg2.N) ⊢ Pipeline.ΦA spec2 c :=
  Phi_out2 V c _ (by rw [Fin.val_last]; have : cfg2.N = 16 := N_2; omega)

end Cert.Kernel.Rgn

end
-- ==== Proof.KMainRun.lean ====
import proofs.«177734_j84713934946331_2_alg».proof.Proof.Gen.Kernel.Launch
import proofs.«177734_j84713934946331_2_alg».proof.Proof.Gen.Kernel.Skeleton
import proofs.«177734_j84713934946331_2_alg».proof.Proof.Gen.Kernel.Points
import proofs.«177734_j84713934946331_2_alg».proof.Proof.Gen.Kernel.Regions
import proofs.«177734_j84713934946331_2_alg».proof.Proof.KRegion0
import proofs.«177734_j84713934946331_2_alg».proof.Proof.KRegion1
import proofs.«177734_j84713934946331_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-!
  The whole of @main as one run. Its seven items — four stretches of host operations around three kernel
  regions — are threaded through the buffers' contents: `W0` is the launch memory, a host stretch maps the contents
  `W` to `StableHlo.after ops W`, and a region replaces each of its windows' arrays by what the region's write-backs
  leave there and keeps every other buffer. Every weakly fair execution terminates, and in every final state each
  unscoped buffer holds its `W7` contents; the argument buffers are written by no stretch and changed by no region,
  so `W7` at an argument is the launch memory.
-/
namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Cert.Kernel.Rgn

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch. -/
abbrev W1 : Dev nD → Valuation τ sig (Elt F) := fun c => StableHlo.after hostOps0 (W0 m c)

/-- The same read at the TensorCore's references: what region 0 finds. -/
abbrev U1 : (c : Dev nD) → (b : Ref sig .tc) → Buf (Elt F) ((c : Thread nD τ).loc b) := fun c b => W1 m c b
/-- After region 0: its windows' arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the host stretch that follows region 0. -/
abbrev W3 : Dev nD → Valuation τ sig (Elt F) := fun c => StableHlo.after hostOps1 (W2 m c)

/-- The same read at the TensorCore's references: what region 1 finds. -/
abbrev U3 : (c : Dev nD) → (b : Ref sig .tc) → Buf (Elt F) ((c : Thread nD τ).loc b) := fun c b => W3 m c b
/-- After region 1: its windows' arrays at what the write-backs leave, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the host stretch that follows region 1. -/
abbrev W5 : Dev nD → Valuation τ sig (Elt F) := fun c => StableHlo.after hostOps2 (W4 m c)

/-- The same read at the TensorCore's references: what region 2 finds. -/
abbrev U5 : (c : Dev nD) → (b : Ref sig .tc) → Buf (Elt F) ((c : Thread nD τ).loc b) := fun c b => W5 m c b
/-- After region 2: its windows' arrays at what the write-backs leave, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the host stretch that follows region 2. -/
abbrev W7 : Dev nD → Valuation τ sig (Elt F) := fun c => StableHlo.after hostOps3 (W6 m c)

/-! ## No item changes an argument -/

theorem W7_of (c : Dev nD) (r : Ref sig .tc) (h : r ∉ hostOps3_W) : W7 m c r = W6 m c r :=
  StableHlo.after_of_writes_sub hostOps3 _ hostOps3_writes h
theorem W5_of (c : Dev nD) (r : Ref sig .tc) (h : r ∉ hostOps2_W) : W5 m c r = W4 m c r :=
  StableHlo.after_of_writes_sub hostOps2 _ hostOps2_writes h
theorem W3_of (c : Dev nD) (r : Ref sig .tc) (h : r ∉ hostOps1_W) : W3 m c r = W2 m c r :=
  StableHlo.after_of_writes_sub hostOps1 _ hostOps1_writes h
theorem W1_of (c : Dev nD) (r : Ref sig .tc) (h : r ∉ hostOps0_W) : W1 m c r = W0 m c r :=
  StableHlo.after_of_writes_sub hostOps0 _ hostOps0_writes h

/-- The first argument is the first region's first window's array: an input window's array ends as it was found. -/
theorem W7_main_arg0 (c : Dev nD) : W7 m c main_arg0 = m ((c : Thread nD τ).loc main_arg0) :=
  (W7_of m c main_arg0 (by decide)).trans <| (W6_of_ne m c main_arg0 (by decide)).trans <| (W5_of m c main_arg0 (by decide)).trans <|
  (W4_of_ne m c main_arg0 (by decide)).trans <| (W3_of m c main_arg0 (by decide)).trans <|
  ((W2_arr m c 0).trans (((dat0 (U1 m) c).arrAt_in 0 rfl _).trans (A_eq0 (U1 m) c 0))).trans <| (W1_of m c main_arg0 (by decide)).trans rfl
theorem W7_main_arg1 (c : Dev nD) : W7 m c main_arg1 = m ((c : Thread nD τ).loc main_arg1) :=
  (W7_of m c main_arg1 (by decide)).trans <| (W6_of_ne m c main_arg1 (by decide)).trans <| (W5_of m c main_arg1 (by decide)).trans <|
  (W4_of_ne m c main_arg1 (by decide)).trans <| (W3_of m c main_arg1 (by decide)).trans <|
  (W2_of_ne m c main_arg1 (by decide)).trans <| (W1_of m c main_arg1 (by decide)).trans rfl
theorem W7_main_arg2 (c : Dev nD) : W7 m c main_arg2 = m ((c : Thread nD τ).loc main_arg2) :=
  (W7_of m c main_arg2 (by decide)).trans <| (W6_of_ne m c main_arg2 (by decide)).trans <| (W5_of m c main_arg2 (by decide)).trans <|
  (W4_of_ne m c main_arg2 (by decide)).trans <| (W3_of m c main_arg2 (by decide)).trans <|
  (W2_of_ne m c main_arg2 (by decide)).trans <| (W1_of m c main_arg2 (by decide)).trans rfl
theorem W7_main_arg3 (c : Dev nD) : W7 m c main_arg3 = m ((c : Thread nD τ).loc main_arg3) :=
  (W7_of m c main_arg3 (by decide)).trans <| (W6_of_ne m c main_arg3 (by decide)).trans <| (W5_of m c main_arg3 (by decide)).trans <|
  (W4_of_ne m c main_arg3 (by decide)).trans <| (W3_of m c main_arg3 (by decide)).trans <|
  (W2_of_ne m c main_arg3 (by decide)).trans <| (W1_of m c main_arg3 (by decide)).trans rfl
theorem W7_main_arg4 (c : Dev nD) : W7 m c main_arg4 = m ((c : Thread nD τ).loc main_arg4) :=
  (W7_of m c main_arg4 (by decide)).trans <| (W6_of_ne m c main_arg4 (by decide)).trans <| (W5_of m c main_arg4 (by decide)).trans <|
  (W4_of_ne m c main_arg4 (by decide)).trans <| (W3_of m c main_arg4 (by decide)).trans <|
  (W2_of_ne m c main_arg4 (by decide)).trans <| (W1_of m c main_arg4 (by decide)).trans rfl
theorem W7_main_arg5 (c : Dev nD) : W7 m c main_arg5 = m ((c : Thread nD τ).loc main_arg5) :=
  (W7_of m c main_arg5 (by decide)).trans <| (W6_of_ne m c main_arg5 (by decide)).trans <| (W5_of m c main_arg5 (by decide)).trans <|
  (W4_of_ne m c main_arg5 (by decide)).trans <| (W3_of m c main_arg5 (by decide)).trans <|
  (W2_of_ne m c main_arg5 (by decide)).trans <| (W1_of m c main_arg5 (by decide)).trans rfl
theorem W7_main_arg6 (c : Dev nD) : W7 m c main_arg6 = m ((c : Thread nD τ).loc main_arg6) :=
  (W7_of m c main_arg6 (by decide)).trans <| (W6_of_ne m c main_arg6 (by decide)).trans <| (W5_of m c main_arg6 (by decide)).trans <|
  (W4_of_ne m c main_arg6 (by decide)).trans <| (W3_of m c main_arg6 (by decide)).trans <|
  (W2_of_ne m c main_arg6 (by decide)).trans <| (W1_of m c main_arg6 (by decide)).trans rfl

/-! ## The proof data of the three pipelines and the thread state between items -/

/-- No pipeline has a prefetched table. -/
abbrev adm : (p : Fin 3) → (pcfgs (F := F) p).Adm := fun p => (cfgs p).toPCfg_adm
/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the last region leaves, without the `owes`: the buffers at `W6`, the generator register at some state. -/
abbrev Tlast (c : Dev nD) : sProp 𝕄 := iprop(StableHlo.held (c : Thread nD τ) (Pipeline.ucRefs τ sig) (W6 m c) ∗ ∃ r, prngReg c r)
/-- The very last state, after the closing host stretch. -/
abbrev Tend (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 as a segment: entered with every unscoped buffer at `W1`, left with them at `W2`; its windows'
    arrays are split out of the unscoped buffers on entry and put back, at what the write-backs leave, on exit; the
    generator register passes through the region's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun c t => owed0 (U1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun w => q0 (U1 m) c w) (U1 m c) fun w => A_eq0 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0 (U1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi0 (U1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (U1 m) c w)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`; its windows'
    arrays are split out of the unscoped buffers on entry and put back, at what the write-backs leave, on exit; the
    generator register passes through the region's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun c t => owed1 (U3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun w => q1 (U3 m) c w) (U3 m c) fun w => A_eq1 (U3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1 (U3 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi1 (U3 m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1 (U3 m) c w)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W5`, left with them at `W6`; its windows'
    arrays are split out of the unscoped buffers on entry and put back, at what the write-backs leave, on exit; the
    generator register passes through the region's invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun c t => owed2 (U5 m) c t
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun w => q2 (U5 m) c w) (U5 m c) fun w => A_eq2 (U5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (F := F) (U5 m) c)
    unfold Pipeline.ΦA
    iintro ⟨Hp, -, Hr⟩
    isplitl [Hr]; · iexact Hr
    iexact Hp
  hout c := by
    rw [Pipeline.ownSems0_none]
    refine BIBase.Entails.trans (hout2 (F := F) (U5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (U5 m) c w)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- Every weakly fair execution of @main from memory `m` with zero counters terminates, and every final state holds each
    unscoped buffer of each core at its `W7` contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every weakly fair execution terminates and every argument buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_main m ρ)

/-- The same run with the result buffer named: it ends at its `W7` contents. -/
theorem run_result : θ_run defs (onTc (τ := τ) (main (F := F))) ⟨m, fun _ => 0, ρ⟩ (fun r => ∀ c : Dev nD,
      r.2.mem ((c.tc : Thread nD τ).loc main_v29) = W7 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v29 (by decide)), (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩) (run_main m ρ)

end Cert.Kernel.Run

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region01Value.lean ====
/- The payloads of regions 0 and 1, read index by index at the ideal (extended-real) model.

   Region 0: both outputs are halves of ONE matrix product `x_block · w_cat` (`[4096,128] · [128,32]`, accumulated from
   zero): the left 16 columns (stored as bf16 — a rounding that is the identity at the ideal model) and the right 16.
   Region 1: `max (agg / max(cnt, 1) + bias + xr, 0)`, the count a column spread over the 16 lanes and the bias one row
   spread over the 4096 rows. -/
import proofs.«177734_j84713934946331_2_alg».proof.Proof.Gen.KernelIdeal.Skeleton
import proofs.«177734_j84713934946331_2_alg».proof.Proof.LibBlock
import proofs.«177734_j84713934946331_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RgnValue

open Cert.KernelIdeal Cert.KernelIdeal.Gen
open Idealize.ShloMosaic Idealize.ShloMosaic.ValueIdx

/-! ## Region 0 -/

/-- The matrix product of the two blocks (each rounded to bf16: the identity here), into the zero accumulator, at
    `(p, q)`: the sum over the 128 contracted coordinates. -/
theorem k0_pay1_apply (x0 : Vec Ideal S4096x128 .f32) (x1 : Vec Ideal S128x32 .f32) (p : Fin 4096) (q : Fin 32) :
    Gen.k0_pay1 (F := Ideal) x0 x1 (ix2 p q) = ∑ k : Fin 128, x0 (ix2 p k) * x1 (ix2 k q) := by
  unfold Gen.k0_pay1
  refine (Cert.LibBlock.matmul_zero_ix2 dot_S4096x128_S128x32_S4096x32_1_0_0_1_n_n rfl rfl rfl rfl rfl rfl none _ _ p q).trans ?_
  refine Finset.sum_congr rfl fun k _ => ?_
  refine congrArg (fun z => x0 (ix2 p k) * z) ?_
  exact congrFun (shapeCast_self x1 shapeCasts_S128x32_S128x32) (ix2 k q)

/-- Output 0 (the left 16 columns of the product) at `(p, j)`. -/
theorem k0_pay2_apply (x0 : Vec Ideal S4096x128 .f32) (x1 : Vec Ideal S128x32 .f32) (p : Fin 4096) (j : Fin 16) :
    Gen.k0_pay2 (F := Ideal) x0 x1 (ix2 p j) = ∑ k : Fin 128, x0 (ix2 p k) * x1 (ix2 k (⟨j.val, by omega⟩ : Fin 32)) := by
  unfold Gen.k0_pay2
  refine (slice2_axis1_apply 0 (Gen.k0_pay1 (F := Ideal) x0 x1) slices_S4096x32_o0_0_S4096x16 p j (⟨j.val, by omega⟩ : Fin 32)
    (Nat.zero_add _).symm).trans ?_
  exact k0_pay1_apply x0 x1 p _

/-- Output 1 (the right 16 columns of the product) at `(p, j)`. -/
theorem k0_pay3_apply (x0 : Vec Ideal S4096x128 .f32) (x1 : Vec Ideal S128x32 .f32) (p : Fin 4096) (j : Fin 16) :
    Gen.k0_pay3 (F := Ideal) x0 x1 (ix2 p j) = ∑ k : Fin 128, x0 (ix2 p k) * x1 (ix2 k (⟨16 + j.val, by omega⟩ : Fin 32)) := by
  unfold Gen.k0_pay3
  refine (slice2_axis1_apply 16 (Gen.k0_pay1 (F := Ideal) x0 x1) slices_S4096x32_o0_16_S4096x16 p j (⟨16 + j.val, by omega⟩ : Fin 32)
    rfl).trans ?_
  exact k0_pay1_apply x0 x1 p _

/-! ## Region 1 -/

/-- The combine step at `(p, j)`: `v0` the count column, `v4` the aggregate, `v8` the bias row, `v13` the right-hand
    projection. -/
theorem k1_pay1_apply (v0 : Vec Ideal S4096x1 .f32) (v4 : Vec Ideal S4096x16 .f32) (v8 : Vec Ideal S1x16 .f32) (v13 : Vec Ideal S4096x16 .f32)
    (p : Fin 4096) (j : Fin 16) :
    Gen.k1_pay1 (F := Ideal) v0 v4 v8 v13 (ix2 p j)
      = max (Ideal.div (v4 (ix2 p j)) (max (v0 (ix2 p (0 : Fin 1))) (Ideal.ofBits .f32 0x3F800000#32)) + v8 (ix2 (0 : Fin 1) j)
          + v13 (ix2 p j)) (Ideal.ofBits .f32 0x00000000#32) := by
  unfold Gen.k1_pay1
  simp only [shapeCast_self]
  have e6 := Cert.LibColumn.broadcastTo_a1_ab_apply (maximumf (F := Ideal) v0 (broadcast S4096x1 (Scalar.ofBits .f32 0x3F800000#32)))
    broadcasts_S4096x1_S4096x16 p j
  have e11 := broadcastTo_1b_ab_apply v8 broadcasts_S1x16_S4096x16 p j
  show max (Ideal.div (v4 (ix2 p j)) (broadcastTo S4096x16 (maximumf (F := Ideal) v0 (broadcast S4096x1 (Scalar.ofBits .f32 0x3F800000#32)))
      broadcasts_S4096x1_S4096x16 (ix2 p j)) + broadcastTo S4096x16 v8 broadcasts_S1x16_S4096x16 (ix2 p j) + v13 (ix2 p j)) _ = _
  rw [e6, e11]
  rfl

end Cert.KernelIdeal.RgnValue

end
-- ==== Proof.Region01Cover.lean ====
/- From blocks to arrays, regions 0 and 1, at the ideal (extended-real) model.

   Each output array of a region is written back block by block, point `t` of the 32-point grid writing rows
   `4096·t … 4096·t + 4095`; every input window that moves with the grid moves by the same row block, and the weight
   matrix (region 0) and the bias row (region 1) sit still at block 0. So what point `t` writes back is block `t` of ONE
   function of the region-entry arrays, index by index; the 32 blocks cover the 131072 rows, and the array after the
   region is that function. -/
import proofs.«177734_j84713934946331_2_alg».proof.Proof.Region0
import proofs.«177734_j84713934946331_2_alg».proof.Proof.Region1
import proofs.«177734_j84713934946331_2_alg».proof.Proof.Region01Value
import Idealize.ShloMosaic.Lib.Pipeline.Value
import Idealize.ShloMosaic.Lib.ValueIdx

noncomputable section

open scoped BigOperators

namespace Cert.KernelIdeal.RgnValue

open Cert.KernelIdeal Cert.KernelIdeal.Gen Cert.KernelIdeal.Rgn
open Idealize.ShloMosaic Idealize.ShloMosaic.TcCoe Idealize.SL.Sem Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! # Region 0: the two halves of `x · w_cat` -/

/-- Entry `(v, q)` of the product of the whole `x` and the weight matrix. -/
def prodAt (X : S131072x128.Idx → EReal) (W : S128x32.Idx → EReal) (v : Fin 131072) (q : Fin 32) : EReal :=
  ∑ k : Fin 128, X (ix2 v k) * W (ix2 k q)

/-- The left half of the product, as one function of the arrays. -/
abbrev Gxl (X : S131072x128.Idx → EReal) (W : S128x32.Idx → EReal) : S131072x16.Idx → EReal :=
  fun i => (fun (v : Fin 131072) (j : Fin 16) => prodAt X W v (⟨j.val, by omega⟩ : Fin 32)) (i 0) (i 1)

/-- The right half of the product, as one function of the arrays. -/
abbrev Gxr (X : S131072x128.Idx → EReal) (W : S128x32.Idx → EReal) : S131072x16.Idx → EReal :=
  fun i => (fun (v : Fin 131072) (j : Fin 16) => prodAt X W v (⟨16 + j.val, by omega⟩ : Fin 32)) (i 0) (i 1)

/-- The printed index maps of pipeline 0, decided over the grid: the `x` window and both output windows are on the same
    row block and on column block 0; the weight window stays at block (0, 0); the row block is below 32. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_3.index t (0 : Fin 2) = win0_2.index t (0 : Fin 2)
    ∧ win0_3.index t (1 : Fin 2) = 0
    ∧ win0_2.index t (1 : Fin 2) = 0
    ∧ win0_2.index t (0 : Fin 2) ≤ 31 :=
  (by decide +kernel : ∀ t : Fin grid0.N, _)

/-- Every row block is some point's. -/
theorem idx_onto0 : ∀ q0 : Fin 32, ∃ t : Fin cfg0.N, win0_2.index t (0 : Fin 2) = q0.val :=
  (by decide +kernel : ∀ q0 : Fin 32, ∃ t : Fin grid0.N, win0_2.index t (0 : Fin 2) = q0.val)

/-- The payloads of a point's blocks, when the `x` block is rows `4096·r …` of `X` and the weight block is `W`. -/
theorem blk0_apply (X : S131072x128.Idx → EReal) (W : S128x32.Idx → EReal)
    (b0 : Vec Ideal S4096x128 .f32) (b1 : Vec Ideal S128x32 .f32) (r : Nat) (hr : r * 4096 + 4096 ≤ 131072)
    (h0 : ∀ (p : Fin 4096) (k : Fin 128), b0 (ix2 p k) = X (ix2 (⟨r * 4096 + p.val, by omega⟩ : Fin 131072) k))
    (h1 : ∀ (k : Fin 128) (q : Fin 32), b1 (ix2 k q) = W (ix2 k q)) (p : Fin 4096) (j : Fin 16) :
    Gen.k0_pay2 (F := Ideal) b0 b1 (ix2 p j) = prodAt X W (⟨r * 4096 + p.val, by omega⟩ : Fin 131072) (⟨j.val, by omega⟩ : Fin 32)
    ∧ Gen.k0_pay3 (F := Ideal) b0 b1 (ix2 p j) = prodAt X W (⟨r * 4096 + p.val, by omega⟩ : Fin 131072) (⟨16 + j.val, by omega⟩ : Fin 32) := by
  refine ⟨(k0_pay2_apply b0 b1 p j).trans ?_, (k0_pay3_apply b0 b1 p j).trans ?_⟩ <;>
    exact Finset.sum_congr rfl fun k _ => by rw [h0, h1]

/-- The `x` window's block at point `t` is rows `4096·(row block) …` of the array. -/
theorem iblk0_0_apply (c : Dev nD) (t : Fin cfg0.N) (p : Fin 4096) (k : Fin 128) (h : win0_2.index t (0 : Fin 2) * 4096 + 4096 ≤ 131072) :
    (iblk0 V c 0 t : Vec Ideal S4096x128 .f32) (ix2 p k)
      = (V c main_arg0 : S131072x128.Idx → EReal) (ix2 (⟨win0_2.index t (0 : Fin 2) * 4096 + p.val, by omega⟩ : Fin 131072) k) := by
  obtain ⟨e0, e1, -⟩ := idx_facts0 t
  show (V c main_arg0 : S131072x128.Idx → EReal) (((cfg0.win 0).blk t).view.emb (ix2 p k)) = _
  refine congrArg _ (funext fun a => Fin.ext ?_)
  match a with
  | ⟨0, _⟩ => show win0_0.index t (0 : Fin 2) * 4096 + 1 * p.val = win0_2.index t (0 : Fin 2) * 4096 + p.val; omega
  | ⟨1, _⟩ => show win0_0.index t (1 : Fin 2) * 128 + 1 * k.val = k.val; omega

/-- The weight window's block at any point is the whole matrix. -/
theorem iblk0_1_apply (c : Dev nD) (t : Fin cfg0.N) (k : Fin 128) (q : Fin 32) :
    (iblk0 V c 1 t : Vec Ideal S128x32 .f32) (ix2 k q) = (V c main_v6 : S128x32.Idx → EReal) (ix2 k q) := by
  obtain ⟨-, -, e2, e3, -⟩ := idx_facts0 t
  show (V c main_v6 : S128x32.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 32 + 1 * q.val = q.val; omega

/-- WHAT POINT `t` WRITES BACK to the left half's array is block `t` of `Gxl` of the region-entry arrays. -/
theorem flushed0_2_eq (c : Dev nD) (t : Fin cfg0.N) :
    (dat0 V c).flushed 2 t = ((cfg0.win 2).blk t).view.read (Elt Ideal) (Gxl (V c main_arg0) (V c main_v6)) := by
  show (cfg0.win 2).cut (grid0.coords t) ((dat0 V c).after 2 t) = _
  rw [after0_2, out0_2_eq]
  obtain ⟨e0, e1, e2, e3, e4, e5, e6, e7⟩ := idx_facts0 t
  have hr : win0_2.index t (0 : Fin 2) * 4096 + 4096 ≤ 131072 := by omega
  funext y
  obtain ⟨p, j, rfl⟩ : ∃ (p : Fin 4096) (j : Fin 16), y = ix2 p j := ⟨y 0, y 1, eq_ix2 y⟩
  refine ((blk0_apply (V c main_arg0) (V c main_v6) (iblk0 V c 0 t) (iblk0 V c 1 t) (win0_2.index t (0 : Fin 2)) hr
    (fun p k => iblk0_0_apply V c t p k hr) (fun k q => iblk0_1_apply V c t k q) p j).1).trans ?_
  show _ = Gxl (V c main_arg0) (V c main_v6) (((cfg0.win 2).blk t).view.emb (ix2 p j))
  show prodAt _ _ _ _ = prodAt _ _ _ _
  congr 1
  · apply Fin.ext
    show win0_2.index t (0 : Fin 2) * 4096 + p.val = win0_2.index t (0 : Fin 2) * 4096 + 1 * p.val
    omega
  · apply Fin.ext
    show j.val = win0_2.index t (1 : Fin 2) * 16 + 1 * j.val
    omega

/-- WHAT POINT `t` WRITES BACK to the right half's array is block `t` of `Gxr` of the region-entry arrays. -/
theorem flushed0_3_eq (c : Dev nD) (t : Fin cfg0.N) :
    (dat0 V c).flushed 3 t = ((cfg0.win 3).blk t).view.read (Elt Ideal) (Gxr (V c main_arg0) (V c main_v6)) := by
  show (cfg0.win 3).cut (grid0.coords t) ((dat0 V c).after 3 t) = _
  rw [after0_3, out0_3_eq]
  obtain ⟨e0, e1, e2, e3, e4, e5, e6, e7⟩ := idx_facts0 t
  have hr : win0_2.index t (0 : Fin 2) * 4096 + 4096 ≤ 131072 := by omega
  funext y
  obtain ⟨p, j, rfl⟩ : ∃ (p : Fin 4096) (j : Fin 16), y = ix2 p j := ⟨y 0, y 1, eq_ix2 y⟩
  refine ((blk0_apply (V c main_arg0) (V c main_v6) (iblk0 V c 0 t) (iblk0 V c 1 t) (win0_2.index t (0 : Fin 2)) hr
    (fun p k => iblk0_0_apply V c t p k hr) (fun k q => iblk0_1_apply V c t k q) p j).2).trans ?_
  show _ = Gxr (V c main_arg0) (V c main_v6) (((cfg0.win 3).blk t).view.emb (ix2 p j))
  show prodAt _ _ _ _ = prodAt _ _ _ _
  congr 1
  · apply Fin.ext
    show win0_2.index t (0 : Fin 2) * 4096 + p.val = win0_3.index t (0 : Fin 2) * 4096 + 1 * p.val
    omega
  · apply Fin.ext
    show 16 + j.val = 16 + (win0_3.index t (1 : Fin 2) * 16 + 1 * j.val)
    omega

/-- An index of the left half's array is in point `t`'s block iff each coordinate is in the block's range on its axis. -/
theorem mem_blk0_2 (t : Fin cfg0.N) (i : S131072x16.Idx) :
    i ∈ ((cfg0.win 2).blk t).view.set ↔ ∀ a : Fin 2, win0_2.index t a * S4096x16.size a ≤ (i a).val ∧ (i a).val < win0_2.index t a * S4096x16.size a + S4096x16.size a := by
  show i ∈ ((View.whole main_v7_0).slice (win0_2.rect t)).set ↔ _
  rw [View.set_slice_whole, Rect.mem_set_unit]
  exact Iff.rfl

/-- The same for the right half's array. -/
theorem mem_blk0_3 (t : Fin cfg0.N) (i : S131072x16.Idx) :
    i ∈ ((cfg0.win 3).blk t).view.set ↔ ∀ a : Fin 2, win0_3.index t a * S4096x16.size a ≤ (i a).val ∧ (i a).val < win0_3.index t a * S4096x16.size a + S4096x16.size a := by
  show i ∈ ((View.whole main_v7_1).slice (win0_3.rect t)).set ↔ _
  rw [View.set_slice_whole, Rect.mem_set_unit]
  exact Iff.rfl

/-- Row `v` is in the block of the point whose row block is `v / 4096`: the blocks cover the left half's array. -/
theorem cover0_2_arr (i : S131072x16.Idx) : ∃ t : Fin cfg0.N, (cfg0.win 2).flush t = true ∧ i ∈ ((cfg0.win 2).blk t).view.set := by
  have hi0 : (i 0).val < 131072 := idx2_lt0 i
  have hi1 : (i 1).val < 16 := idx2_lt1 i
  obtain ⟨t, ht⟩ := idx_onto0 ⟨(i 0).val / 4096, by omega⟩
  have q0 : win0_2.index t (0 : Fin 2) = (i 0).val / 4096 := ht
  obtain ⟨e0, e1, e2, e3, e4, e5, e6, e7⟩ := idx_facts0 t
  refine ⟨t, flush0_2 t, ?_⟩
  rw [mem_blk0_2]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 16 ≤ (i 1).val ∧ (i 1).val < win0_2.index t (1 : Fin 2) * 16 + 16; omega

/-- The blocks cover the right half's array. -/
theorem cover0_3_arr (i : S131072x16.Idx) : ∃ t : Fin cfg0.N, (cfg0.win 3).flush t = true ∧ i ∈ ((cfg0.win 3).blk t).view.set := by
  have hi0 : (i 0).val < 131072 := idx2_lt0 i
  have hi1 : (i 1).val < 16 := idx2_lt1 i
  obtain ⟨t, ht⟩ := idx_onto0 ⟨(i 0).val / 4096, by omega⟩
  have q0 : win0_2.index t (0 : Fin 2) = (i 0).val / 4096 := ht
  obtain ⟨e0, e1, e2, e3, e4, e5, e6, e7⟩ := idx_facts0 t
  refine ⟨t, flush0_3 t, ?_⟩
  rw [mem_blk0_3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 16 ≤ (i 1).val ∧ (i 1).val < win0_3.index t (1 : Fin 2) * 16 + 16; omega

/-- THE LEFT HALF'S ARRAY after region 0 is `Gxl` of the region-entry arrays: the left 16 columns of `x · w_cat`. -/
theorem xl_arr_fun (c : Dev nD) : (dat0 (F := Ideal) V c).arrAt 2 cfg0.N = Gxl (V c main_arg0) (V c main_v6) :=
  (dat0 V c).arrAt_eq_of_cover 2 (Gxl (V c main_arg0) (V c main_v6)) (fun t _ => flushed0_2_eq V c t) cover0_2_arr

/-- THE RIGHT HALF'S ARRAY after region 0 is `Gxr` of the region-entry arrays: the right 16 columns of `x · w_cat`. -/
theorem xr_arr_fun (c : Dev nD) : (dat0 (F := Ideal) V c).arrAt 3 cfg0.N = Gxr (V c main_arg0) (V c main_v6) :=
  (dat0 V c).arrAt_eq_of_cover 3 (Gxr (V c main_arg0) (V c main_v6)) (fun t _ => flushed0_3_eq V c t) cover0_3_arr

/-- Entry by entry: the sum over the 128 contracted coordinates (`prodAt` unfolds to it by `rfl`). -/
theorem prodAt_def (X : S131072x128.Idx → EReal) (W : S128x32.Idx → EReal) (v : Fin 131072) (q : Fin 32) :
    prodAt X W v q = ∑ k : Fin 128, X (ix2 v k) * W (ix2 k q) := rfl

theorem xl_arr (c : Dev nD) (v : Fin 131072) (j : Fin 16) :
    (dat0 (F := Ideal) V c).arrAt 2 cfg0.N (ix2 v j) = prodAt (V c main_arg0) (V c main_v6) v (⟨j.val, by omega⟩ : Fin 32) :=
  congrFun (xl_arr_fun V c) (ix2 v j)

theorem xr_arr (c : Dev nD) (v : Fin 131072) (j : Fin 16) :
    (dat0 (F := Ideal) V c).arrAt 3 cfg0.N (ix2 v j) = prodAt (V c main_arg0) (V c main_v6) v (⟨16 + j.val, by omega⟩ : Fin 32) :=
  congrFun (xr_arr_fun V c) (ix2 v j)

/-! # Region 1: the combine step -/

/-- Entry `(v, j)` of `max (agg / max(cnt, 1) + bias + xr, 0)`. -/
def combAt (A : S131072x16.Idx → EReal) (C : S131072x1.Idx → EReal) (R : S131072x16.Idx → EReal) (B : S1x16.Idx → EReal)
    (v : Fin 131072) (j : Fin 16) : EReal :=
  max (Ideal.div (A (ix2 v j)) (max (C (ix2 v (0 : Fin 1))) (Ideal.ofBits .f32 0x3F800000#32)) + B (ix2 (0 : Fin 1) j) + R (ix2 v j))
    (Ideal.ofBits .f32 0x00000000#32)

/-- The combined array, as one function of the arrays (in window order: aggregate, count, right-hand projection, bias). -/
abbrev Gh (A : S131072x16.Idx → EReal) (C : S131072x1.Idx → EReal) (R : S131072x16.Idx → EReal) (B : S1x16.Idx → EReal) :
    S131072x16.Idx → EReal :=
  fun i => (fun (v : Fin 131072) (j : Fin 16) => combAt A C R B v j) (i 0) (i 1)

/-- The printed index maps of pipeline 1, decided over the grid: the aggregate, count, projection and output windows are on
    the same row block and on column block 0; the bias window stays at block (0, 0); the row block is below 32. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 31 :=
  (by decide +kernel : ∀ t : Fin grid1.N, _)

/-- Every row block is some point's. -/
theorem idx_onto1 : ∀ q0 : Fin 32, ∃ t : Fin cfg1.N, win1_4.index t (0 : Fin 2) = q0.val :=
  (by decide +kernel : ∀ q0 : Fin 32, ∃ t : Fin grid1.N, win1_4.index t (0 : Fin 2) = q0.val)

/-- The payload of a point's blocks (in window order `b0 … b3`), when the row-blocked ones are rows `4096·r …` of their
    arrays and the bias block is the bias row. -/
theorem blk1_apply (A : S131072x16.Idx → EReal) (C : S131072x1.Idx → EReal) (R : S131072x16.Idx → EReal) (B : S1x16.Idx → EReal)
    (b0 : Vec Ideal S4096x16 .f32) (b1 : Vec Ideal S4096x1 .f32) (b2 : Vec Ideal S4096x16 .f32) (b3 : Vec Ideal S1x16 .f32)
    (r : Nat) (hr : r * 4096 + 4096 ≤ 131072)
    (h0 : ∀ (p : Fin 4096) (j : Fin 16), b0 (ix2 p j) = A (ix2 (⟨r * 4096 + p.val, by omega⟩ : Fin 131072) j))
    (h1 : ∀ (p : Fin 4096) (u : Fin 1), b1 (ix2 p u) = C (ix2 (⟨r * 4096 + p.val, by omega⟩ : Fin 131072) u))
    (h2 : ∀ (p : Fin 4096) (j : Fin 16), b2 (ix2 p j) = R (ix2 (⟨r * 4096 + p.val, by omega⟩ : Fin 131072) j))
    (h3 : ∀ (u : Fin 1) (j : Fin 16), b3 (ix2 u j) = B (ix2 u j)) (p : Fin 4096) (j : Fin 16) :
    Gen.k1_pay1 (F := Ideal) b1 b0 b3 b2 (ix2 p j) = combAt A C R B (⟨r * 4096 + p.val, by omega⟩ : Fin 131072) j := by
  refine (k1_pay1_apply b1 b0 b3 b2 p j).trans ?_
  rw [h0, h1, h2, h3]
  rfl

/-- The aggregate window's block at point `t` is rows `4096·(row block) …` of the array. -/
theorem iblk1_0_apply (c : Dev nD) (t : Fin cfg1.N) (p : Fin 4096) (j : Fin 16) (h : win1_4.index t (0 : Fin 2) * 4096 + 4096 ≤ 131072) :
    (iblk1 V c 0 t : Vec Ideal S4096x16 .f32) (ix2 p j)
      = (V c main_v21 : S131072x16.Idx → EReal) (ix2 (⟨win1_4.index t (0 : Fin 2) * 4096 + p.val, by omega⟩ : Fin 131072) j) := by
  obtain ⟨e0, e1, -⟩ := idx_facts1 t
  show (V c main_v21 : S131072x16.Idx → EReal) (((cfg1.win 0).blk t).view.emb (ix2 p j)) = _
  refine congrArg _ (funext fun a => Fin.ext ?_)
  match a with
  | ⟨0, _⟩ => show win1_0.index t (0 : Fin 2) * 4096 + 1 * p.val = win1_4.index t (0 : Fin 2) * 4096 + p.val; omega
  | ⟨1, _⟩ => show win1_0.index t (1 : Fin 2) * 16 + 1 * j.val = j.val; omega

/-- The count window's block at point `t` is rows `4096·(row block) …` of the count column. -/
theorem iblk1_1_apply (c : Dev nD) (t : Fin cfg1.N) (p : Fin 4096) (u : Fin 1) (h : win1_4.index t (0 : Fin 2) * 4096 + 4096 ≤ 131072) :
    (iblk1 V c 1 t : Vec Ideal S4096x1 .f32) (ix2 p u)
      = (V c main_v22 : S131072x1.Idx → EReal) (ix2 (⟨win1_4.index t (0 : Fin 2) * 4096 + p.val, by omega⟩ : Fin 131072) u) := by
  obtain ⟨-, -, e2, e3, -⟩ := idx_facts1 t
  show (V c main_v22 : S131072x1.Idx → EReal) (((cfg1.win 1).blk t).view.emb (ix2 p u)) = _
  refine congrArg _ (funext fun a => Fin.ext ?_)
  match a with
  | ⟨0, _⟩ => show win1_1.index t (0 : Fin 2) * 4096 + 1 * p.val = win1_4.index t (0 : Fin 2) * 4096 + p.val; omega
  | ⟨1, _⟩ => show win1_1.index t (1 : Fin 2) * 1 + 1 * u.val = u.val; omega

/-- The projection window's block at point `t` is rows `4096·(row block) …` of the array. -/
theorem iblk1_2_apply (c : Dev nD) (t : Fin cfg1.N) (p : Fin 4096) (j : Fin 16) (h : win1_4.index t (0 : Fin 2) * 4096 + 4096 ≤ 131072) :
    (iblk1 V c 2 t : Vec Ideal S4096x16 .f32) (ix2 p j)
      = (V c main_v7_1 : S131072x16.Idx → EReal) (ix2 (⟨win1_4.index t (0 : Fin 2) * 4096 + p.val, by omega⟩ : Fin 131072) j) := by
  obtain ⟨-, -, -, -, e4, e5, -⟩ := idx_facts1 t
  show (V c main_v7_1 : S131072x16.Idx → EReal) (((cfg1.win 2).blk t).view.emb (ix2 p j)) = _
  refine congrArg _ (funext fun a => Fin.ext ?_)
  match a with
  | ⟨0, _⟩ => show win1_2.index t (0 : Fin 2) * 4096 + 1 * p.val = win1_4.index t (0 : Fin 2) * 4096 + p.val; omega
  | ⟨1, _⟩ => show win1_2.index t (1 : Fin 2) * 16 + 1 * j.val = j.val; omega

/-- The bias window's block at any point is the whole bias row. -/
theorem iblk1_3_apply (c : Dev nD) (t : Fin cfg1.N) (u : Fin 1) (j : Fin 16) :
    (iblk1 V c 3 t : Vec Ideal S1x16 .f32) (ix2 u j) = (V c main_v23 : S1x16.Idx → EReal) (ix2 u j) := by
  obtain ⟨-, -, -, -, -, -, e6, e7, -⟩ := idx_facts1 t
  show (V c main_v23 : S1x16.Idx → EReal) (((cfg1.win 3).blk t).view.emb (ix2 u j)) = _
  refine congrArg _ (funext fun a => Fin.ext ?_)
  match a with
  | ⟨0, _⟩ => show win1_3.index t (0 : Fin 2) * 1 + 1 * u.val = u.val; omega
  | ⟨1, _⟩ => show win1_3.index t (1 : Fin 2) * 16 + 1 * j.val = j.val; omega

/-- WHAT POINT `t` WRITES BACK to the combined array is block `t` of `Gh` of the region-entry arrays. -/
theorem flushed1_4_eq (c : Dev nD) (t : Fin cfg1.N) :
    (dat1 V c).flushed 4 t
      = ((cfg1.win 4).blk t).view.read (Elt Ideal) (Gh (V c main_v21) (V c main_v22) (V c main_v7_1) (V c main_v23)) := by
  show (cfg1.win 4).cut (grid1.coords t) ((dat1 V c).after 4 t) = _
  rw [after1_4, out1_4_eq]
  obtain ⟨e0, e1, e2, e3, e4, e5, e6, e7, e8, e9⟩ := idx_facts1 t
  have hr : win1_4.index t (0 : Fin 2) * 4096 + 4096 ≤ 131072 := by omega
  funext y
  obtain ⟨p, j, rfl⟩ : ∃ (p : Fin 4096) (j : Fin 16), y = ix2 p j := ⟨y 0, y 1, eq_ix2 y⟩
  refine (blk1_apply (V c main_v21) (V c main_v22) (V c main_v7_1) (V c main_v23)
    (iblk1 V c 0 t) (iblk1 V c 1 t) (iblk1 V c 2 t) (iblk1 V c 3 t) (win1_4.index t (0 : Fin 2)) hr
    (fun p j => iblk1_0_apply V c t p j hr) (fun p u => iblk1_1_apply V c t p u hr) (fun p j => iblk1_2_apply V c t p j hr)
    (fun u j => iblk1_3_apply V c t u j) p j).trans ?_
  show _ = Gh (V c main_v21) (V c main_v22) (V c main_v7_1) (V c main_v23) (((cfg1.win 4).blk t).view.emb (ix2 p j))
  show combAt _ _ _ _ _ _ = combAt _ _ _ _ _ _
  congr 1
  · apply Fin.ext
    show win1_4.index t (0 : Fin 2) * 4096 + p.val = win1_4.index t (0 : Fin 2) * 4096 + 1 * p.val
    omega
  · apply Fin.ext
    show j.val = win1_4.index t (1 : Fin 2) * 16 + 1 * j.val
    omega

/-- An index of the combined array is in point `t`'s block iff each coordinate is in the block's range on its axis. -/
theorem mem_blk1_4 (t : Fin cfg1.N) (i : S131072x16.Idx) :
    i ∈ ((cfg1.win 4).blk t).view.set ↔ ∀ a : Fin 2, win1_4.index t a * S4096x16.size a ≤ (i a).val ∧ (i a).val < win1_4.index t a * S4096x16.size a + S4096x16.size a := by
  show i ∈ ((View.whole main_v24).slice (win1_4.rect t)).set ↔ _
  rw [View.set_slice_whole, Rect.mem_set_unit]
  exact Iff.rfl

/-- Row `v` is in the block of the point whose row block is `v / 4096`: the blocks cover the combined array. -/
theorem cover1_4_arr (i : S131072x16.Idx) : ∃ t : Fin cfg1.N, (cfg1.win 4).flush t = true ∧ i ∈ ((cfg1.win 4).blk t).view.set := by
  have hi0 : (i 0).val < 131072 := idx2_lt0 i
  have hi1 : (i 1).val < 16 := idx2_lt1 i
  obtain ⟨t, ht⟩ := idx_onto1 ⟨(i 0).val / 4096, by omega⟩
  have q0 : win1_4.index t (0 : Fin 2) = (i 0).val / 4096 := ht
  obtain ⟨e0, e1, e2, e3, e4, e5, e6, e7, e8, e9⟩ := idx_facts1 t
  refine ⟨t, flush1_4 t, ?_⟩
  rw [mem_blk1_4]
  intro a
  match a with
  | ⟨0, _⟩ => show win1_4.index t (0 : Fin 2) * 4096 ≤ (i 0).val ∧ (i 0).val < win1_4.index t (0 : Fin 2) * 4096 + 4096; omega
  | ⟨1, _⟩ => show win1_4.index t (1 : Fin 2) * 16 ≤ (i 1).val ∧ (i 1).val < win1_4.index t (1 : Fin 2) * 16 + 16; omega

/-- THE COMBINED ARRAY after region 1 is `Gh` of the region-entry arrays: `max (agg / max(cnt, 1) + bias + xr, 0)`. -/
theorem h_arr_fun (c : Dev nD) :
    (dat1 (F := Ideal) V c).arrAt 4 cfg1.N = Gh (V c main_v21) (V c main_v22) (V c main_v7_1) (V c main_v23) :=
  (dat1 V c).arrAt_eq_of_cover 4 (Gh (V c main_v21) (V c main_v22) (V c main_v7_1) (V c main_v23))
    (fun t _ => flushed1_4_eq V c t) cover1_4_arr

/-- Entry by entry (`combAt` unfolds to the formula by `rfl`). -/
theorem combAt_def (A : S131072x16.Idx → EReal) (C : S131072x1.Idx → EReal) (R : S131072x16.Idx → EReal) (B : S1x16.Idx → EReal)
    (v : Fin 131072) (j : Fin 16) :
    combAt A C R B v j
      = max (Ideal.div (A (ix2 v j)) (max (C (ix2 v (0 : Fin 1))) (Ideal.ofBits .f32 0x3F800000#32)) + B (ix2 (0 : Fin 1) j) + R (ix2 v j))
          (Ideal.ofBits .f32 0x00000000#32) := rfl

theorem h_arr (c : Dev nD) (v : Fin 131072) (j : Fin 16) :
    (dat1 (F := Ideal) V c).arrAt 4 cfg1.N (ix2 v j) = combAt (V c main_v21) (V c main_v22) (V c main_v7_1) (V c main_v23) v j :=
  congrFun (h_arr_fun V c) (ix2 v j)

end Cert.KernelIdeal.RgnValue

end
-- ==== Proof.KernelHost0.lean ====
/-
  The first host stretch: the edge list split into its two rows, and the two weight matrices, each transposed, laid
  side by side.

  The stretch cuts the 2 × 4194304 edge array into its source row and its destination row, each flattened to a
  vector (`srcFlat`, `dstFlat`), transposes the two 16 × 128 weights and concatenates the results along the columns
  into a 128 × 32 array. Row `k`, column `c` of that array is entry `(c, k)` of the first weight when `c < 16`, and
  entry `(c − 16, k)` of the second otherwise. Every statement holds from any contents the stretch starts from.
-/
import proofs.«177734_j84713934946331_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx
open Idealize.ShloMosaic.StableHlo

/-- Row 0 of the edge array, flattened: the edges' source words. -/
def srcFlat (x1 : (⟨S2x4194304, .i32⟩ : BufTy).Contents (Elt Ideal)) : (⟨S4194304, .i32⟩ : BufTy).Contents (Elt Ideal) :=
  shapeCast _ (extractStridedSlice S1x4194304 ![0, 0] x1 slices_S2x4194304_S1x4194304_0_0) shapeCasts_S1x4194304_S4194304

/-- Row 1 of the edge array, flattened: the edges' destination words. -/
def dstFlat (x1 : (⟨S2x4194304, .i32⟩ : BufTy).Contents (Elt Ideal)) : (⟨S4194304, .i32⟩ : BufTy).Contents (Elt Ideal) :=
  shapeCast _ (extractStridedSlice S1x4194304 ![1, 0] x1 slices_S2x4194304_S1x4194304_1_0) shapeCasts_S1x4194304_S4194304

variable (W : Valuation τ sig (Elt Ideal))

/-- The stretch leaves the flattened source row in its vector. -/
theorem v1_eq : StableHlo.after hostOps0 W main_v1 = srcFlat (W main_arg1) := by
  show StableHlo.after (hostOps0 (F := Ideal)) W (Proc.devRef .tc main_v1) = _
  unfold srcFlat
  after_results
  try rfl

/-- The stretch leaves the flattened destination row in its vector. -/
theorem v3_eq : StableHlo.after hostOps0 W main_v3 = dstFlat (W main_arg1) := by
  show StableHlo.after (hostOps0 (F := Ideal)) W (Proc.devRef .tc main_v3) = _
  unfold dstFlat
  after_results
  try rfl

/-- What the stretch leaves in the concatenated weight array, as the operations' term over the two weights. -/
theorem wcat_eq :
    (StableHlo.after hostOps0 W main_v6 : S128x32.Idx → EReal)
      = concatenate S128x32 1
          [⟨S128x16, transpose S128x16 [1, 0] (W main_arg2 : S16x128.Idx → EReal) transposes_S16x128_S128x16_1_0⟩,
           ⟨S128x16, transpose S128x16 [1, 0] (W main_arg4 : S16x128.Idx → EReal) transposes_S16x128_S128x16_1_0⟩]
          concatenates_S128x16_S128x16_S128x32_d1 := by
  show StableHlo.after (hostOps0 (F := Ideal)) W (Proc.devRef .tc main_v6) = _
  after_results

/-- Row `k`, column `c` of the concatenated weights: the first weight's `(c, k)` below column 16, the second's
    `(c − 16, k)` from there on. -/
theorem wcat_apply (k : Fin 128) (c : Fin 32) :
    (StableHlo.after hostOps0 W main_v6 : S128x32.Idx → EReal) (ix2 k c)
      = if h : c.val < 16 then (W main_arg2 : S16x128.Idx → EReal) (ix2 (⟨c.val, h⟩ : Fin 16) k)
        else (W main_arg4 : S16x128.Idx → EReal) (ix2 (⟨c.val - 16, by omega⟩ : Fin 16) k) := by
  rw [wcat_eq]
  by_cases h : c.val < 16
  · rw [dif_pos h]
    refine (concatenate_pair_apply_left (t := S128x32) (s₁ := S128x16) (s₂ := S128x16) (1 : Fin 2) _ _
      concatenates_S128x16_S128x16_S128x32_d1 (ix2 k c) rfl
      (ix2 k (⟨c.val, h⟩ : Fin 16) : S128x16.Idx) (fun b => match b with | ⟨0, _⟩ => rfl | ⟨1, _⟩ => rfl)).trans ?_
    exact transpose_ix2_apply _ _ k ⟨c.val, h⟩
  · rw [dif_neg h]
    refine (concatenate_pair_apply_right (t := S128x32) (s₁ := S128x16) (s₂ := S128x16) (1 : Fin 2) _ _
      concatenates_S128x16_S128x16_S128x32_d1 (ix2 k c) rfl rfl
      (ix2 k (⟨c.val - 16, by omega⟩ : Fin 16) : S128x16.Idx)
      (fun b hb => match b, hb with | ⟨0, _⟩, _ => rfl | ⟨1, _⟩, hb => absurd rfl hb)
      (by show (c.val - 16) + 16 = c.val; omega)).trans ?_
    exact transpose_ix2_apply _ _ k ⟨c.val - 16, by omega⟩

end Cert.KernelIdeal.HostValue

end
-- ==== Proof.LibGatherScatter.lean ====
/-
  Two index-driven array operations read at one element, for a column of indices.

  A gather of whole rows of an `N × C` array (or of single elements of an `N`-vector) at an `E × 1` column of start
  indices reads the operand at the start index, taken as a signed integer and clamped into `[0, N − 1]`.
  A float scatter-add of `E` rows (or single elements) at an `E × 1` column of scatter indices is, at output row `v`,
  the operand plus the sum over the update rows `e` whose index, taken as a signed integer and NOT clamped, is exactly `v`;
  an update whose index lies outside `[0, N − 1]` contributes nothing. The sums are in the extended reals, an additive
  commutative monoid: no finiteness is assumed.

  Every lemma is generic in the extents and the index width; the dimension numbers are given by equations on the
  record's fields, so a lemma applies to any record with those fields.
-/
import Idealize.ShloMosaic.PureOps.Ideal
import Idealize.ShloMosaic.Lib.ValueIdx

open Idealize.ShloMosaic Idealize.ShloMosaic.ValueIdx
open scoped BigOperators

namespace Cert.GatherScatter

/-! ## Gather of whole rows, and of single elements, at a column of start indices -/

section Gather
variable {α : Type}

/-- The dimension numbers of a gather of whole rows of an `N × C` operand at an `E × 1` column of start indices. -/
private abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

private theorem gather_rows_lit {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the collapsed axis: the clamped start index, no batching and no offset coordinate
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the kept axis: start 0, no batching coordinate, the offset coordinate is the column
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show (1 : Fin 2) ∉ ([0] : List (Fin 2)) by decide)]
    have ho : (rowsDims N E C wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hs, ho]; omega

/-- A gather of whole rows of an `N × C` operand at an `E × 1` column of start indices, read at `(e, c)`: the
    operand's row at the start index `idx[e, 0]`, read signed and clamped into `[0, N − 1]`, at column `c`. -/
theorem gather_rows_apply {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c) = x (ix2 (⟨min (idx (ix2 e (0 : Fin 1))).toInt.toNat (N - 1), by omega⟩ : Fin N) c) := by
  obtain ⟨od, cd, ob, sb, sm, iv, ss, wf⟩ := d
  simp only at hod hcd hob hsb hsm hiv hss
  subst hod hcd hob hsb hsm hiv hss
  exact gather_rows_lit hN wf x idx e c

/-- The dimension numbers of a gather of single elements of an `N`-vector at an `E × 1` column of start indices. -/
private abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

private theorem gather_vec_lit {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A gather of single elements of an `N`-vector at an `E × 1` column of start indices, read at `e`: the operand
    at the start index `idx[e, 0]`, read signed and clamped into `[0, N − 1]`. -/
theorem gather_vec_apply {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (⟨min (idx (ix2 e (0 : Fin 1))).toInt.toNat (N - 1), by omega⟩ : Fin N)) := by
  obtain ⟨od, cd, ob, sb, sm, iv, ss, wf⟩ := d
  simp only at hod hcd hob hsb hsm hiv hss
  subst hod hcd hob hsb hsm hiv hss
  exact gather_vec_lit hN wf x idx e

end Gather

/-! ## The float scatter-add of rows, and of single elements, at a column of scatter indices -/

section Scatter

/-- A sum over a rank-1 index set is the sum over its one coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The dimension numbers of a scatter of `E` rows of length `C` into an `N × C` operand at an `E × 1` column of
    scatter indices. -/
private abbrev sRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the scatter index, read signed. -/
private theorem sRows_start0 :
    (sRowsDims N E C wf).start (ix2 e c) idx 0 = (idx (ix2 e (0 : Fin 1))).toInt := by
  unfold ScatterDims.start
  rw [dif_pos (show (0 : Fin 2) ∈ (sRowsDims N E C wf).scatterDimsToOperandDims from List.mem_singleton.mpr rfl)]
  have hsi : (sRowsDims N E C wf).siIdx (ix2 e c) ⟨List.idxOf (0 : Fin 2) (sRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
private theorem sRows_start1 : (sRowsDims N E C wf).start (ix2 e c) idx 1 = 0 := by
  unfold ScatterDims.start
  rw [dif_neg (show (1 : Fin 2) ∉ ([0] : List (Fin 2)) by decide)]

/-- The row axis is inserted: its window coordinate is `0`. -/
private theorem sRows_window0 : (sRowsDims N E C wf).window (ix2 e c) 0 = 0 := by
  unfold ScatterDims.window
  have hk : (0 : Fin 2) ∉ (sRowsDims N E C wf).sKept :=
    (by decide : (0 : Fin 2) ∉ (List.finRange 2).filter (· ∉ ([0] : List (Fin 2))))
  rw [dif_neg hk]

/-- The column axis's window coordinate is the update's column. -/
private theorem sRows_window1 : (sRowsDims N E C wf).window (ix2 e c) 1 = c.val := by
  unfold ScatterDims.window
  have hk : (1 : Fin 2) ∈ (sRowsDims N E C wf).sKept :=
    (by decide : (1 : Fin 2) ∈ (List.finRange 2).filter (· ∉ ([0] : List (Fin 2))))
  rw [dif_pos hk]
  rfl

/-- Update element `(e, c)` lands on operand element `(v, c')` exactly when its scatter index, read signed, is `v`
    and the columns agree. -/
private theorem sRows_resultIdx_iff (v : Fin N) (c' : Fin C) :
    (sRowsDims N E C wf).resultIdx? (ix2 e c) idx = some (ix2 v c')
      ↔ (idx (ix2 e (0 : Fin 1))).toInt = (v.val : Int) ∧ c = c' := by
  have h0 := sRows_start0 wf idx e c
  have h1 := sRows_start1 wf idx e c
  have w0 := sRows_window0 wf e c
  have w1 := sRows_window1 wf e c
  unfold ScatterDims.resultIdx?
  split
  · rename_i h
    rw [Option.some.injEq]
    constructor
    · intro heq
      have e0 := congrArg Fin.val (congrFun heq 0)
      have e1 := congrArg Fin.val (congrFun heq 1)
      have b0 := (h 0).1
      change (((sRowsDims N E C wf).start (ix2 e c) idx 0 + ((sRowsDims N E C wf).window (ix2 e c) 0 : Nat)).toNat) = v.val at e0
      change (((sRowsDims N E C wf).start (ix2 e c) idx 1 + ((sRowsDims N E C wf).window (ix2 e c) 1 : Nat)).toNat) = c'.val at e1
      rw [h0, w0] at e0 b0
      rw [h1, w1] at e1
      refine ⟨by omega, Fin.ext (by omega)⟩
    · rintro ⟨hv, rfl⟩
      funext a
      refine Fin.ext ?_
      match a with
      | ⟨0, _⟩ =>
        show (((sRowsDims N E C wf).start (ix2 e c) idx 0 + ((sRowsDims N E C wf).window (ix2 e c) 0 : Nat)).toNat) = v.val
        rw [h0, w0]; omega
      | ⟨1, _⟩ =>
        show (((sRowsDims N E C wf).start (ix2 e c) idx 1 + ((sRowsDims N E C wf).window (ix2 e c) 1 : Nat)).toNat) = c.val
        rw [h1, w1]; omega
  · rename_i h
    constructor
    · intro heq; exact absurd heq (by simp)
    · rintro ⟨hv, rfl⟩
      refine absurd (fun a => ?_) h
      match a with
      | ⟨0, _⟩ =>
        show 0 ≤ (sRowsDims N E C wf).start (ix2 e c) idx 0 + ((sRowsDims N E C wf).window (ix2 e c) 0 : Nat)
          ∧ (sRowsDims N E C wf).start (ix2 e c) idx 0 + ((sRowsDims N E C wf).window (ix2 e c) 0 : Nat) < (N : Int)
        rw [h0, w0]; have := v.isLt; omega
      | ⟨1, _⟩ =>
        show 0 ≤ (sRowsDims N E C wf).start (ix2 e c) idx 1 + ((sRowsDims N E C wf).window (ix2 e c) 1 : Nat)
          ∧ (sRowsDims N E C wf).start (ix2 e c) idx 1 + ((sRowsDims N E C wf).window (ix2 e c) 1 : Nat) < (C : Int)
        rw [h1, w1]; have := c.isLt; omega

end Rows

private theorem scatterAdd_rows_lit {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (sRowsDims N E C wf) x idx upd (ix2 v c)
      = x (ix2 v c) + ∑ e ∈ Finset.univ.filter (fun e : Fin E => (idx (ix2 e (0 : Fin 1))).toInt = (v.val : Int)), upd (ix2 e c) := by
  unfold Ideal.hostScatterAdd
  congr 1
  rw [Finset.sum_filter, Finset.sum_filter, sum_idx2]
  refine Finset.sum_congr rfl (fun e _ => ?_)
  simp only [sRows_resultIdx_iff wf idx e _ v c]
  by_cases hv : (idx (ix2 e (0 : Fin 1))).toInt = (v.val : Int)
  · simp only [hv, true_and, if_true]
    exact Finset.sum_ite_eq' Finset.univ c (fun c' => upd (ix2 e c')) |>.trans (if_pos (Finset.mem_univ c))
  · simp only [hv, false_and, if_false]
    exact Finset.sum_const_zero

/-- The host's float scatter-add of `E` rows into an `N × C` operand at an `E × 1` column of scatter indices, read
    at `(v, c)`: the operand plus the sum, over the update rows `e` whose index word `idx[e, 0]`, read signed and not
    clamped, is exactly `v`, of the update's element `(e, c)`. -/
theorem scatterAdd_rows_apply {N E C w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal) (v : Fin N) (c : Fin C) :
    Ideal.hostScatterAdd d x idx upd (ix2 v c)
      = x (ix2 v c) + ∑ e ∈ Finset.univ.filter (fun e : Fin E => (idx (ix2 e (0 : Fin 1))).toInt = (v.val : Int)), upd (ix2 e c) := by
  obtain ⟨uw, iw, sd, iv, wf⟩ := d
  simp only at huw hiw hsd hiv
  subst huw hiw hsd hiv
  exact scatterAdd_rows_lit wf x idx upd v c

/-- The dimension numbers of a scatter of `E` single elements into an `N`-vector at an `E × 1` column of scatter
    indices. -/
private abbrev sVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window starts at the scatter index, read signed. -/
private theorem sVec_start0 :
    (sVecDims N E wf).start (ix1 e) idx 0 = (idx (ix2 e (0 : Fin 1))).toInt := by
  unfold ScatterDims.start
  rw [dif_pos (show (0 : Fin 1) ∈ (sVecDims N E wf).scatterDimsToOperandDims from List.mem_singleton.mpr rfl)]
  have hsi : (sVecDims N E wf).siIdx (ix1 e) ⟨List.idxOf (0 : Fin 1) (sVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- That axis is inserted: its window coordinate is `0`. -/
private theorem sVec_window0 : (sVecDims N E wf).window (ix1 e) 0 = 0 := by
  unfold ScatterDims.window
  have hk : (0 : Fin 1) ∉ (sVecDims N E wf).sKept :=
    (by decide : (0 : Fin 1) ∉ (List.finRange 1).filter (· ∉ ([0] : List (Fin 1))))
  rw [dif_neg hk]

/-- Update element `e` lands on operand element `v` exactly when its scatter index, read signed, is `v`. -/
private theorem sVec_resultIdx_iff (v : Fin N) :
    (sVecDims N E wf).resultIdx? (ix1 e) idx = some (ix1 v) ↔ (idx (ix2 e (0 : Fin 1))).toInt = (v.val : Int) := by
  have h0 := sVec_start0 wf idx e
  have w0 := sVec_window0 wf e
  unfold ScatterDims.resultIdx?
  split
  · rename_i h
    rw [Option.some.injEq]
    constructor
    · intro heq
      have e0 := congrArg Fin.val (congrFun heq 0)
      have b0 := (h 0).1
      change (((sVecDims N E wf).start (ix1 e) idx 0 + ((sVecDims N E wf).window (ix1 e) 0 : Nat)).toNat) = v.val at e0
      rw [h0, w0] at e0 b0
      omega
    · intro hv
      funext a
      refine Fin.ext ?_
      match a with
      | ⟨0, _⟩ =>
        show (((sVecDims N E wf).start (ix1 e) idx 0 + ((sVecDims N E wf).window (ix1 e) 0 : Nat)).toNat) = v.val
        rw [h0, w0]; omega
  · rename_i h
    constructor
    · intro heq; exact absurd heq (by simp)
    · intro hv
      refine absurd (fun a => ?_) h
      match a with
      | ⟨0, _⟩ =>
        show 0 ≤ (sVecDims N E wf).start (ix1 e) idx 0 + ((sVecDims N E wf).window (ix1 e) 0 : Nat)
          ∧ (sVecDims N E wf).start (ix1 e) idx 0 + ((sVecDims N E wf).window (ix1 e) 0 : Nat) < (N : Int)
        rw [h0, w0]; have := v.isLt; omega

end Vec

private theorem scatterAdd_vec_lit {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (sVecDims N E wf) x idx upd (ix1 v)
      = x (ix1 v) + ∑ e ∈ Finset.univ.filter (fun e : Fin E => (idx (ix2 e (0 : Fin 1))).toInt = (v.val : Int)), upd (ix1 e) := by
  unfold Ideal.hostScatterAdd
  congr 1
  rw [Finset.sum_filter, Finset.sum_filter, sum_idx1]
  refine Finset.sum_congr rfl (fun e _ => ?_)
  simp only [sVec_resultIdx_iff wf idx e v]

/-- The host's float scatter-add of `E` single elements into an `N`-vector at an `E × 1` column of scatter indices,
    read at `v`: the operand plus the sum, over the updates `e` whose index word `idx[e, 0]`, read signed and not
    clamped, is exactly `v`, of the update's element `e`. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal) (v : Fin N) :
    Ideal.hostScatterAdd d x idx upd (ix1 v)
      = x (ix1 v) + ∑ e ∈ Finset.univ.filter (fun e : Fin E => (idx (ix2 e (0 : Fin 1))).toInt = (v.val : Int)), upd (ix1 e) := by
  obtain ⟨uw, iw, sd, iv, wf⟩ := d
  simp only at huw hiw hsd hiv
  subst huw hiw hsd hiv
  exact scatterAdd_vec_lit wf x idx upd v

end Scatter

end Cert.GatherScatter
-- ==== Proof.Spec.lean ====
/-
  The mathematics of the claim, with no program in sight.

  A graph layer with mean aggregation followed by one linear map per graph. Nodes `v < 131072` carry feature rows
  `x v` of length 128; an edge `e < 4194304` has a source word `src e` and a destination word `dst e`.
  * `lin x W v j = ∑ k, x (v,k) · W (j,k)`: the row `v` of `x` against the row `j` of a 16 × 128 weight.
  * The source row of an edge is its source word read as a signed integer and clamped into `[0, 131071]`; an edge
    enters node `v` when its destination word, read as a signed integer and not clamped, is exactly `v`.
  * `agg v j` is the sum of `lin x Wl (source row of e) j` over the edges entering `v`, `cnt v` the number of those
    edges, each on top of the zero the accumulation starts from.
  * `hid v j = max (agg v j / max (cnt v) 1 + bl j + lin x Wr v j) 0`.
  * The 4096 nodes of graph `g` and their 16 hidden features are laid out as one row of length 65536, position
    `k` holding feature `k % 16` of node `4096 g + k / 16`; `out g o = (∑ k, that row at k · Wout (o,k)) + bout o`.
  The sums are sums of extended reals, an additive commutative monoid; the float words for zero and one are kept as the
  words the programs print.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Spec

/-- The words for the float zero and the float one, as extended reals. -/
def zero : EReal := Ideal.ofBits .f32 0x00000000#32
def one : EReal := Ideal.ofBits .f32 0x3F800000#32

theorem zero_eq : zero = 0 := Ideal.ofBits_zero_f32

variable (x : (⟨2, ![131072, 128]⟩ : Shape).Idx → EReal)
  (src dst : (⟨2, ![4194304, 1]⟩ : Shape).Idx → BitVec 32)
  (Wl : (⟨2, ![16, 128]⟩ : Shape).Idx → EReal) (bl : (⟨1, ![16]⟩ : Shape).Idx → EReal)
  (Wr : (⟨2, ![16, 128]⟩ : Shape).Idx → EReal)
  (Wout : (⟨2, ![39, 65536]⟩ : Shape).Idx → EReal) (bout : (⟨1, ![39]⟩ : Shape).Idx → EReal)

/-- Row `v` of `x` against row `j` of a 16 × 128 weight. -/
def lin (W : (⟨2, ![16, 128]⟩ : Shape).Idx → EReal) (v : Fin 131072) (j : Fin 16) : EReal :=
  ∑ k : Fin 128, x (ix2 v k) * W (ix2 j k)

/-- The source row of edge `e`: its source word, signed, clamped into `[0, 131071]`. -/
def srcRow (e : Fin 4194304) : Fin 131072 :=
  ⟨min (src (ix2 e (0 : Fin 1))).toInt.toNat (131072 - 1), by omega⟩

/-- The edges entering node `v`: those whose destination word, signed and not clamped, is `v`. -/
def inEdges (v : Fin 131072) : Finset (Fin 4194304) :=
  Finset.univ.filter fun e : Fin 4194304 => (dst (ix2 e (0 : Fin 1))).toInt = (v.val : Int)

/-- The aggregated neighbour features of node `v`. -/
def agg (v : Fin 131072) (j : Fin 16) : EReal :=
  zero + ∑ e ∈ inEdges dst v, lin x Wl (srcRow src e) j

/-- The in-degree of node `v`. -/
def cnt (v : Fin 131072) : EReal :=
  zero + ∑ _e ∈ inEdges dst v, one

/-- The hidden feature `j` of node `v`. -/
def hid (v : Fin 131072) (j : Fin 16) : EReal :=
  max (Ideal.div (agg x src dst Wl v j) (max (cnt dst v) one) + bl (ix1 j) + lin x Wr v j) zero

/-- Position `k` of graph `g`'s flattened row: the node and the feature it holds. -/
def node (g : Fin 32) (k : Fin 65536) : Fin 131072 := ⟨g.val * 4096 + k.val / 16, by omega⟩
def feat (k : Fin 65536) : Fin 16 := ⟨k.val % 16, Nat.mod_lt _ (by decide)⟩

/-- Graph `g`'s flattened hidden row at position `k`. -/
def flat (g : Fin 32) (k : Fin 65536) : EReal :=
  hid x src dst Wl bl Wr (node g k) (feat k)

/-- Output `o` of graph `g`. -/
def out (g : Fin 32) (o : Fin 39) : EReal :=
  (∑ k : Fin 65536, flat x src dst Wl bl Wr g k * Wout (ix2 o k)) + bout (ix1 o)

/-- The result array, of shape `[32, 39, 1]`. -/
def result : (⟨3, ![32, 39, 1]⟩ : Shape).Idx → EReal :=
  fun i => out x src dst Wl bl Wr Wout bout ⟨(i 0).val, (i 0).isLt⟩ ⟨(i 1).val, (i 1).isLt⟩

theorem result_ix3 (g : Fin 32) (o : Fin 39) (u : Fin 1) :
    result x src dst Wl bl Wr Wout bout (ix3 g o u) = out x src dst Wl bl Wr Wout bout g o := rfl

end Cert.Spec

end
-- ==== Proof.KernelHost1.lean ====
/-
  The second host stretch read at an index: neighbour sums and in-degrees by one gather and one scatter-add.

  The stretch appends a column of ones to the 131072 × 16 table of left features, making a 131072 × 17 table; turns
  the edges' source words into row numbers (a negative word has 131072 added; the gather then clamps into the table);
  gathers one table row per edge; and adds each gathered row into the row of a zero array that the edge's destination
  word names. Column `j < 16` of the result at node `v` is therefore the zero word plus the sum, over the edges entering
  `v`, of the source row's feature `j`; column 16 is the zero word plus one copy of the one word per entering edge. The
  two slices cut these apart; the bias vector is reshaped to a one-row matrix; the right features are not touched.
  Every statement holds from any contents the stretch starts from: the source and destination vectors are the ones the
  first stretch left (`srcFlat`, `dstFlat` of the edge array), read here from where they lie.
-/
import proofs.«177734_j84713934946331_2_alg».proof.Proof.KernelHost0
import proofs.«177734_j84713934946331_2_alg».proof.Proof.LibGatherScatter
import proofs.«177734_j84713934946331_2_alg».proof.Proof.Spec
import proofs.«177734_j84713934946331_2_alg».proof.Proof.Gen.KernelIdeal.Regions
import Idealize.ShloMosaic.PureOps.Ideal.Laws
import Idealize.ShloMosaic.Lib.IdealHost

noncomputable section

namespace Cert.KernelIdeal.HostValue

open Cert.KernelIdeal Cert.KernelIdeal.Gen Idealize.ShloMosaic Idealize.ShloMosaic.TcCoe Idealize.ShloMosaic.ValueIdx
open Idealize.ShloMosaic.StableHlo
open scoped BigOperators

/-- A sum of two extended reals, rewritten summand by summand. -/
private theorem add_congr {a a' b b' : EReal} (h1 : a = a') (h2 : b = b') : a + b = a' + b' := by rw [h1, h2]

/-! ## A gather of rows followed by a scatter-add of rows, at abstract extents -/

/-- Rows of an `N × C` table gathered at a column of source words, widened, and added into an `N × C` array at a
    column of destination words: at `(v, c)`, the array's entry plus the sum, over the edges whose destination word read
    signed is `v`, of the table's entry at the edge's source word (read signed, clamped into the table) and column `c`. -/
theorem scatter_gather_rows {N E C w : Nat} {φ ψ : FTy} (hN : 0 < N)
    (ds : ScatterDims ⟨2, ![N, C]⟩ ⟨2, ![E, 1]⟩ ⟨2, ![E, C]⟩)
    (huw : ds.updateWindowDims = [1]) (hiw : ds.insertedWindowDims = [0]) (hsd : ds.scatterDimsToOperandDims = [0])
    (hiv : ds.indexVectorDim = 1)
    (dg : GatherDims ⟨2, ![N, C]⟩ ⟨2, ![E, 1]⟩ ⟨2, ![E, C]⟩)
    (hod : dg.offsetDims = [1]) (hcd : dg.collapsedSliceDims = [0]) (hob : dg.operandBatchingDims = [])
    (hsb : dg.startIndicesBatchingDims = []) (hsm : dg.startIndexMap = [0]) (hgv : dg.indexVectorDim = 1)
    (hss : dg.sliceSizes = ![1, C])
    (x0 : FVec Ideal ⟨2, ![N, C]⟩ ψ) (T : FVec Ideal ⟨2, ![N, C]⟩ φ) (didx sidx : IVec ⟨2, ![E, 1]⟩ w)
    (h : φ.bits < ψ.bits) (v : Fin N) (c : Fin C) :
    Host.scatterAdd (F := Ideal) ds x0 didx (extf ψ (Host.gather dg T sidx) h) (ix2 v c)
      = x0 (ix2 v c) + ∑ e ∈ Finset.univ.filter (fun e : Fin E => (didx (ix2 e (0 : Fin 1))).toInt = (v.val : Int)),
          T (ix2 (⟨min (sidx (ix2 e (0 : Fin 1))).toInt.toNat (N - 1), by omega⟩ : Fin N) c) := by
  refine (Cert.GatherScatter.scatterAdd_rows_apply ds huw hiw hsd hiv x0 didx _ v c).trans ?_
  refine add_congr rfl (Finset.sum_congr rfl (fun e _ => ?_))
  exact Cert.GatherScatter.gather_rows_apply hN dg hod hcd hob hsb hsm hgv hss T sidx e c

/-! ## The index columns -/

/-- The source words made row numbers, as a column: a negative word has the table's height added. -/
def srcTail (s : (⟨S4194304, .i32⟩ : BufTy).Contents (Elt Ideal)) : (⟨S4194304x1, .i32⟩ : BufTy).Contents (Elt Ideal) :=
  broadcastInDim S4194304x1 ![0] bcast_S4194304_S4194304x1_0
    (select (cmpi .slt s (broadcastInDim S4194304 ![] bcast_S_S4194304 (constantI S_ 32 0#32)))
      (addi s (broadcastInDim S4194304 ![] bcast_S_S4194304 (constantI S_ 32 131072#32))) s)

/-- The destination words as a column. -/
def dstTail (d : (⟨S4194304, .i32⟩ : BufTy).Contents (Elt Ideal)) : (⟨S4194304x1, .i32⟩ : BufTy).Contents (Elt Ideal) :=
  broadcastInDim S4194304x1 ![0] bcast_S4194304_S4194304x1_0 d

/-- The column of source row numbers, from the edge array. -/
def srcCol (x1 : (⟨S2x4194304, .i32⟩ : BufTy).Contents (Elt Ideal)) : (⟨S4194304x1, .i32⟩ : BufTy).Contents (Elt Ideal) :=
  srcTail (srcFlat x1)

/-- The column of destination words, from the edge array. -/
def dstCol (x1 : (⟨S2x4194304, .i32⟩ : BufTy).Contents (Elt Ideal)) : (⟨S4194304x1, .i32⟩ : BufTy).Contents (Elt Ideal) :=
  dstTail (dstFlat x1)

/-! ## The table with its column of ones, and the accumulated array -/

/-- The left features with a seventeenth column holding the one word. -/
def table (xl : (⟨S131072x16, .bf16⟩ : BufTy).Contents (Elt Ideal)) : (⟨S131072x17, .bf16⟩ : BufTy).Contents (Elt Ideal) :=
  concatenate S131072x17 1
    [⟨S131072x16, xl⟩, ⟨S131072x1, broadcastInDim S131072x1 ![] bcast_S_S131072x1 (constant (F := Ideal) S_ .bf16 0x3F80#16)⟩]
    concatenates_S131072x16_S131072x1_S131072x17_d1

/-- The zero array with every edge's gathered table row added into the row its destination word names. -/
def aug (xl : (⟨S131072x16, .bf16⟩ : BufTy).Contents (Elt Ideal)) (s d : (⟨S4194304, .i32⟩ : BufTy).Contents (Elt Ideal)) :
    (⟨S131072x17, .f32⟩ : BufTy).Contents (Elt Ideal) :=
  Host.scatterAdd scatter_S131072x17_S4194304x1_S4194304x17_1_0_0_1
    (broadcastInDim S131072x17 ![] bcast_S_S131072x17 (constant (F := Ideal) S_ .f32 0x00000000#32))
    (dstTail d)
    (extf .f32 (Host.gather gather_S131072x17_S4194304x1_S4194304x17_1_0_n_n_0_1_117 (table xl) (srcTail s)) bitsLt_bf16_f32)

/-- A table entry left of the ones column is the feature. -/
theorem table_apply_lt (xl : (⟨S131072x16, .bf16⟩ : BufTy).Contents (Elt Ideal)) (r : Fin 131072) (j : Fin 16) :
    table xl (ix2 r (⟨j.val, by omega⟩ : Fin 17)) = xl (ix2 r j) := by
  unfold table
  exact concatenate_pair_apply_left (t := S131072x17) (s₁ := S131072x16) (s₂ := S131072x1) (1 : Fin 2) _ _
    concatenates_S131072x16_S131072x1_S131072x17_d1 (ix2 r (⟨j.val, by omega⟩ : Fin 17)) rfl
    (ix2 r j : S131072x16.Idx) (fun b => match b with | ⟨0, _⟩ => rfl | ⟨1, _⟩ => rfl)

/-- The table's last column holds the one word. -/
theorem table_apply_ones (xl : (⟨S131072x16, .bf16⟩ : BufTy).Contents (Elt Ideal)) (r : Fin 131072) :
    table xl (ix2 r (⟨16, by omega⟩ : Fin 17)) = Ideal.ofBits .bf16 0x3F80#16 := by
  unfold table
  refine (concatenate_pair_apply_right (t := S131072x17) (s₁ := S131072x16) (s₂ := S131072x1) (1 : Fin 2) _ _
    concatenates_S131072x16_S131072x1_S131072x17_d1 (ix2 r (⟨16, by omega⟩ : Fin 17)) rfl rfl
    (ix2 r (0 : Fin 1) : S131072x1.Idx)
    (fun b hb => match b, hb with | ⟨0, _⟩, _ => rfl | ⟨1, _⟩, hb => absurd rfl hb)
    (by show 0 + 16 = 16; omega)).trans ?_
  exact (broadcastInDim_apply _ bcast_S_S131072x1 _ _ ix0 (fun a => a.elim0)).trans (constant_apply _ _)

/-- The accumulated array at node `v`, column `c`: the zero word plus the sum, over the edges entering `v`, of the
    table's entry at the edge's source row and column `c`. -/
theorem aug_apply (xl : (⟨S131072x16, .bf16⟩ : BufTy).Contents (Elt Ideal)) (s d : (⟨S4194304, .i32⟩ : BufTy).Contents (Elt Ideal))
    (v : Fin 131072) (c : Fin 17) :
    aug xl s d (ix2 v c)
      = Cert.Spec.zero + ∑ e ∈ Cert.Spec.inEdges (dstTail d) v, table xl (ix2 (Cert.Spec.srcRow (srcTail s) e) c) := by
  unfold aug Cert.Spec.inEdges Cert.Spec.srcRow
  refine (scatter_gather_rows (N := 131072) (E := 4194304) (C := 17) (w := 32) (Nat.succ_pos _)
    scatter_S131072x17_S4194304x1_S4194304x17_1_0_0_1 rfl rfl rfl rfl
    gather_S131072x17_S4194304x1_S4194304x17_1_0_n_n_0_1_117 rfl rfl rfl rfl rfl rfl rfl
    (broadcastInDim S131072x17 ![] bcast_S_S131072x17 (constant (F := Ideal) S_ .f32 0x00000000#32))
    (table xl) (dstTail d) (srcTail s) bitsLt_bf16_f32 v c).trans ?_
  refine add_congr ?_ rfl
  exact (broadcastInDim_apply _ bcast_S_S131072x17 _ _ ix0 (fun a => a.elim0)).trans (constant_apply _ _)

/-! ## The two sums -/

/-- The zero word plus the sum, over the edges entering `v`, of the source row's feature `j` in the table `xl`. -/
def aggSum (xl : (⟨2, ![131072, 16]⟩ : Shape).Idx → EReal) (src dst : (⟨2, ![4194304, 1]⟩ : Shape).Idx → BitVec 32)
    (v : Fin 131072) (j : Fin 16) : EReal :=
  Cert.Spec.zero + ∑ e ∈ Cert.Spec.inEdges dst v, xl (ix2 (Cert.Spec.srcRow src e) j)

/-- The zero word plus one copy of the bf16 one word per edge entering `v`. -/
def cntSum (dst : (⟨2, ![4194304, 1]⟩ : Shape).Idx → BitVec 32) (v : Fin 131072) : EReal :=
  Cert.Spec.zero + ∑ _e ∈ Cert.Spec.inEdges dst v, Ideal.ofBits .bf16 0x3F80#16

/-- The sum of features, for a table known entry by entry. -/
theorem aggSum_eq (xl : (⟨2, ![131072, 16]⟩ : Shape).Idx → EReal) (src dst : (⟨2, ![4194304, 1]⟩ : Shape).Idx → BitVec 32)
    (f : Fin 131072 → Fin 16 → EReal) (h : ∀ r j, xl (ix2 r j) = f r j) (v : Fin 131072) (j : Fin 16) :
    aggSum xl src dst v j = Cert.Spec.zero + ∑ e ∈ Cert.Spec.inEdges dst v, f (Cert.Spec.srcRow src e) j := by
  unfold aggSum
  exact add_congr rfl (Finset.sum_congr rfl (fun e _ => h _ j))

variable (W : Valuation τ sig (Elt Ideal))

/-! ## What the stretch leaves -/

theorem v21_eq :
    (StableHlo.after hostOps1 W main_v21 : S131072x16.Idx → EReal)
      = extractStridedSlice S131072x16 ![0, 0] (aug (W main_v7_0) (W main_v1) (W main_v3)) slices_S131072x17_S131072x16_0_0 := by
  show StableHlo.after (hostOps1 (F := Ideal)) W (Proc.devRef .tc main_v21) = _
  unfold aug table srcTail dstTail
  after_results
  first | done | with_reducible rfl

theorem v22_eq :
    (StableHlo.after hostOps1 W main_v22 : S131072x1.Idx → EReal)
      = extractStridedSlice S131072x1 ![0, 16] (aug (W main_v7_0) (W main_v1) (W main_v3)) slices_S131072x17_S131072x1_0_16 := by
  show StableHlo.after (hostOps1 (F := Ideal)) W (Proc.devRef .tc main_v22) = _
  unfold aug table srcTail dstTail
  after_results
  first | done | with_reducible rfl

theorem v23_eq :
    (StableHlo.after hostOps1 W main_v23 : S1x16.Idx → EReal)
      = shapeCast S1x16 (W main_arg3 : S16.Idx → EReal) shapeCasts_S16_S1x16 := by
  show StableHlo.after (hostOps1 (F := Ideal)) W (Proc.devRef .tc main_v23) = _
  after_results
  try rfl

/-- The aggregated neighbour features: at node `v`, feature `j`, the zero word plus the sum over the edges entering
    `v` of the source row's left feature `j`. -/
theorem agg_apply' (v : Fin 131072) (j : Fin 16) :
    (StableHlo.after hostOps1 W main_v21 : S131072x16.Idx → EReal) (ix2 v j)
      = aggSum (W main_v7_0) (srcTail (W main_v1)) (dstTail (W main_v3)) v j := by
  rw [v21_eq]
  unfold aggSum
  refine (slice2_axis1_apply 0 (aug (W main_v7_0) (W main_v1) (W main_v3)) slices_S131072x17_S131072x16_0_0 v j
    (⟨j.val, Nat.lt_of_lt_of_le j.isLt (by decide)⟩ : Fin 17) (Nat.zero_add _).symm).trans ?_
  exact (aug_apply _ _ _ v _).trans (add_congr rfl (Finset.sum_congr rfl (fun e _ => table_apply_lt _ _ j)))

/-- The in-degree: at node `v`, the zero word plus one copy of the one word per edge entering `v`. -/
theorem cnt_apply' (v : Fin 131072) :
    (StableHlo.after hostOps1 W main_v22 : S131072x1.Idx → EReal) (ix2 v (0 : Fin 1))
      = cntSum (dstTail (W main_v3)) v := by
  rw [v22_eq]
  unfold cntSum
  refine (slice2_axis1_apply 16 (aug (W main_v7_0) (W main_v1) (W main_v3)) slices_S131072x17_S131072x1_0_16 v (0 : Fin 1)
    (⟨16, by decide⟩ : Fin 17) rfl).trans ?_
  exact (aug_apply _ _ _ v _).trans (add_congr rfl (Finset.sum_congr rfl (fun e _ => table_apply_ones _ _)))

/-- The same two, for a stretch entered with the first stretch's source and destination vectors in place. -/
theorem agg_apply (h1 : W main_v1 = srcFlat (W main_arg1)) (h3 : W main_v3 = dstFlat (W main_arg1)) (v : Fin 131072) (j : Fin 16) :
    (StableHlo.after hostOps1 W main_v21 : S131072x16.Idx → EReal) (ix2 v j)
      = aggSum (W main_v7_0) (srcCol (W main_arg1)) (dstCol (W main_arg1)) v j := by
  unfold srcCol dstCol
  rw [← h1, ← h3]
  exact agg_apply' W v j

theorem cnt_apply (h3 : W main_v3 = dstFlat (W main_arg1)) (v : Fin 131072) :
    (StableHlo.after hostOps1 W main_v22 : S131072x1.Idx → EReal) (ix2 v (0 : Fin 1))
      = cntSum (dstCol (W main_arg1)) v := by
  unfold dstCol
  rw [← h3]
  exact cnt_apply' W v

/-- The bias as a one-row matrix. -/
theorem biasrow_apply (j : Fin 16) :
    (StableHlo.after hostOps1 W main_v23 : S1x16.Idx → EReal) (ix2 (0 : Fin 1) j) = (W main_arg3 : S16.Idx → EReal) (ix1 j) := by
  rw [v23_eq]
  exact shapeCast_a_1a_apply _ shapeCasts_S16_S1x16 (0 : Fin 1) j

/-- No operation of the stretch writes the right features. -/
theorem xr_kept : StableHlo.after hostOps1 W main_v7_1 = W main_v7_1 :=
  StableHlo.after_of_writes_sub hostOps1 _ hostOps1_writes (by decide)

/-- The bf16 one word and the f32 one word denote the same number. -/
theorem one_bf16 : Ideal.ofBits .bf16 0x3F80#16 = Cert.Spec.one :=
  Ideal.ofBits_one_bf16.trans Ideal.ofBits_one_f32.symm

end Cert.KernelIdeal.HostValue

end
-- ==== Proof.KernelHost2.lean ====
/-
  The third and fourth host stretches read at an index.

  The third stretch lays the 131072 × 16 hidden array out as one row of length 65536 per graph — position `k` of graph
  `g`'s row holds feature `k % 16` of node `4096 g + k / 16`, the two having the same row-major position —, rounds
  the output weight to the narrower float format, which at the extended reals changes no entry, and reshapes the output
  bias to a one-row matrix. The fourth stretch adds a trailing unit axis to the 32 × 39 result. Every statement holds
  from any contents the stretch starts from.
-/
import proofs.«177734_j84713934946331_2_alg».proof.Proof.Gen.KernelIdeal.Launch
import proofs.«177734_j84713934946331_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx
open Idealize.ShloMosaic.StableHlo

variable (W : Valuation τ sig (Elt Ideal))

theorem v25_eq :
    (StableHlo.after hostOps2 W main_v25 : S32x65536.Idx → EReal)
      = shapeCast S32x65536 (W main_v24 : S131072x16.Idx → EReal) shapeCasts_S131072x16_S32x65536 := by
  show StableHlo.after (hostOps2 (F := Ideal)) W (Proc.devRef .tc main_v25) = _
  after_results
  try rfl

theorem v26_eq :
    (StableHlo.after hostOps2 W main_v26 : S39x65536.Idx → EReal)
      = (truncf (F := Ideal) .bf16 (W main_arg5 : FVec Ideal S39x65536 .f32) bitsLt_bf16_f32 : S39x65536.Idx → EReal) := by
  show StableHlo.after (hostOps2 (F := Ideal)) W (Proc.devRef .tc main_v26) = _
  after_results
  try rfl

theorem v27_eq :
    (StableHlo.after hostOps2 W main_v27 : S1x39.Idx → EReal)
      = shapeCast S1x39 (W main_arg6 : S39.Idx → EReal) shapeCasts_S39_S1x39 := by
  show StableHlo.after (hostOps2 (F := Ideal)) W (Proc.devRef .tc main_v27) = _
  after_results
  try rfl

theorem v29_eq :
    (StableHlo.after hostOps3 W main_v29 : S32x39x1.Idx → EReal)
      = broadcastInDim S32x39x1 ![0, 1] bcast_S32x39_S32x39x1_0_1 (W main_v28 : S32x39.Idx → EReal) := by
  show StableHlo.after (hostOps3 (F := Ideal)) W (Proc.devRef .tc main_v29) = _
  after_results
  try rfl

/-- Graph `g`'s flattened row at position `k`: the hidden array at the node and the feature that position holds. -/
theorem flat_apply (g : Fin 32) (k : Fin 65536) :
    (StableHlo.after hostOps2 W main_v25 : S32x65536.Idx → EReal) (ix2 g k)
      = (W main_v24 : S131072x16.Idx → EReal) (ix2 (Cert.Spec.node g k) (Cert.Spec.feat k)) := by
  rw [v25_eq]
  refine shapeCast_apply _ shapeCasts_S131072x16_S32x65536 (ix2 g k) (ix2 (Cert.Spec.node g k) (Cert.Spec.feat k)) ?_
  rw [Shape.rowMajor_val_two, Shape.rowMajor_val_two]
  show (g.val * 4096 + k.val / 16) * 16 + k.val % 16 = g.val * 65536 + k.val
  omega

/-- The output weight keeps every entry. -/
theorem wout_apply (o : Fin 39) (k : Fin 65536) :
    (StableHlo.after hostOps2 W main_v26 : S39x65536.Idx → EReal) (ix2 o k) = (W main_arg5 : S39x65536.Idx → EReal) (ix2 o k) := by
  rw [v26_eq]
  rfl

/-- The output bias as a one-row matrix. -/
theorem boutrow_apply (o : Fin 39) :
    (StableHlo.after hostOps2 W main_v27 : S1x39.Idx → EReal) (ix2 (0 : Fin 1) o) = (W main_arg6 : S39.Idx → EReal) (ix1 o) := by
  rw [v27_eq]
  exact shapeCast_a_1a_apply _ shapeCasts_S39_S1x39 (0 : Fin 1) o

/-- The result with its trailing unit axis reads the 32 × 39 array. -/
theorem result_apply (g : Fin 32) (o : Fin 39) (u : Fin 1) :
    (StableHlo.after hostOps3 W main_v29 : S32x39x1.Idx → EReal) (ix3 g o u) = (W main_v28 : S32x39.Idx → EReal) (ix2 g o) := by
  rw [v29_eq]
  exact broadcastInDim_apply _ bcast_S32x39_S32x39x1_0_1 _ (ix3 g o u) (ix2 g o) (fun a => match a with
    | ⟨0, _⟩ => by show g.val = if (32 : Nat) = 1 then 0 else g.val; rw [if_neg (by decide)]
    | ⟨1, _⟩ => by show o.val = if (39 : Nat) = 1 then 0 else o.val; rw [if_neg (by decide)])

end Cert.KernelIdeal.HostValue

end
-- ==== Proof.KernelValueA.lean ====
/-
  The kernel program's buffers, read at an index as functions of the launch memory, up to the third region's
  inputs. Region 0 leaves the two 16-column products of the node features with the two weights; the host stretch
  after it gathers the left product's rows along the edges' sources and adds them, with a column of ones, into the
  rows the edges' destinations name; region 1 divides by the clamped count, adds the bias and the right product and
  clamps below at zero; the next stretch lays each graph's 4096 × 16 hidden block out as one row.
-/
import proofs.«177734_j84713934946331_2_alg».proof.Proof.MainRun
import proofs.«177734_j84713934946331_2_alg».proof.Proof.Region01Cover
import proofs.«177734_j84713934946331_2_alg».proof.Proof.KernelHost0
import proofs.«177734_j84713934946331_2_alg».proof.Proof.KernelHost1
import proofs.«177734_j84713934946331_2_alg».proof.Proof.KernelHost2
import proofs.«177734_j84713934946331_2_alg».proof.Proof.Spec

noncomputable section

namespace Cert.KernelIdeal.KValue

open Cert.KernelIdeal Cert.KernelIdeal.Gen Cert.KernelIdeal.Run Cert.KernelIdeal.Rgn Cert.KernelIdeal.RgnValue Cert.KernelIdeal.HostValue
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The seven arguments' launch contents on core `c`. -/
abbrev a0 : S131072x128.Idx → EReal := m ((c.tc : Thread nD τ).loc main_arg0)
abbrev a1 : S2x4194304.Idx → BitVec 32 := m ((c.tc : Thread nD τ).loc main_arg1)
abbrev a2 : S16x128.Idx → EReal := m ((c.tc : Thread nD τ).loc main_arg2)
abbrev a3 : S16.Idx → EReal := m ((c.tc : Thread nD τ).loc main_arg3)
abbrev a4 : S16x128.Idx → EReal := m ((c.tc : Thread nD τ).loc main_arg4)
abbrev a5 : S39x65536.Idx → EReal := m ((c.tc : Thread nD τ).loc main_arg5)
abbrev a6 : S39.Idx → EReal := m ((c.tc : Thread nD τ).loc main_arg6)

/-! ## The arguments, as each item finds them -/

theorem W1_arg0 : (W1 m c main_arg0 : S131072x128.Idx → EReal) = a0 m c := W1_of m c main_arg0 (by decide)
theorem W2_arg3 : (W2 m c main_arg3 : S16.Idx → EReal) = a3 m c :=
  (W2_of_ne m c main_arg3 (by decide)).trans (W1_of m c main_arg3 (by decide))
theorem W4_arg5 : (W4 m c main_arg5 : S39x65536.Idx → EReal) = a5 m c :=
  (W4_of_ne m c main_arg5 (by decide)).trans <| (W3_of m c main_arg5 (by decide)).trans <|
  (W2_of_ne m c main_arg5 (by decide)).trans (W1_of m c main_arg5 (by decide))
theorem W4_arg6 : (W4 m c main_arg6 : S39.Idx → EReal) = a6 m c :=
  (W4_of_ne m c main_arg6 (by decide)).trans <| (W3_of m c main_arg6 (by decide)).trans <|
  (W2_of_ne m c main_arg6 (by decide)).trans (W1_of m c main_arg6 (by decide))
/-- The flattened source and destination words reach the second stretch as the first one wrote them. -/
theorem W2_v1 : (W2 m c main_v1 : S4194304.Idx → BitVec 32) = srcFlat (a1 m c) :=
  (W2_of_ne m c main_v1 (by decide)).trans (v1_eq (W0 m c))
theorem W2_v3 : (W2 m c main_v3 : S4194304.Idx → BitVec 32) = dstFlat (a1 m c) :=
  (W2_of_ne m c main_v3 (by decide)).trans (v3_eq (W0 m c))

/-! ## Region 0: the two products -/

/-- The left product: node `v`'s features against row `j` of the left weight. -/
theorem xl_eq (v : Fin 131072) (j : Fin 16) :
    (W2 m c main_v7_0 : S131072x16.Idx → EReal) (ix2 v j) = Cert.Spec.lin (a0 m c) (a2 m c) v j := by
  refine (congrFun (W2_arr m c 2) (ix2 v j)).trans ?_
  refine (xl_arr (U1 m) c v j).trans ?_
  show (prodAt (U1 m c main_arg0) (U1 m c main_v6) v (⟨j.val, by omega⟩ : Fin 32) : EReal) = _
  rw [prodAt_def]
  unfold Cert.Spec.lin
  refine Finset.sum_congr rfl fun k _ => ?_
  rw [show (U1 m c main_arg0 : S131072x128.Idx → EReal) = a0 m c from W1_arg0 m c]
  refine congrArg _ ?_
  refine (wcat_apply (W0 m c) k (⟨j.val, by omega⟩ : Fin 32)).trans ?_
  rw [dif_pos (show (⟨j.val, by omega⟩ : Fin 32).val < 16 from j.isLt)]

/-- The right product: node `v`'s features against row `j` of the right weight. -/
theorem xr_eq (v : Fin 131072) (j : Fin 16) :
    (W2 m c main_v7_1 : S131072x16.Idx → EReal) (ix2 v j) = Cert.Spec.lin (a0 m c) (a4 m c) v j := by
  refine (congrFun (W2_arr m c 3) (ix2 v j)).trans ?_
  refine (xr_arr (U1 m) c v j).trans ?_
  show (prodAt (U1 m c main_arg0) (U1 m c main_v6) v (⟨16 + j.val, by omega⟩ : Fin 32) : EReal) = _
  rw [prodAt_def]
  unfold Cert.Spec.lin
  refine Finset.sum_congr rfl fun k _ => ?_
  rw [show (U1 m c main_arg0 : S131072x128.Idx → EReal) = a0 m c from W1_arg0 m c]
  refine congrArg _ ?_
  refine (wcat_apply (W0 m c) k (⟨16 + j.val, by omega⟩ : Fin 32)).trans ?_
  rw [dif_neg (show ¬ (⟨16 + j.val, by omega⟩ : Fin 32).val < 16 from by show ¬ 16 + j.val < 16; omega)]
  exact congrArg (fun q : Fin 16 => a4 m c (ix2 q k)) (Fin.ext (by show 16 + j.val - 16 = j.val; omega))

/-! ## The stretch between regions 0 and 1: aggregation along the edges -/

theorem agg_eq (v : Fin 131072) (j : Fin 16) :
    (W3 m c main_v21 : S131072x16.Idx → EReal) (ix2 v j)
      = Cert.Spec.agg (a0 m c) (srcCol (a1 m c)) (dstCol (a1 m c)) (a2 m c) v j := by
  refine (agg_apply' (W2 m c) v j).trans ?_
  rw [W2_v1 m c, W2_v3 m c]
  refine (aggSum_eq _ _ _ (Cert.Spec.lin (a0 m c) (a2 m c)) (fun r j => xl_eq m c r j) v j).trans ?_
  unfold Cert.Spec.agg srcCol dstCol
  rfl

theorem cnt_eq (v : Fin 131072) :
    (W3 m c main_v22 : S131072x1.Idx → EReal) (ix2 v (0 : Fin 1)) = Cert.Spec.cnt (dstCol (a1 m c)) v := by
  refine (cnt_apply' (W2 m c) v).trans ?_
  rw [W2_v3 m c]
  unfold cntSum Cert.Spec.cnt dstCol
  rw [one_bf16]

theorem bl_eq (j : Fin 16) : (W3 m c main_v23 : S1x16.Idx → EReal) (ix2 (0 : Fin 1) j) = a3 m c (ix1 j) := by
  refine (biasrow_apply (W2 m c) j).trans ?_
  rw [W2_arg3 m c]

theorem xr3_eq (v : Fin 131072) (j : Fin 16) :
    (W3 m c main_v7_1 : S131072x16.Idx → EReal) (ix2 v j) = Cert.Spec.lin (a0 m c) (a4 m c) v j :=
  (congrFun (xr_kept (W2 m c)) (ix2 v j)).trans (xr_eq m c v j)

/-! ## Region 1: the hidden features -/

theorem hid_eq (v : Fin 131072) (j : Fin 16) :
    (W4 m c main_v24 : S131072x16.Idx → EReal) (ix2 v j)
      = Cert.Spec.hid (a0 m c) (srcCol (a1 m c)) (dstCol (a1 m c)) (a2 m c) (a3 m c) (a4 m c) v j := by
  refine (congrFun (W4_arr m c 4) (ix2 v j)).trans ?_
  refine (h_arr (U3 m) c v j).trans ?_
  rw [combAt_def]
  rw [show (U3 m c main_v21 : S131072x16.Idx → EReal) (ix2 v j) = _ from agg_eq m c v j,
    show (U3 m c main_v22 : S131072x1.Idx → EReal) (ix2 v (0 : Fin 1)) = _ from cnt_eq m c v,
    show (U3 m c main_v23 : S1x16.Idx → EReal) (ix2 (0 : Fin 1) j) = _ from bl_eq m c j,
    show (U3 m c main_v7_1 : S131072x16.Idx → EReal) (ix2 v j) = _ from xr3_eq m c v j]
  rfl

/-! ## The stretch between regions 1 and 2: each graph's hidden block as one row -/

theorem flat_eq (g : Fin 32) (k : Fin 65536) :
    (W5 m c main_v25 : S32x65536.Idx → EReal) (ix2 g k)
      = Cert.Spec.flat (a0 m c) (srcCol (a1 m c)) (dstCol (a1 m c)) (a2 m c) (a3 m c) (a4 m c) g k :=
  (flat_apply (W4 m c) g k).trans (hid_eq m c _ _)

theorem wout_eq (o : Fin 39) (k : Fin 65536) : (W5 m c main_v26 : S39x65536.Idx → EReal) (ix2 o k) = a5 m c (ix2 o k) := by
  refine (wout_apply (W4 m c) o k).trans ?_
  rw [W4_arg5 m c]

theorem bout_eq (o : Fin 39) : (W5 m c main_v27 : S1x39.Idx → EReal) (ix2 (0 : Fin 1) o) = a6 m c (ix1 o) := by
  refine (boutrow_apply (W4 m c) o).trans ?_
  rw [W4_arg6 m c]

end Cert.KernelIdeal.KValue

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.Region2Value.lean ====
/-
  Region 2's three payloads read at an index, at the ideal values: the zero accumulator, the block product added to the
  accumulator (rows of the left block against rows of the right block, summed over the block's columns), and the
  accumulator plus the bias row.
-/
import proofs.«177734_j84713934946331_2_alg».proof.Proof.Gen.KernelIdeal.Skeleton
import proofs.«177734_j84713934946331_2_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RgnValue

open Cert.KernelIdeal Cert.KernelIdeal.Gen
open Idealize.ShloMosaic Idealize.ShloMosaic.ValueIdx

/-- The reset's payload is the zero word's value at every index. -/
theorem k2_pay1_apply (p : Fin 16) (o : Fin 39) :
    Gen.k2_pay1 (F := Ideal) (ix2 p o) = Ideal.ofBits .f32 0x00000000#32 := by
  unfold k2_pay1
  rw [shapeCast_self]
  rfl

/-- The accumulation's payload at `(p, o)`: the accumulator there plus row `p` of the left block against row `o` of the
    right block (rounding to the narrower format is the identity on the ideal values). -/
theorem k2_pay2_apply (v3 : Vec Ideal S16x8192 .f32) (v6 : Vec Ideal S39x8192 .bf16) (v8 : Vec Ideal S16x39 .f32) (p : Fin 16) (o : Fin 39) :
    Gen.k2_pay2 (F := Ideal) v3 v6 v8 (ix2 p o) = v8 (ix2 p o) + ∑ k : Fin 8192, v3 (ix2 p k) * v6 (ix2 o k) := by
  unfold k2_pay2
  simp only [shapeCast_self]
  rw [addf_apply]
  congr 1
  have h := Cert.LibRowOps.matmul_zero_rows_ix2 dot_S16x8192_S39x8192_S16x39_1_1_0_0_n_n rfl rfl rfl rfl rfl rfl
    (φ₁ := .bf16) (φ₂ := .bf16) none (truncf .bf16 v3 bitsLt_bf16_f32) v6 p o
  exact h.trans (Finset.sum_congr rfl fun k _ => rfl)

/-- The output's payload at `(p, o)`: the accumulator there plus the bias row at `o`. -/
theorem k2_pay3_apply (v17 : Vec Ideal S16x39 .f32) (v18 : Vec Ideal S1x39 .f32) (p : Fin 16) (o : Fin 39) :
    Gen.k2_pay3 (F := Ideal) v17 v18 (ix2 p o) = v17 (ix2 p o) + v18 (ix2 (0 : Fin 1) o) := by
  unfold k2_pay3
  simp only [shapeCast_self]
  rw [addf_apply, broadcastTo_1b_ab_apply]

end Cert.KernelIdeal.RgnValue

end
-- ==== Proof.Region2Cover.lean ====
/-
  Region 2's output array after the run, element by element, at the ideal values.

  The output window's block index is `(t / 8, 0)` and its block is written back only at the last point of each group
  of eight, so the two written blocks (rows 0–15 at point 7, rows 16–31 at point 15) tile the `[32, 39]` array. What is
  written back at the last point of group `mi` is the scratch accumulator plus the bias row; the accumulator, unrolled
  over the group's eight points, is the zero word's value plus the eight block products in order; and each block
  element is an element of the region's input arrays: left block rows `16·mi …`, columns `8192·kb …` of the flattened
  hidden rows, right block all 39 rows, columns `8192·kb …` of the weights.
-/
import proofs.«177734_j84713934946331_2_alg».proof.Proof.Region2
import proofs.«177734_j84713934946331_2_alg».proof.Proof.Region2Value
import Idealize.ShloMosaic.Lib.Pipeline.Value
import Idealize.ShloMosaic.Lib.ValueIdx

noncomputable section

open scoped BigOperators

namespace Cert.KernelIdeal.RgnValue

open Cert.KernelIdeal Cert.KernelIdeal.Gen Cert.KernelIdeal.Rgn
open Idealize.ShloMosaic Idealize.ShloMosaic.TcCoe Idealize.ShloMosaic.ValueIdx Idealize.SL.Sem
open Idealize.ShloMosaic.Pipeline (Dat)

/-! ## The layer at one output, as a function of the three arrays -/

/-- One block's product at output `(g, o)`: row `g` of the left array against row `o` of the right one, over the
    columns of block `kb`. -/
def blockDot (G : S32x65536.Idx → EReal) (Wt : S39x65536.Idx → EReal) (g : Fin 32) (o : Fin 39) (kb : Fin 8) : EReal :=
  ∑ j : Fin 8192, G (ix2 g (⟨8192 * kb.val + j.val, by omega⟩ : Fin 65536)) * Wt (ix2 o (⟨8192 * kb.val + j.val, by omega⟩ : Fin 65536))

/-- Output `(g, o)` of the layer: from the zero word's value, the eight block products added in order, then the bias. -/
def gemmAt (G : S32x65536.Idx → EReal) (Wt : S39x65536.Idx → EReal) (B : S1x39.Idx → EReal) (g : Fin 32) (o : Fin 39) : EReal :=
  (Ideal.ofBits .f32 0x00000000#32 + ∑ kb : Fin 8, ∑ j : Fin 8192,
      G (ix2 g (⟨8192 * kb.val + j.val, by omega⟩ : Fin 65536)) * Wt (ix2 o (⟨8192 * kb.val + j.val, by omega⟩ : Fin 65536)))
    + B (ix2 (0 : Fin 1) o)

theorem gemmAt_def (G : S32x65536.Idx → EReal) (Wt : S39x65536.Idx → EReal) (B : S1x39.Idx → EReal) (g : Fin 32) (o : Fin 39) :
    gemmAt G Wt B g o = (Ideal.ofBits .f32 0x00000000#32 + ∑ kb : Fin 8, ∑ j : Fin 8192,
      G (ix2 g (⟨8192 * kb.val + j.val, by omega⟩ : Fin 65536)) * Wt (ix2 o (⟨8192 * kb.val + j.val, by omega⟩ : Fin 65536)))
    + B (ix2 (0 : Fin 1) o) := rfl

theorem gemmAt_blocks (G : S32x65536.Idx → EReal) (Wt : S39x65536.Idx → EReal) (B : S1x39.Idx → EReal) (g : Fin 32) (o : Fin 39) :
    gemmAt G Wt B g o = (Ideal.ofBits .f32 0x00000000#32 + ∑ kb : Fin 8, blockDot G Wt g o kb) + B (ix2 (0 : Fin 1) o) := rfl

/-- Row `p` of a left block against row `o` of a right block. -/
def rowDot (x0 : Vec Ideal S16x8192 .f32) (x1 : Vec Ideal S39x8192 .bf16) (p : Fin 16) (o : Fin 39) : EReal :=
  ∑ k : Fin 8192, x0 (ix2 p k) * x1 (ix2 o k)

theorem pay2_at (v3 : Vec Ideal S16x8192 .f32) (v6 : Vec Ideal S39x8192 .bf16) (v8 : Vec Ideal S16x39 .f32) (p : Fin 16) (o : Fin 39) :
    Gen.k2_pay2 (F := Ideal) v3 v6 v8 (ix2 p o) = v8 (ix2 p o) + rowDot v3 v6 p o :=
  k2_pay2_apply v3 v6 v8 p o

/-! ## The printed index maps, decided over the grid -/

theorem idx2_0 : ∀ t : Fin cfg2.N, win2_0.index t (0 : Fin 2) = t.val / 8 ∧ win2_0.index t (1 : Fin 2) = t.val % 8 :=
  (by decide +kernel : ∀ t : Fin grid2.N, win2_0.index t (0 : Fin 2) = t.val / 8 ∧ win2_0.index t (1 : Fin 2) = t.val % 8)
theorem idx2_1 : ∀ t : Fin cfg2.N, win2_1.index t (0 : Fin 2) = 0 ∧ win2_1.index t (1 : Fin 2) = t.val % 8 :=
  (by decide +kernel : ∀ t : Fin grid2.N, win2_1.index t (0 : Fin 2) = 0 ∧ win2_1.index t (1 : Fin 2) = t.val % 8)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = t.val / 8 ∧ win2_3.index t (1 : Fin 2) = 0 :=
  (by decide +kernel : ∀ t : Fin grid2.N, win2_3.index t (0 : Fin 2) = t.val / 8 ∧ win2_3.index t (1 : Fin 2) = 0)

/-- Among the points that write the output's block back, the block index determines the point. -/
theorem idx_inj3 : ∀ t t' : Fin cfg2.N, (cfg2.win 3).flush t = true → (cfg2.win 3).flush t' = true →
    (cfg2.win 3).index t = (cfg2.win 3).index t' → t = t' :=
  (by decide +kernel : ∀ t t' : Fin grid2.N, win2_3.flush t = true → win2_3.flush t' = true → win2_3.index t = win2_3.index t' → t = t')

/-- So two such points' blocks share no array index. -/
theorem disjoint3 : ∀ t t' : Fin cfg2.N, (cfg2.win 3).flush t = true → (cfg2.win 3).flush t' = true → t ≠ t' →
    Disjoint ((cfg2.win 3).blk t).view.set ((cfg2.win 3).blk t').view.set :=
  fun t t' hf hf' hne => (cfg2.win 3).disjoint_blk fun h => hne (idx_inj3 t t' hf hf' h)

/-- Point `8·mi + kb` is a point of the grid. -/
theorem pt_lt (mi : Fin 2) (kb : ℕ) (hkb : kb < 8) : 8 * mi.val + kb < cfg2.N := by
  have h1 := mi.isLt
  exact lt_of_lt_of_eq (show 8 * mi.val + kb < 16 by omega) N_2.symm

variable (V : (c : Dev nD) → (b : Ref sig .tc) → Buf (Elt Ideal) ((c : Thread nD τ).loc b))

/-! ## Each block element, read off the region's input arrays -/

/-- Window 0's block at point `t`: rows `16·(t / 8) …`, columns `8192·(t % 8) …` of the flattened hidden rows. -/
theorem iblk2_0_apply (c : Dev nD) (t : Fin cfg2.N) (x : S16x8192.Idx) (k : S32x65536.Idx)
    (hk0 : (k 0).val = 16 * (t.val / 8) + (x 0).val) (hk1 : (k 1).val = 8192 * (t.val % 8) + (x 1).val) :
    (iblk2 V c 0 t : Vec Ideal S16x8192 .f32) x = (V c main_v25 : S32x65536.Idx → EReal) k := by
  obtain ⟨e0, e1⟩ := idx2_0 t
  unfold iblk2
  rw [View.read_apply]
  show V c main_v25 _ = V c main_v25 _
  congr 1
  funext a
  apply Fin.ext
  match a with
  | ⟨0, _⟩ => show win2_0.index t (0 : Fin 2) * 16 + 1 * (x 0).val = (k 0).val; rw [e0, hk0]; omega
  | ⟨1, _⟩ => show win2_0.index t (1 : Fin 2) * 8192 + 1 * (x 1).val = (k 1).val; rw [e1, hk1]; omega

/-- Window 1's block at point `t`: all 39 rows, columns `8192·(t % 8) …` of the weights. -/
theorem iblk2_1_apply (c : Dev nD) (t : Fin cfg2.N) (x : S39x8192.Idx) (k : S39x65536.Idx)
    (hk0 : (k 0).val = (x 0).val) (hk1 : (k 1).val = 8192 * (t.val % 8) + (x 1).val) :
    (iblk2 V c 1 t : Vec Ideal S39x8192 .bf16) x = (V c main_v26 : S39x65536.Idx → EReal) k := by
  obtain ⟨e0, e1⟩ := idx2_1 t
  unfold iblk2
  rw [View.read_apply]
  show V c main_v26 _ = V c main_v26 _
  congr 1
  funext a
  apply Fin.ext
  match a with
  | ⟨0, _⟩ => show win2_1.index t (0 : Fin 2) * 39 + 1 * (x 0).val = (k 0).val; rw [e0, hk0]; omega
  | ⟨1, _⟩ => show win2_1.index t (1 : Fin 2) * 8192 + 1 * (x 1).val = (k 1).val; rw [e1, hk1]; omega

/-- Window 2's block at every point is the whole bias row. -/
theorem iblk2_2_apply (c : Dev nD) (t : Fin cfg2.N) (x : S1x39.Idx) :
    (iblk2 V c 2 t : Vec Ideal S1x39 .f32) x = (V c main_v27 : S1x39.Idx → EReal) x := by
  obtain ⟨e0, e1⟩ := idx2_2 t
  unfold iblk2
  rw [View.read_apply]
  show V c main_v27 _ = V c main_v27 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 39 + 1 * (x 1).val = (x 1).val; rw [e1]; omega

/-- The block product at point `8·mi + kb` is block `kb`'s product of the arrays, at row `16·mi + p`. -/
theorem rowDot_eq (c : Dev nD) (mi : Fin 2) (kb : Fin 8) (t : Fin cfg2.N) (ht : t.val = 8 * mi.val + kb.val) (p : Fin 16) (o : Fin 39) :
    rowDot (iblk2 V c 0 t) (iblk2 V c 1 t) p o
      = blockDot (V c main_v25) (V c main_v26) (⟨16 * mi.val + p.val, by omega⟩ : Fin 32) o kb := by
  have hmi := mi.isLt
  have hkb := kb.isLt
  unfold rowDot blockDot
  refine Finset.sum_congr rfl fun j _ => ?_
  have h0 := iblk2_0_apply V c t (ix2 p j) (ix2 (⟨16 * mi.val + p.val, by omega⟩ : Fin 32) (⟨8192 * kb.val + j.val, by omega⟩ : Fin 65536))
    (by show 16 * mi.val + p.val = 16 * (t.val / 8) + p.val; omega) (by show 8192 * kb.val + j.val = 8192 * (t.val % 8) + j.val; omega)
  have h1 := iblk2_1_apply V c t (ix2 o j) (ix2 o (⟨8192 * kb.val + j.val, by omega⟩ : Fin 65536))
    rfl (by show 8192 * kb.val + j.val = 8192 * (t.val % 8) + j.val; omega)
  rw [h0, h1]

/-! ## The accumulator, unrolled over a group's points -/

theorem acc2_congr (c : Dev nD) {n n' : ℕ} (e : n = n') (h : n < cfg2.N) (h' : n' < cfg2.N) :
    acc2 V c n h = acc2 V c n' h' := by
  subst e; rfl

/-- After point `8·mi + kb` the accumulator holds, at `(p, o)`, the zero word's value plus the block products of the
    group's points up to `kb`, added in order. -/
theorem acc2_unroll (c : Dev nD) (mi : Fin 2) (p : Fin 16) (o : Fin 39) :
    ∀ (kb : ℕ) (hkb : kb < 8),
      acc2 V c (8 * mi.val + kb) (pt_lt mi kb hkb) (ix2 p o)
        = Ideal.ofBits .f32 0x00000000#32
          + ∑ k' : Fin (kb + 1), blockDot (V c main_v25) (V c main_v26) (⟨16 * mi.val + p.val, by omega⟩ : Fin 32) o ⟨k'.val, by omega⟩
  | 0, hkb => by
    have hmi := mi.isLt
    have e1 := congrFun (acc2_first V c ⟨8 * mi.val + 0, pt_lt mi 0 hkb⟩ (by show (8 * mi.val + 0) % 8 = 0; omega)) (ix2 p o)
    refine e1.trans ?_
    refine (pay2_at _ _ _ p o).trans ?_
    rw [k2_pay1_apply, Fin.sum_univ_one]
    congr 1
    exact rowDot_eq V c mi ⟨0, by omega⟩ ⟨8 * mi.val + 0, pt_lt mi 0 hkb⟩ rfl p o
  | kb + 1, hkb => by
    have hmi := mi.isLt
    have ih := acc2_unroll c mi p o kb (by omega)
    have e1 := congrFun (acc2_next V c ⟨8 * mi.val + (kb + 1), pt_lt mi (kb + 1) hkb⟩ (by show ¬(8 * mi.val + (kb + 1)) % 8 = 0; omega)) (ix2 p o)
    refine e1.trans ?_
    refine (pay2_at _ _ _ p o).trans ?_
    rw [Fin.sum_univ_castSucc]
    refine Eq.trans ?_ (add_assoc _ _ _)
    refine congrArg₂ (· + ·) ?_ ?_
    · refine (congrFun (acc2_congr V c (show 8 * mi.val + (kb + 1) - 1 = 8 * mi.val + kb by omega) _ (pt_lt mi kb (by omega))) (ix2 p o)).trans ?_
      exact ih
    · exact rowDot_eq V c mi ⟨kb + 1, hkb⟩ ⟨8 * mi.val + (kb + 1), pt_lt mi (kb + 1) hkb⟩ rfl p o

/-! ## The output array -/

/-- Row `16·mi + p`, column `o` of the output array after the run. -/
theorem out_arr (c : Dev nD) (mi : Fin 2) (p : Fin 16) (o : Fin 39) :
    (dat2 (F := Ideal) V c).arrAt 3 cfg2.N (ix2 (⟨16 * mi.val + p.val, by omega⟩ : Fin 32) o)
      = gemmAt (V c main_v25) (V c main_v26) (V c main_v27) (⟨16 * mi.val + p.val, by omega⟩ : Fin 32) o := by
  have hmi := mi.isLt
  have hlt := pt_lt mi 7 (by omega)
  have hf : (cfg2.win 3).flush ⟨8 * mi.val + 7, hlt⟩ = true := (flush2_3 _).mpr (by show (8 * mi.val + 7) % 8 = 7; omega)
  have hemb : ((cfg2.win 3).blk ⟨8 * mi.val + 7, hlt⟩).view.emb (ix2 p o) = ix2 (⟨16 * mi.val + p.val, by omega⟩ : Fin 32) o := by
    obtain ⟨e0, e1⟩ := idx2_3 ⟨8 * mi.val + 7, hlt⟩
    funext a
    apply Fin.ext
    match a with
    | ⟨0, _⟩ =>
      show win2_3.index ⟨8 * mi.val + 7, hlt⟩ (0 : Fin 2) * 16 + 1 * p.val = 16 * mi.val + p.val
      rw [e0]; show (8 * mi.val + 7) / 8 * 16 + 1 * p.val = 16 * mi.val + p.val; omega
    | ⟨1, _⟩ =>
      show win2_3.index ⟨8 * mi.val + 7, hlt⟩ (1 : Fin 2) * 39 + 1 * o.val = o.val
      rw [e1]; omega
  rw [← hemb]
  refine ((dat2 V c).arrAt_emb_eq_flushed 3 disjoint3 ⟨8 * mi.val + 7, hlt⟩ hf (ix2 p o)).trans ?_
  rw [cast_eq]
  show (cfg2.win 3).cut (grid2.coords ⟨8 * mi.val + 7, hlt⟩) ((dat2 V c).after 3 ⟨8 * mi.val + 7, hlt⟩) (ix2 p o) = _
  rw [after2_3]
  show Gen.k2_pay3 (F := Ideal) (acc2 V c (8 * mi.val + 7) hlt) (iblk2 V c 2 ⟨8 * mi.val + 7, hlt⟩) (ix2 p o) = _
  refine (k2_pay3_apply _ _ p o).trans ?_
  rw [gemmAt_blocks]
  congr 1
  · refine (acc2_unroll V c mi p o 7 (by omega)).trans ?_
    rfl
  · exact iblk2_2_apply V c ⟨8 * mi.val + 7, hlt⟩ (ix2 (0 : Fin 1) o)

end Cert.KernelIdeal.RgnValue

end
-- ==== Proof.LibSums.lean ====
/-
  Sums over rank-3 index sets, by coordinates. A rank-3 index set is the product of its three coordinate ranges, so a
  sum over it is a triple sum; it is also the product of its leading coordinate with the rank-2 index set of the other
  two. A leading axis of extent T·B is T consecutive blocks of B rows, so a sum over a [T·B, R, C] array is the sum
  over the T blocks of the sums over each [B, R, C] block. All in any additive commutative monoid, generic in the extents.
-/
import Idealize.ShloMosaic.Lib.ValueIdx
import Mathlib.Algebra.BigOperators.Fin
import Mathlib.Logic.Equiv.Fin.Basic

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set is the sum over the leading coordinate of the sums over the rank-2 index set of the
    other two. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over `Fin (T * B)` is the sum over `T` blocks of the sums over the `B` offsets inside each block. -/
theorem sum_fin_mul {M : Type*} [AddCommMonoid M] {T B : Nat} (h : Fin (T * B) → M) :
    ∑ x, h x = ∑ t : Fin T, ∑ y : Fin B,
      h ⟨t.val * B + y.val, by
        have ht := t.isLt; have hy := y.isLt
        calc t.val * B + y.val < t.val * B + B := by omega
          _ = (t.val + 1) * B := by ring
          _ ≤ T * B := Nat.mul_le_mul_right B ht⟩ := by
  rw [← Equiv.sum_comp finProdFinEquiv h, Fintype.sum_prod_type]
  refine Finset.sum_congr rfl fun t _ => Finset.sum_congr rfl fun y _ => congrArg h (Fin.ext ?_)
  show y.val + B * t.val = t.val * B + y.val
  rw [Nat.mul_comm, Nat.add_comm]

/-- Row `y` of block `t`, as an index of the whole [T·B, R, C] array. -/
def blockIdx {T B R C : Nat} (t : Fin T) (y : (⟨3, ![B, R, C]⟩ : Shape).Idx) : (⟨3, ![T * B, R, C]⟩ : Shape).Idx :=
  ix3 ⟨t.val * B + (y 0).val, by
    have ht := t.isLt; have hy : (y 0).val < B := (y 0).isLt
    calc t.val * B + (y 0).val < t.val * B + B := by omega
      _ = (t.val + 1) * B := by ring
      _ ≤ T * B := Nat.mul_le_mul_right B ht⟩ (y 1) (y 2)

/-- A sum over a [T·B, R, C] array is the sum over its T blocks of `B` rows of the sums over each block. -/
theorem sum_blocks {M : Type*} [AddCommMonoid M] {T B R C : Nat} (f : (⟨3, ![T * B, R, C]⟩ : Shape).Idx → M) :
    ∑ z, f z = ∑ t : Fin T, ∑ y : (⟨3, ![B, R, C]⟩ : Shape).Idx, f (blockIdx t y) := by
  rw [sum_idx3, sum_fin_mul]
  refine Finset.sum_congr rfl fun t _ => ?_
  rw [sum_idx3]
  rfl

end Cert.LibSums

end
-- ==== Proof.KernelValueB.lean ====
/-
  The kernel program's result. Region 2 accumulates, for each of two groups of 16 graphs, the products of 8 blocks of
  8192 positions of the flattened hidden rows with the same blocks of the output weight, starting from zero, and adds
  the bias at the last block: a sum over `8 · 8192` positions split into blocks is the sum over all 65536 positions,
  and the zero it starts from is the neutral element. The closing host operation only adds a trailing unit axis.
-/
import proofs.«177734_j84713934946331_2_alg».proof.Proof.MainRun
import proofs.«177734_j84713934946331_2_alg».proof.Proof.KernelValueA
import proofs.«177734_j84713934946331_2_alg».proof.Proof.Region2Cover
import proofs.«177734_j84713934946331_2_alg».proof.Proof.KernelHost2
import proofs.«177734_j84713934946331_2_alg».proof.Proof.LibSums
import proofs.«177734_j84713934946331_2_alg».proof.Proof.Spec
import Idealize.ShloMosaic.PureOps.Ideal.Laws

noncomputable section

namespace Cert.KernelIdeal.KValue

open Cert.KernelIdeal Cert.KernelIdeal.Gen Cert.KernelIdeal.Run Cert.KernelIdeal.Rgn Cert.KernelIdeal.RgnValue Cert.KernelIdeal.HostValue
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- Output `o` of graph `g`, as region 2 leaves it. -/
theorem out_eq (g : Fin 32) (o : Fin 39) :
    (W6 m c main_v28 : S32x39.Idx → EReal) (ix2 g o)
      = Cert.Spec.out (a0 m c) (srcCol (a1 m c)) (dstCol (a1 m c)) (a2 m c) (a3 m c) (a4 m c) (a5 m c) (a6 m c) g o := by
  obtain ⟨mi, p, rfl⟩ : ∃ (mi : Fin 2) (p : Fin 16), g = (⟨16 * mi.val + p.val, by omega⟩ : Fin 32) :=
    ⟨⟨g.val / 16, by omega⟩, ⟨g.val % 16, Nat.mod_lt _ (by decide)⟩,
      Fin.ext (by show g.val = 16 * (g.val / 16) + g.val % 16; omega)⟩
  refine (congrFun (W6_arr m c 3) _).trans ?_
  refine (out_arr (U5 m) c mi p o).trans ?_
  rw [gemmAt_def]
  unfold Cert.Spec.out
  rw [show (U5 m c main_v27 : S1x39.Idx → EReal) (ix2 (0 : Fin 1) o) = _ from bout_eq m c o]
  refine congrArg (· + a6 m c (ix1 o)) ?_
  rw [Ideal.ofBits_zero_f32, zero_add]
  have hs := Cert.LibSums.sum_fin_mul (M := EReal) (T := 8) (B := 8192)
    (fun k : Fin 65536 => Cert.Spec.flat (a0 m c) (srcCol (a1 m c)) (dstCol (a1 m c)) (a2 m c) (a3 m c) (a4 m c)
      (⟨16 * mi.val + p.val, by omega⟩ : Fin 32) k * a5 m c (ix2 o k))
  refine Eq.trans ?_ hs.symm
  refine Finset.sum_congr rfl fun kb _ => Finset.sum_congr rfl fun j _ => ?_
  have hk : (⟨8192 * kb.val + j.val, by omega⟩ : Fin 65536) = ⟨kb.val * 8192 + j.val, by omega⟩ :=
    Fin.ext (by show 8192 * kb.val + j.val = kb.val * 8192 + j.val; omega)
  rw [hk]
  rw [show (U5 m c main_v25 : S32x65536.Idx → EReal) (ix2 (⟨16 * mi.val + p.val, by omega⟩ : Fin 32) (⟨kb.val * 8192 + j.val, by omega⟩ : Fin 65536)) = _ from flat_eq m c _ _,
    show (U5 m c main_v26 : S39x65536.Idx → EReal) (ix2 o (⟨kb.val * 8192 + j.val, by omega⟩ : Fin 65536)) = _ from wout_eq m c o _]

/-- The result buffer after the whole run: the specification's result of the launch memory's arguments. -/
theorem result_eq :
    (W7 m c main_v29 : S32x39x1.Idx → EReal)
      = Cert.Spec.result (a0 m c) (srcCol (a1 m c)) (dstCol (a1 m c)) (a2 m c) (a3 m c) (a4 m c) (a5 m c) (a6 m c) := by
  funext i
  obtain ⟨g, o, u, rfl⟩ : ∃ (g : Fin 32) (o : Fin 39) (u : Fin 1), i = ix3 g o u := ⟨i 0, i 1, i 2, eq_ix3 i⟩
  rw [Cert.Spec.result_ix3]
  exact (result_apply (W6 m c) g o u).trans (out_eq m c g o)

end Cert.KernelIdeal.KValue

end
-- ==== Proof.RefValue.lean ====
/-
  The reference program's result, read at an index, is the specification's result.

  Each stage of the reference is read at an index built from literal coordinates: the two linear maps are the
  row-against-row sums, the gathered row of an edge is the linear image of its source row, the two accumulations are
  the sums over the edges entering a node, the hidden feature is the rectified mean-plus-bias-plus-self term, the
  reshaped row of a graph holds feature `k % 16` of node `4096 g + k / 16` at position `k`, and the last linear map
  is the sum over those positions plus the bias.
-/
import proofs.«177734_j84713934946331_2_alg».proof.Proof.Gen.ReferenceIdeal.Read
import proofs.«177734_j84713934946331_2_alg».proof.Proof.LibGatherScatter
import proofs.«177734_j84713934946331_2_alg».proof.Proof.Spec

noncomputable section

namespace Cert.ReferenceIdeal.RefValue

open Cert.ReferenceIdeal Cert.ReferenceIdeal.Gen Idealize.ShloMosaic Idealize.ShloMosaic.ValueIdx
open scoped BigOperators

/-- The column of source index words the gather reads. -/
def srcCol (x1 : (⟨S2x4194304, .i32⟩ : BufTy).Contents (Elt Ideal)) : (⟨S4194304x1, .i32⟩ : BufTy).Contents (Elt Ideal) :=
  Read.val_main_v11 (F := Ideal) x1

/-- The column of destination index words the two accumulations read. -/
def dstCol (x1 : (⟨S2x4194304, .i32⟩ : BufTy).Contents (Elt Ideal)) : (⟨S4194304x1, .i32⟩ : BufTy).Contents (Elt Ideal) :=
  Read.val_main_v14 (F := Ideal) x1

/-! ## The host's float scatter-add at the ideal instance, for any extents -/

/-- At the ideal instance the host's float scatter-add is the exact sum of the colliding updates. -/
theorem scatterAdd_eq_ideal {s si su : Shape} {φ : FTy} {w : Nat} (d : ScatterDims s si su)
    (x : FVec Ideal s φ) (idx : IVec si w) (upd : FVec Ideal su φ) :
    Host.scatterAdd d x idx upd = Ideal.hostScatterAdd d x idx upd := rfl

/-- The scatter-add of `E` rows into an `N × C` operand at a column of scatter indices, read at `(v, c)`: the
    operand plus the updates' elements `(e, c)` over the rows `e` whose index word, read signed, is `v`. -/
theorem hostScatterAdd_rows {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![E, 1]⟩ w) (upd : FVec Ideal ⟨2, ![E, C]⟩ φ) (v : Fin N) (c : Fin C) :
    Host.scatterAdd d x idx upd (ix2 v c)
      = x (ix2 v c) + ∑ e ∈ Finset.univ.filter (fun e : Fin E => (idx (ix2 e (0 : Fin 1))).toInt = (v.val : Int)), upd (ix2 e c) := by
  rw [scatterAdd_eq_ideal]
  exact Cert.GatherScatter.scatterAdd_rows_apply d huw hiw hsd hiv x idx upd v c

/-- The scatter-add of `E` single elements into an `N`-vector at a column of scatter indices, read at `v`: the
    operand plus the updates `e` whose index word, read signed, is `v`. -/
theorem hostScatterAdd_vec {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (v : Fin N) :
    Host.scatterAdd d x idx upd (ix1 v)
      = x (ix1 v) + ∑ e ∈ Finset.univ.filter (fun e : Fin E => (idx (ix2 e (0 : Fin 1))).toInt = (v.val : Int)), upd (ix1 e) := by
  rw [scatterAdd_eq_ideal]
  exact Cert.GatherScatter.scatterAdd_vec_apply d huw hiw hsd hiv x idx upd v

/-! ## The reference's stages -/

variable (x0 : (⟨S131072x128, .f32⟩ : BufTy).Contents (Elt Ideal))
  (x1 : (⟨S2x4194304, .i32⟩ : BufTy).Contents (Elt Ideal))
  (x2 : (⟨S16x128, .f32⟩ : BufTy).Contents (Elt Ideal))
  (x3 : (⟨S16, .f32⟩ : BufTy).Contents (Elt Ideal))
  (x4 : (⟨S16x128, .f32⟩ : BufTy).Contents (Elt Ideal))
  (x5 : (⟨S39x65536, .f32⟩ : BufTy).Contents (Elt Ideal))
  (x6 : (⟨S39, .f32⟩ : BufTy).Contents (Elt Ideal))

/-- The first linear map: row `v` of `x` against row `j` of the weight. -/
theorem xl_apply (v : Fin 131072) (j : Fin 16) :
    Read.val_main_v5 (F := Ideal) x0 x2 (ix2 v j) = Cert.Spec.lin x0 x2 v j := by
  rw [Read.val_main_v5_apply]
  unfold Cert.Spec.lin
  refine Finset.sum_congr rfl fun k _ => ?_
  rw [Read.val_main_v4_apply]
  have e1 : Read.lidx_main_v5 (ix2 v j) k = ix2 v k := by
    funext a; match a with | ⟨0, _⟩ => rfl | ⟨1, _⟩ => rfl
  have e2 : Read.idx_main_v4 (Read.ridx_main_v5 (ix2 v j) k) = ix2 j k := by
    funext a; match a with | ⟨0, _⟩ => rfl | ⟨1, _⟩ => rfl
  rw [e1, e2]

/-- The second linear map, likewise. -/
theorem xr_apply (v : Fin 131072) (j : Fin 16) :
    Read.val_main_v29 (F := Ideal) x0 x4 (ix2 v j) = Cert.Spec.lin x0 x4 v j := by
  rw [Read.val_main_v29_apply]
  unfold Cert.Spec.lin
  refine Finset.sum_congr rfl fun k _ => ?_
  rw [Read.val_main_v28_apply]
  have e1 : Read.lidx_main_v29 (ix2 v j) k = ix2 v k := by
    funext a; match a with | ⟨0, _⟩ => rfl | ⟨1, _⟩ => rfl
  have e2 : Read.idx_main_v28 (Read.ridx_main_v29 (ix2 v j) k) = ix2 j k := by
    funext a; match a with | ⟨0, _⟩ => rfl | ⟨1, _⟩ => rfl
  rw [e1, e2]

/-- The gathered row of edge `e`: the first linear map's row at the edge's source row. -/
theorem gathered_apply (e : Fin 4194304) (c : Fin 16) :
    Read.val_main_v12 (F := Ideal) x0 x1 x2 (ix2 e c)
      = Cert.Spec.lin x0 x2 (Cert.Spec.srcRow (srcCol x1) e) c := by
  unfold Read.val_main_v12
  refine (Cert.GatherScatter.gather_rows_apply (N := 131072) (E := 4194304) (C := 16) (by decide)
    gather_S131072x16_S4194304x1_S4194304x16_1_0_n_n_0_1_116 rfl rfl rfl rfl rfl rfl rfl _ _ e c).trans ?_
  exact xl_apply x0 x2 _ c

/-- The aggregated neighbour features: the zero the accumulation starts from plus the gathered rows of the
    edges entering the node. -/
theorem agg_apply (v : Fin 131072) (j : Fin 16) :
    Read.val_main_v15 (F := Ideal) x0 x1 x2 (ix2 v j)
      = Cert.Spec.agg x0 (srcCol x1) (dstCol x1) x2 v j := by
  unfold Read.val_main_v15
  refine (hostScatterAdd_rows scatter_S131072x16_S4194304x1_S4194304x16_1_0_0_1 rfl rfl rfl rfl _ _ _ v j).trans ?_
  simp only [Read.val_main_v13_apply, Read.val_main_cst_apply, gathered_apply]
  rfl

/-- The in-degree: the zero the accumulation starts from plus a one per edge entering the node. -/
theorem cnt_apply (v : Fin 131072) :
    Read.val_main_v19 (F := Ideal) x1 (ix1 v) = Cert.Spec.cnt (dstCol x1) v := by
  unfold Read.val_main_v19
  refine (hostScatterAdd_vec scatter_S131072_S4194304x1_S4194304_n_0_0_1 rfl rfl rfl rfl _ _ _ v).trans ?_
  simp only [Read.val_main_v17_apply, Read.val_main_cst_2_apply, Read.val_main_v16_apply, Read.val_main_cst_1_apply]
  rfl

/-- The hidden feature `j` of node `v`. -/
theorem hid_apply (v : Fin 131072) (j : Fin 16) :
    Read.val_main_v31 (F := Ideal) x0 x1 x2 x3 x4 (ix2 v j)
      = Cert.Spec.hid x0 (srcCol x1) (dstCol x1) x2 x3 x4 v j := by
  rw [Read.val_main_v31_apply, Read.val_main_v30_apply, Read.val_main_v27_apply, Read.val_main_v24_apply,
    Read.val_main_v23_apply, Read.val_main_v22_apply, Read.val_main_v21_apply, Read.val_main_v20_apply,
    Read.val_main_cst_3_apply, Read.val_main_v26_apply, Read.val_main_v25_apply, Read.val_main_call0_v0_apply,
    Read.val_main_call0_cst_apply]
  have e1 : Read.idx_main_v22 (Read.idx_main_v23 (ix2 v j)) = ix1 v := by
    funext a; match a with | ⟨0, _⟩ => rfl
  have e2 : Read.idx_main_v25 (Read.idx_main_v26 (ix2 v j)) = ix1 j := by
    funext a; match a with | ⟨0, _⟩ => rfl
  rw [e1, e2, agg_apply, cnt_apply, xr_apply]
  rfl

/-- Position `k` of graph `g`'s reshaped row: entry `(4096 g + k / 16, k % 16)` of the hidden features. -/
theorem flat_apply (g : Fin 32) (k : Fin 65536) :
    Read.val_main_v32 (F := Ideal) x0 x1 x2 x3 x4 (ix2 g k)
      = Cert.Spec.flat x0 (srcCol x1) (dstCol x1) x2 x3 x4 g k := by
  rw [Read.val_main_v32_apply]
  have e : Read.idx_main_v32 (ix2 g k) = ix2 (Cert.Spec.node g k) (Cert.Spec.feat k) := by
    funext a
    match a with
    | ⟨0, _⟩ =>
      refine Fin.ext ?_
      show (g.val * 65536 + k.val) / 16 = g.val * 4096 + k.val / 16
      omega
    | ⟨1, _⟩ =>
      refine Fin.ext ?_
      show (g.val * 65536 + k.val) % 16 = k.val % 16
      omega
  rw [e]
  exact hid_apply x0 x1 x2 x3 x4 _ _

/-- Output `o` of graph `g`: the reshaped row against row `o` of the last weight, plus the bias. -/
theorem out_apply (g : Fin 32) (o : Fin 39) :
    Read.val_main_v37 (F := Ideal) x0 x1 x2 x3 x4 x5 x6 (ix2 g o)
      = Cert.Spec.out x0 (srcCol x1) (dstCol x1) x2 x3 x4 x5 x6 g o := by
  rw [Read.val_main_v37_apply, Read.val_main_v34_apply, Read.val_main_v36_apply, Read.val_main_v35_apply,
    Ideal.addf_def]
  have e0 : Read.idx_main_v35 (Read.idx_main_v36 (ix2 g o)) = ix1 o := by
    funext a; match a with | ⟨0, _⟩ => rfl
  rw [e0]
  unfold Cert.Spec.out
  refine congrArg₂ (· + ·) (Finset.sum_congr rfl fun k _ => ?_) rfl
  have e1 : Read.lidx_main_v34 (ix2 g o) k = ix2 g k := by
    funext a; match a with | ⟨0, _⟩ => rfl | ⟨1, _⟩ => rfl
  have e2 : Read.idx_main_v33 (Read.ridx_main_v34 (ix2 g o) k) = ix2 o k := by
    funext a; match a with | ⟨0, _⟩ => rfl | ⟨1, _⟩ => rfl
  rw [Read.val_main_v33_apply, e1, e2, flat_apply]

/-- The reference's result is the specification's result at the two index columns the reference reads. -/
theorem result_eq :
    Read.val_main_v38 (F := Ideal) x0 x1 x2 x3 x4 x5 x6
      = Cert.Spec.result x0 (srcCol x1) (dstCol x1) x2 x3 x4 x5 x6 := by
  funext i
  obtain ⟨g, o, u, rfl⟩ : ∃ (g : Fin 32) (o : Fin 39) (u : Fin 1), i = ix3 g o u :=
    ⟨i 0, i 1, i 2, eq_ix3 i⟩
  rw [Read.val_main_v38_apply]
  have e : Read.idx_main_v38 (ix3 g o u) = ix2 g o := by
    funext a; match a with | ⟨0, _⟩ => rfl | ⟨1, _⟩ => rfl
  rw [e, out_apply, Cert.Spec.result_ix3]

end Cert.ReferenceIdeal.RefValue

end
-- ==== Proof.lean ====
/-
  The certificate's five claims.

  The kernel program computes a graph layer in three kernel regions among host operations — the two 16-column
  products of the node features with the two weights; the aggregation of the left product along the edges, with the
  edge count riding as a seventeenth column of ones; the division by the clamped count, the bias, the right product
  and the clamp below at zero; and the final product of each graph's flattened hidden block with the output weight,
  accumulated over eight blocks of the 65536 positions from a zero accumulator, plus the bias — and the reference
  computes the same layer with host operations only. At the ideal instance both end holding ONE function of the
  arguments (`Cert.Spec.result`): a change of float format is the identity, a matrix product into a zero
  accumulator is the plain sum of products, a sum cut into blocks is the whole sum and the zero it starts from is
  neutral (sums of extended reals form an additive commutative monoid, so no finiteness is used), the seventeenth
  column's sum of ones is the reference's separately scattered count, and both programs clamp and normalise the
  edges' source words with the same operations, which are never opened. The frames are the runs with the results
  dropped: the kernel program's run threads the buffers' contents through its seven items, and no item writes an
  argument. The idealization rewrote nothing, so `preserves` is trivial.
-/
import proofs.«177734_j84713934946331_2_alg».proof.Defs
import proofs.«177734_j84713934946331_2_alg».proof.Proof.Gen.Kernel
import proofs.«177734_j84713934946331_2_alg».proof.Proof.Gen.KernelIdeal
import proofs.«177734_j84713934946331_2_alg».proof.Proof.Gen.ReferenceIdeal
import proofs.«177734_j84713934946331_2_alg».proof.Proof.Gen.Pre_finite_inputs
import proofs.«177734_j84713934946331_2_alg».proof.Proof.Gen.ReferenceIdeal.Run
import proofs.«177734_j84713934946331_2_alg».proof.Proof.Gen.ReferenceIdeal.Read
import proofs.«177734_j84713934946331_2_alg».proof.Proof.MainRun
import proofs.«177734_j84713934946331_2_alg».proof.Proof.KMainRun
import proofs.«177734_j84713934946331_2_alg».proof.Proof.KernelValueB
import proofs.«177734_j84713934946331_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Run.frame m ρ

/-- So does the idealized kernel program. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs make the column of source rows, and the column of destination words, with the same operations. -/
theorem srcCol_eq (x1 : (⟨Cert.KernelIdeal.S2x4194304, .i32⟩ : BufTy).Contents (Elt Ideal)) :
    Cert.KernelIdeal.HostValue.srcCol x1 = Cert.ReferenceIdeal.RefValue.srcCol x1 := rfl
theorem dstCol_eq (x1 : (⟨Cert.KernelIdeal.S2x4194304, .i32⟩ : BufTy).Contents (Elt Ideal)) :
    Cert.KernelIdeal.HostValue.dstCol x1 = Cert.ReferenceIdeal.RefValue.dstCol x1 := rfl

/-- From memories agreeing on the arguments both programs end with the specification's result of those arguments. -/
theorem algebraic : Cert.algebraic_KernelIdeal_ReferenceIdeal := by
  intro m ρ m' ρ' _ hagree
  refine ⟨fun c => Cert.Spec.result (Cert.KernelIdeal.KValue.a0 m c)
      (Cert.KernelIdeal.HostValue.srcCol (Cert.KernelIdeal.KValue.a1 m c)) (Cert.KernelIdeal.HostValue.dstCol (Cert.KernelIdeal.KValue.a1 m c))
      (Cert.KernelIdeal.KValue.a2 m c) (Cert.KernelIdeal.KValue.a3 m c) (Cert.KernelIdeal.KValue.a4 m c)
      (Cert.KernelIdeal.KValue.a5 m c) (Cert.KernelIdeal.KValue.a6 m c), ?_, ?_⟩
  · exact (θ_run Cert.KernelIdeal.defs _ _).mono
      (fun r h c => ⟨(h c).1.trans (Cert.KernelIdeal.KValue.result_eq m c), (h c).2⟩) (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [h0, h1, h2, h3, h4, h5, h6]
    refine (Cert.ReferenceIdeal.Read.val_main_v38_eq (F := Ideal) _ _ _ _ _ _ _).trans ?_
    refine (Cert.ReferenceIdeal.RefValue.result_eq _ _ _ _ _ _ _).trans ?_
    rw [← srcCol_eq, ← dstCol_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
